-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S1x256x1x1 : Shape := ⟨4, ![1, 256, 1, 1]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S1x256x1x1 : S_.BroadcastsInDim S1x256x1x1 (![] : Fin 0 → Fin S1x256x1x1.rank)
  reducesTo_S1x256x1x1_S_d0_1_2_3 : S1x256x1x1.ReducesTo [0, 1, 2, 3] S_

variable [Facts]

def fn {F : FTy → Type} [FloatOps F] (main_arg0 : FVec F S64x256x56x56 .f32) (main_arg1 : FVec F S1x256x1x1 .f32) (main_arg2 : FVec F S1x256x1x1 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S1x256x1x1 .f32 := Host.absf main_arg1
  let main_cst_0 : FVec F S_ .f32 := constant S_ .f32 0x7F800000#32
  let main_v5 : FVec F S1x256x1x1 .f32 := broadcastInDim S1x256x1x1 ![] bcast_S_S1x256x1x1 main_cst_0
  let main_v6 : IVec S1x256x1x1 1 := cmpf .olt main_v4 main_v5
  let main_c_1 : IVec S_ 1 := constantI S_ 1 1#1
  let main_v7 : IVec S_ 1 := (fun x v => Host.reduce IntOp.andi x v reducesTo_S1x256x1x1_S_d0_1_2_3 h_S_) main_v6 main_c_1
  let main_v8 : IVec S_ 1 := andi main_v3 main_v7
  let main_v9 : FVec F S1x256x1x1 .f32 := Host.absf main_arg2
  let main_cst_2 : FVec F S_ .f32 := constant S_ .f32 0x7F800000#32
  let main_v10 : FVec F S1x256x1x1 .f32 := broadcastInDim S1x256x1x1 ![] bcast_S_S1x256x1x1 main_cst_2
  let main_v11 : IVec S1x256x1x1 1 := cmpf .olt main_v9 main_v10
  let main_c_3 : IVec S_ 1 := constantI S_ 1 1#1
  let main_v12 : IVec S_ 1 := (fun x v => Host.reduce IntOp.andi x v reducesTo_S1x256x1x1_S_d0_1_2_3 h_S_) main_v11 main_c_3
  let main_v13 : IVec S_ 1 := andi main_v8 main_v12
  main_v13
-- ==== Kernel.lean ====
abbrev S64x256x56x56 : Shape := ⟨4, ![64, 256, 56, 56]⟩
abbrev S1x256x1x1 : Shape := ⟨4, ![1, 256, 1, 1]⟩
abbrev S64x256x3136 : Shape := ⟨3, ![64, 256, 3136]⟩
abbrev S4x1x64 : Shape := ⟨3, ![4, 1, 64]⟩
abbrev S4x64x64 : Shape := ⟨3, ![4, 64, 64]⟩
abbrev S8x64x3136 : Shape := ⟨3, ![8, 64, 3136]⟩
abbrev S1x1x64 : Shape := ⟨3, ![1, 1, 64]⟩
abbrev S1x64x64 : Shape := ⟨3, ![1, 64, 64]⟩
abbrev S8x64 : Shape := ⟨2, ![8, 64]⟩
abbrev S64 : Shape := ⟨1, ![64]⟩
abbrev S64x64 : Shape := ⟨2, ![64, 64]⟩
abbrev S1x64x3136 : Shape := ⟨3, ![1, 64, 3136]⟩
abbrev S64x3136 : Shape := ⟨2, ![64, 3136]⟩
abbrev S3136x64 : Shape := ⟨2, ![3136, 64]⟩
abbrev S4x64 : Shape := ⟨2, ![4, 64]⟩
abbrev S_ : Shape := ⟨0, ![]⟩
abbrev S4x64x1 : Shape := ⟨3, ![4, 64, 1]⟩
abbrev S4 : Shape := ⟨1, ![4]⟩
abbrev S4x1x1 : Shape := ⟨3, ![4, 1, 1]⟩
abbrev S256 : Shape := ⟨1, ![256]⟩
abbrev S64x1 : Shape := ⟨2, ![64, 1]⟩

abbrev nBuf : Space → Nat
  | .hbm => 108
  | .vmem => 18
  | .smem => 0
  | _ => 0

abbrev bufTy : (tb : Table) → Fin (tcTables nBuf tb) → BufTy
  | .hbm, ⟨0, _⟩ => ⟨S64x256x56x56, .f32⟩
  | .hbm, ⟨1, _⟩ => ⟨S1x256x1x1, .f32⟩
  | .hbm, ⟨2, _⟩ => ⟨S1x256x1x1, .f32⟩
  | .hbm, ⟨3, _⟩ => ⟨S64x256x3136, .f32⟩
  | .hbm, ⟨4, _⟩ => ⟨S4x1x64, .f32⟩
  | .hbm, ⟨5, _⟩ => ⟨S4x64x64, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S64x64, .i32⟩
  | .hbm, ⟨11, _⟩ => ⟨S64x64, .i32⟩
  | .hbm, ⟨12, _⟩ => ⟨S_, .i32⟩
  | .hbm, ⟨13, _⟩ => ⟨S64x64, .i32⟩
  | .hbm, ⟨14, _⟩ => ⟨S64x64, .i32⟩
  | .hbm, ⟨15, _⟩ => ⟨S64x64, .i1⟩
  | .hbm, ⟨16, _⟩ => ⟨S64x64, .f32⟩
  | .hbm, ⟨17, _⟩ => ⟨S4x64x1, .f32⟩
  | .hbm, ⟨18, _⟩ => ⟨S4x1x64, .f32⟩
  | .hbm, ⟨19, _⟩ => ⟨S4x64x64, .f32⟩
  | .hbm, ⟨20, _⟩ => ⟨S4x64x64, .f32⟩
  | .hbm, ⟨21, _⟩ => ⟨S4x64x64, .f32⟩
  | .hbm, ⟨22, _⟩ => ⟨S1x64x64, .f32⟩
  | .hbm, ⟨23, _⟩ => ⟨S_, .f32⟩
  | .hbm, ⟨24, _⟩ => ⟨S1x64x64, .f32⟩
  | .hbm, ⟨25, _⟩ => ⟨S1x64x64, .f32⟩
  | .hbm, ⟨26, _⟩ => ⟨S_, .f32⟩
  | .hbm, ⟨27, _⟩ => ⟨S4x64x64, .f32⟩
  | .hbm, ⟨28, _⟩ => ⟨S4x64x64, .f32⟩
  | .hbm, ⟨29, _⟩ => ⟨S4x64x64, .f32⟩
  | .hbm, ⟨30, _⟩ => ⟨S4x64x64, .f32⟩
  | .hbm, ⟨31, _⟩ => ⟨S4x64x64, .f32⟩
  | .hbm, ⟨32, _⟩ => ⟨S64x64, .i32⟩
  | .hbm, ⟨33, _⟩ => ⟨S64x64, .i32⟩
  | .hbm, ⟨34, _⟩ => ⟨S64x64, .i1⟩
  | .hbm, ⟨35, _⟩ => ⟨S4x64x64, .i1⟩
  | .hbm, ⟨36, _⟩ => ⟨S_, .f32⟩
  | .hbm, ⟨37, _⟩ => ⟨S4x64x64, .f32⟩
  | .hbm, ⟨38, _⟩ => ⟨S4x64x64, .f32⟩
  | .hbm, ⟨39, _⟩ => ⟨S_, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S4x1x1, .f32⟩
  | .hbm, ⟨45, _⟩ => ⟨S4x64x64, .f32⟩
  | .hbm, ⟨46, _⟩ => ⟨S4x64x64, .f32⟩
  | .hbm, ⟨47, _⟩ => ⟨S4x64x64, .f32⟩
  | .hbm, ⟨48, _⟩ => ⟨S4x64x64, .f32⟩
  | .hbm, ⟨49, _⟩ => ⟨S4x64x64, .f32⟩
  | .hbm, ⟨50, _⟩ => ⟨S_, .f32⟩
  | .hbm, ⟨51, _⟩ => ⟨S4x64x64, .f32⟩
  | .hbm, ⟨52, _⟩ => ⟨S4x64x64, .f32⟩
  | .hbm, ⟨53, _⟩ => ⟨S4x64x64, .f32⟩
  | .hbm, ⟨54, _⟩ => ⟨S_, .f32⟩
  | .hbm, ⟨55, _⟩ => ⟨S4x64x64, .f32⟩
  | .hbm, ⟨56, _⟩ => ⟨S4x64x64, .f32⟩
  | .hbm, ⟨57, _⟩ => ⟨S4x64x64, .f32⟩
  | .hbm, ⟨58, _⟩ => ⟨S4x64x64, .f32⟩
  | .hbm, ⟨59, _⟩ => ⟨S4x64x64, .f32⟩
  | .hbm, ⟨60, _⟩ => ⟨S_, .f32⟩
  | .hbm, ⟨61, _⟩ => ⟨S4x64x64, .f32⟩
  | .hbm, ⟨62, _⟩ => ⟨S4x64x64, .f32⟩
  | .hbm, ⟨63, _⟩ => ⟨S4x64x64, .f32⟩
  | .hbm, ⟨64, _⟩ => ⟨S_, .f32⟩
  | .hbm, ⟨65, _⟩ => ⟨S4x64x64, .f32⟩
  | .hbm, ⟨66, _⟩ => ⟨S4x64x64, .f32⟩
  | .hbm, ⟨67, _⟩ => ⟨S4x64x64, .f32⟩
  | .hbm, ⟨68, _⟩ => ⟨S4x64x64, .f32⟩
  | .hbm, ⟨69, _⟩ => ⟨S4x64x64, .f32⟩
  | .hbm, ⟨70, _⟩ => ⟨S_, .f32⟩
  | .hbm, ⟨71, _⟩ => ⟨S4x64x64, .f32⟩
  | .hbm, ⟨72, _⟩ => ⟨S4x64x64, .f32⟩
  | .hbm, ⟨73, _⟩ => ⟨S4x64x64, .f32⟩
  | .hbm, ⟨74, _⟩ => ⟨S_, .f32⟩
  | .hbm, ⟨75, _⟩ => ⟨S4x64x64, .f32⟩
  | .hbm, ⟨76, _⟩ => ⟨S4x64x64, .f32⟩
  | .hbm, ⟨77, _⟩ => ⟨S4x64x64, .f32⟩
  | .hbm, ⟨78, _⟩ => ⟨S4x64x64, .f32⟩
  | .hbm, ⟨79, _⟩ => ⟨S4x64x64, .f32⟩
  | .hbm, ⟨80, _⟩ => ⟨S_, .f32⟩
  | .hbm, ⟨81, _⟩ => ⟨S4x64x64, .f32⟩
  | .hbm, ⟨82, _⟩ => ⟨S4x64x64, .f32⟩
  | .hbm, ⟨83, _⟩ => ⟨S4x64x64, .f32⟩
  | .hbm, ⟨84, _⟩ => ⟨S_, .f32⟩
  | .hbm, ⟨85, _⟩ => ⟨S4x64x64, .f32⟩
  | .hbm, ⟨86, _⟩ => ⟨S4x64x64, .f32⟩
  | .hbm, ⟨87, _⟩ => ⟨S4x64x64, .f32⟩
  | .hbm, ⟨88, _⟩ => ⟨S4x64x64, .f32⟩
  | .hbm, ⟨89, _⟩ => ⟨S4x64x64, .f32⟩
  | .hbm, ⟨90, _⟩ => ⟨S_, .f32⟩
  | .hbm, ⟨91, _⟩ => ⟨S4x64x64, .f32⟩
  | .hbm, ⟨92, _⟩ => ⟨S4x64x64, .f32⟩
  | .hbm, ⟨93, _⟩ => ⟨S4x64x64, .f32⟩
  | .hbm, ⟨94, _⟩ => ⟨S_, .f32⟩
  | .hbm, ⟨95, _⟩ => ⟨S4x64x64, .f32⟩
  | .hbm, ⟨96, _⟩ => ⟨S4x64x64, .f32⟩
  | .hbm, ⟨97, _⟩ => ⟨S4x64x64, .f32⟩
  | .hbm, ⟨98, _⟩ => ⟨S4x1x1, .f32⟩
  | .hbm, ⟨99, _⟩ => ⟨S4x64x64, .f32⟩
  | .hbm, ⟨100, _⟩ => ⟨S4x64x64, .f32⟩
  | .hbm, ⟨101, _⟩ => ⟨S4x1x64, .f32⟩
  | .hbm, ⟨102, _⟩ => ⟨S256, .f32⟩
  | .hbm, ⟨103, _⟩ => ⟨S4x1x64, .f32⟩
  | .hbm, ⟨104, _⟩ => ⟨S256, .f32⟩
  | .hbm, ⟨105, _⟩ => ⟨S4x1x64, .f32⟩
  | .hbm, ⟨106, _⟩ => ⟨S64x256x3136, .f32⟩
  | .hbm, ⟨107, _⟩ => ⟨S64x256x56x56, .f32⟩
  | .local _ .vmem, ⟨0, _⟩ => ⟨S8x64x3136, .f32⟩
  | .local _ .vmem, ⟨1, _⟩ => ⟨S8x64x3136, .f32⟩
  | .local _ .vmem, ⟨2, _⟩ => ⟨S1x1x64, .f32⟩
  | .local _ .vmem, ⟨3, _⟩ => ⟨S1x1x64, .f32⟩
  | .local _ .vmem, ⟨4, _⟩ => ⟨S1x64x64, .f32⟩
  | .local _ .vmem, ⟨5, _⟩ => ⟨S1x64x64, .f32⟩
  | .local _ .vmem, ⟨6, _⟩ => ⟨S8x64x3136, .f32⟩
  | .local _ .vmem, ⟨7, _⟩ => ⟨S8x64x3136, .f32⟩
  | .local _ .vmem, ⟨8, _⟩ => ⟨S1x64x64, .f32⟩
  | .local _ .vmem, ⟨9, _⟩ => ⟨S1x64x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .vmem, ⟨14, _⟩ => ⟨S1x1x64, .f32⟩
  | .local _ .vmem, ⟨15, _⟩ => ⟨S1x1x64, .f32⟩
  | .local _ .vmem, ⟨16, _⟩ => ⟨S8x64x3136, .f32⟩
  | .local _ .vmem, ⟨17, _⟩ => ⟨S8x64x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_13 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_14 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S8x64x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8x64x3136 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S64x256x56x56_S64x256x3136 : S64x256x56x56.ShapeCasts S64x256x3136
  inb_S1x1x64_S1x1x64_0_0_0 : ∀ a, (![0, 0, 0] : Fin 3 → Nat) a + S1x1x64.size a ≤ S1x1x64.size a
  h_S1x1x64 : 0 < S1x1x64.numel
  inb_S1x64x64_S1x64x64_0_0_0 : ∀ a, (![0, 0, 0] : Fin 3 → Nat) a + S1x64x64.size a ≤ S1x64x64.size a
  h_S1x64x64 : 0 < S1x64x64.numel
  inb_S8x64x3136_S8x64x3136_0_0_0 : ∀ a, (![0, 0, 0] : Fin 3 → Nat) a + S8x64x3136.size a ≤ S8x64x3136.size a
  h_S8x64x3136 : 0 < S8x64x3136.numel
  shapeCasts_S8x64x3136_S8x64x3136 : S8x64x3136.ShapeCasts S8x64x3136
  reduces_S8x64x3136_S8x64 : S8x64x3136.Reduces [2] S8x64
  reduces_S8x64_S64 : S8x64.Reduces [0] S64
  shapeCasts_S1x1x64_S1x1x64 : S1x1x64.ShapeCasts S1x1x64
  shapeCasts_S64_S1x1x64 : S64.ShapeCasts S1x1x64
  slices_S8x64x3136_o0_0_0_S1x64x3136 : S8x64x3136.Slices ![0, 0, 0] S1x64x3136
  shapeCasts_S1x64x3136_S64x3136 : S1x64x3136.ShapeCasts S64x3136
  transposes_S64x3136_p1_0_S3136x64 : S64x3136.Transposes [1, 0] S3136x64
  slices_S8x64x3136_o1_0_0_S1x64x3136 : S8x64x3136.Slices ![1, 0, 0] S1x64x3136
  slices_S8x64x3136_o2_0_0_S1x64x3136 : S8x64x3136.Slices ![2, 0, 0] S1x64x3136
  slices_S8x64x3136_o3_0_0_S1x64x3136 : S8x64x3136.Slices ![3, 0, 0] S1x64x3136
  slices_S8x64x3136_o4_0_0_S1x64x3136 : S8x64x3136.Slices ![4, 0, 0] S1x64x3136
  slices_S8x64x3136_o5_0_0_S1x64x3136 : S8x64x3136.Slices ![5, 0, 0] S1x64x3136
  slices_S8x64x3136_o6_0_0_S1x64x3136 : S8x64x3136.Slices ![6, 0, 0] S1x64x3136
  slices_S8x64x3136_o7_0_0_S1x64x3136 : S8x64x3136.Slices ![7, 0, 0] S1x64x3136
  shapeCasts_S1x64x64_S1x64x64 : S1x64x64.ShapeCasts S1x64x64
  shapeCasts_S64x64_S1x64x64 : S64x64.ShapeCasts S1x64x64
  shapeCasts_S4x1x64_S4x64 : S4x1x64.ShapeCasts S4x64
  bcast_S_S4x64 : S_.BroadcastsInDim S4x64 (![] : Fin 0 → Fin S4x64.rank)
  bcast_S_S64x64 : S_.BroadcastsInDim S64x64 (![] : Fin 0 → Fin S64x64.rank)
  bcast_S4x64_S4x64x1_0_1 : S4x64.BroadcastsInDim S4x64x1 (![0, 1] : Fin 2 → Fin S4x64x1.rank)
  bcast_S4x64_S4x1x64_0_2 : S4x64.BroadcastsInDim S4x1x64 (![0, 2] : Fin 2 → Fin S4x1x64.rank)
  bcast_S4x64x1_S4x64x64_0_1_2 : S4x64x1.BroadcastsInDim S4x64x64 (![0, 1, 2] : Fin 3 → Fin S4x64x64.rank)
  bcast_S4x1x64_S4x64x64_0_1_2 : S4x1x64.BroadcastsInDim S4x64x64 (![0, 1, 2] : Fin 3 → Fin S4x64x64.rank)
  bcast_S64x64_S1x64x64_1_2 : S64x64.BroadcastsInDim S1x64x64 (![1, 2] : Fin 2 → Fin S1x64x64.rank)
  bcast_S_S1x64x64 : S_.BroadcastsInDim S1x64x64 (![] : Fin 0 → Fin S1x64x64.rank)
  bcast_S_S4x64x64 : S_.BroadcastsInDim S4x64x64 (![] : Fin 0 → Fin S4x64x64.rank)
  bcast_S1x64x64_S4x64x64_0_1_2 : S1x64x64.BroadcastsInDim S4x64x64 (![0, 1, 2] : Fin 3 → Fin S4x64x64.rank)
  bcast_S64x64_S4x64x64_1_2 : S64x64.BroadcastsInDim S4x64x64 (![1, 2] : Fin 2 → Fin S4x64x64.rank)
  reducesTo_S4x64x64_S4_d1_2 : S4x64x64.ReducesTo [1, 2] S4
  h_S_ : 0 < S_.numel
  bcast_S_S4 : S_.BroadcastsInDim S4 (![] : Fin 0 → Fin S4.rank)
  bcast_S4_S4x1x1_0 : S4.BroadcastsInDim S4x1x1 (![0] : Fin 1 → Fin S4x1x1.rank)
  bcast_S4x1x1_S4x64x64_0_1_2 : S4x1x1.BroadcastsInDim S4x64x64 (![0, 1, 2] : Fin 3 → Fin S4x64x64.rank)
  shapeCasts_S4x64_S4x1x64 : S4x64.ShapeCasts S4x1x64
  shapeCasts_S1x256x1x1_S256 : S1x256x1x1.ShapeCasts S256
  shapeCasts_S256_S4x1x64 : S256.ShapeCasts S4x1x64
  shapeCasts_S1x64x64_S64x64 : S1x64x64.ShapeCasts S64x64
  shapeCasts_S1x1x64_S64 : S1x1x64.ShapeCasts S64
  shapeCasts_S64_S64x1 : S64.ShapeCasts S64x1
  broadcasts_S64x1_S64x3136 : S64x1.Broadcasts S64x3136
  inb_S8x64x3136_S1x64x3136_0_0_0 : ∀ a, (![0, 0, 0] : Fin 3 → Nat) a + S1x64x3136.size a ≤ S8x64x3136.size a
  h_S1x64x3136 : 0 < S1x64x3136.numel
  shapeCasts_S64x3136_S1x64x3136 : S64x3136.ShapeCasts S1x64x3136
  inb_S8x64x3136_S1x64x3136_1_0_0 : ∀ a, (![1, 0, 0] : Fin 3 → Nat) a + S1x64x3136.size a ≤ S8x64x3136.size a
  inb_S8x64x3136_S1x64x3136_2_0_0 : ∀ a, (![2, 0, 0] : Fin 3 → Nat) a + S1x64x3136.size a ≤ S8x64x3136.size a
  inb_S8x64x3136_S1x64x3136_3_0_0 : ∀ a, (![3, 0, 0] : Fin 3 → Nat) a + S1x64x3136.size a ≤ S8x64x3136.size a
  inb_S8x64x3136_S1x64x3136_4_0_0 : ∀ a, (![4, 0, 0] : Fin 3 → Nat) a + S1x64x3136.size a ≤ S8x64x3136.size a
  inb_S8x64x3136_S1x64x3136_5_0_0 : ∀ a, (![5, 0, 0] : Fin 3 → Nat) a + S1x64x3136.size a ≤ S8x64x3136.size a
  inb_S8x64x3136_S1x64x3136_6_0_0 : ∀ a, (![6, 0, 0] : Fin 3 → Nat) a + S1x64x3136.size a ≤ S8x64x3136.size a
  inb_S8x64x3136_S1x64x3136_7_0_0 : ∀ a, (![7, 0, 0] : Fin 3 → Nat) a + S1x64x3136.size a ≤ S8x64x3136.size a
  shapeCasts_S64x256x3136_S64x256x56x56 : S64x256x3136.ShapeCasts S64x256x56x56
  dot_S64x3136_S3136x64_S64x64_1_0_0_1_n_n_wf : DotDims.WF S64x3136 S3136x64 S64x64 [1] [0] [0] [1] [] []
  dot_S4x64x64_S4x64x64_S4x64x64_1_2_2_1_0_0_wf : DotDims.WF S4x64x64 S4x64x64 S4x64x64 [1] [2] [2] [1] [0] [0]
  dot_S4x64x64_S4x64x64_S4x64x64_1_1_2_2_0_0_wf : DotDims.WF S4x64x64 S4x64x64 S4x64x64 [1] [1] [2] [2] [0] [0]
  dot_S4x64x64_S4x64x64_S4x64x64_2_1_1_2_0_0_wf : DotDims.WF S4x64x64 S4x64x64 S4x64x64 [2] [1] [1] [2] [0] [0]
  dot_S64x64_S64x3136_S64x3136_1_0_0_1_n_n_wf : DotDims.WF S64x64 S64x3136 S64x3136 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x3136.size a ≤ S64x256x3136.size a
  hwx0_0 : ∀ i : grid0.Coords, EltTy.bits .f32 = 32 ∨ (Rect.block (s := S64x256x3136) S8x64x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64.size a ≤ S4x1x64.size a
  hwx0_1 : ∀ i : grid0.Coords, EltTy.bits .f32 = 32 ∨ (Rect.block (s := S4x1x64) S1x1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S4x64x64.size a
  hwx0_2 : ∀ i : grid0.Coords, EltTy.bits .f32 = 32 ∨ (Rect.block (s := S4x64x64) S1x64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x64x3136.size a ≤ S64x256x3136.size a
  hwx1_0 : ∀ i : grid1.Coords, EltTy.bits .f32 = 32 ∨ (Rect.block (s := S64x256x3136) S8x64x3136.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S4x64x64.size a
  hwx1_1 : ∀ i : grid1.Coords, EltTy.bits .f32 = 32 ∨ (Rect.block (s := S4x64x64) S1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64.size a ≤ S4x1x64.size a
  hwx1_2 : ∀ i : grid1.Coords, EltTy.bits .f32 = 32 ∨ (Rect.block (s := S4x1x64) S1x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S4x1x64.size a
  hwx1_3 : ∀ i : grid1.Coords, EltTy.bits .f32 = 32 ∨ (Rect.block (s := S4x1x64) S1x1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x64.size a ≤ S4x1x64.size a
  hwx1_4 : ∀ i : grid1.Coords, EltTy.bits .f32 = 32 ∨ (Rect.block (s := S4x1x64) S1x1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x64x3136.size a ≤ S64x256x3136.size a
  hwx1_5 : ∀ i : grid1.Coords, EltTy.bits .f32 = 32 ∨ (Rect.block (s := S64x256x3136) S8x64x3136.size (cc1_transform_5 i) (hinb1_5 i)).WholeWords (EltTy.packing .f32)

variable [Facts₀]

def dot_S64x3136_S3136x64_S64x64_1_0_0_1_n_n : DotDims S64x3136 S3136x64 S64x64 where
  lhsContracting := [1]
  rhsContracting := [0]
  lhsNonContracting := [0]
  rhsNonContracting := [1]
  lhsBatch := []
  rhsBatch := []
  wf := dot_S64x3136_S3136x64_S64x64_1_0_0_1_n_n_wf
def dot_S4x64x64_S4x64x64_S4x64x64_1_2_2_1_0_0 : DotDims S4x64x64 S4x64x64 S4x64x64 where
  lhsContracting := [1]
  rhsContracting := [2]
  lhsNonContracting := [2]
  rhsNonContracting := [1]
  lhsBatch := [0]
  rhsBatch := [0]
  wf := dot_S4x64x64_S4x64x64_S4x64x64_1_2_2_1_0_0_wf
def dot_S4x64x64_S4x64x64_S4x64x64_1_1_2_2_0_0 : DotDims S4x64x64 S4x64x64 S4x64x64 where
  lhsContracting := [1]
  rhsContracting := [1]
  lhsNonContracting := [2]
  rhsNonContracting := [2]
  lhsBatch := [0]
  rhsBatch := [0]
  wf := dot_S4x64x64_S4x64x64_S4x64x64_1_1_2_2_0_0_wf
def dot_S4x64x64_S4x64x64_S4x64x64_2_1_1_2_0_0 : DotDims S4x64x64 S4x64x64 S4x64x64 where
  lhsContracting := [2]
  rhsContracting := [1]
  lhsNonContracting := [1]
  rhsNonContracting := [2]
  lhsBatch := [0]
  rhsBatch := [0]
  wf := dot_S4x64x64_S4x64x64_S4x64x64_2_1_1_2_0_0_wf
def dot_S64x64_S64x3136_S64x3136_1_0_0_1_n_n : DotDims S64x64 S64x3136 S64x3136 where
  lhsContracting := [1]
  rhsContracting := [0]
  lhsNonContracting := [0]
  rhsNonContracting := [1]
  lhsBatch := []
  rhsBatch := []
  wf := dot_S64x64_S64x3136_S64x3136_1_0_0_1_n_n_wf

abbrev win0_0 : Pipeline.Window sig grid0 :=
  Pipeline.Window.ofSpec (Memref.whole main_v0) S8x64x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S8x64x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v79) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v80) S1x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v82) S1x1x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v84) S1x1x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v85) S8x64x3136.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x256x56x56 : Shape := ⟨4, ![64, 256, 56, 56]⟩
abbrev S1x256x1x1 : Shape := ⟨4, ![1, 256, 1, 1]⟩
abbrev S256x64x56x56 : Shape := ⟨4, ![256, 64, 56, 56]⟩
abbrev S4x64x200704 : Shape := ⟨3, ![4, 64, 200704]⟩
abbrev S_ : Shape := ⟨0, ![]⟩
abbrev S4x64 : Shape := ⟨2, ![4, 64]⟩
abbrev S4x64x1 : Shape := ⟨3, ![4, 64, 1]⟩
abbrev S64x64 : Shape := ⟨2, ![64, 64]⟩
abbrev S4x64x64 : Shape := ⟨3, ![4, 64, 64]⟩
abbrev S4 : Shape := ⟨1, ![4]⟩
abbrev S4x1x1 : Shape := ⟨3, ![4, 1, 1]⟩

abbrev nBuf : Space → Nat
  | .hbm => 104
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S1x256x1x1, .f32⟩
  | .hbm, ⟨2, _⟩ => ⟨S1x256x1x1, .f32⟩
  | .hbm, ⟨3, _⟩ => ⟨S256x64x56x56, .f32⟩
  | .hbm, ⟨4, _⟩ => ⟨S4x64x200704, .f32⟩
  | .hbm, ⟨5, _⟩ => ⟨S_, .f32⟩
  | .hbm, ⟨6, _⟩ => ⟨S4x64, .f32⟩
  | .hbm, ⟨7, _⟩ => ⟨S4x64x1, .f32⟩
  | .hbm, ⟨8, _⟩ => ⟨S_, .f32⟩
  | .hbm, ⟨9, _⟩ => ⟨S4x64x1, .f32⟩
  | .hbm, ⟨10, _⟩ => ⟨S4x64x1, .f32⟩
  | .hbm, ⟨11, _⟩ => ⟨S4x64x200704, .f32⟩
  | .hbm, ⟨12, _⟩ => ⟨S4x64x200704, .f32⟩
  | .hbm, ⟨13, _⟩ => ⟨S64x64, .i32⟩
  | .hbm, ⟨14, _⟩ => ⟨S64x64, .i32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S64x64, .f32⟩
  | .hbm, ⟨20, _⟩ => ⟨S4x64x64, .f32⟩
  | .hbm, ⟨21, _⟩ => ⟨S_, .f32⟩
  | .hbm, ⟨22, _⟩ => ⟨S4x64x64, .f32⟩
  | .hbm, ⟨23, _⟩ => ⟨S4x64x64, .f32⟩
  | .hbm, ⟨24, _⟩ => ⟨S4x64x64, .f32⟩
  | .hbm, ⟨25, _⟩ => ⟨S_, .f32⟩
  | .hbm, ⟨26, _⟩ => ⟨S4x64x64, .f32⟩
  | .hbm, ⟨27, _⟩ => ⟨S4x64x64, .f32⟩
  | .hbm, ⟨28, _⟩ => ⟨S4x64x64, .f32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S4x64x64, .i1⟩
  | .hbm, ⟨33, _⟩ => ⟨S_, .f32⟩
  | .hbm, ⟨34, _⟩ => ⟨S4x64x64, .f32⟩
  | .hbm, ⟨35, _⟩ => ⟨S4x64x64, .f32⟩
  | .hbm, ⟨36, _⟩ => ⟨S_, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S4x1x1, .f32⟩
  | .hbm, ⟨42, _⟩ => ⟨S4x64x64, .f32⟩
  | .hbm, ⟨43, _⟩ => ⟨S4x64x64, .f32⟩
  | .hbm, ⟨44, _⟩ => ⟨S4x64x64, .f32⟩
  | .hbm, ⟨45, _⟩ => ⟨S4x64x64, .f32⟩
  | .hbm, ⟨46, _⟩ => ⟨S_, .f32⟩
  | .hbm, ⟨47, _⟩ => ⟨S4x64x64, .f32⟩
  | .hbm, ⟨48, _⟩ => ⟨S4x64x64, .f32⟩
  | .hbm, ⟨49, _⟩ => ⟨S4x64x64, .f32⟩
  | .hbm, ⟨50, _⟩ => ⟨S_, .f32⟩
  | .hbm, ⟨51, _⟩ => ⟨S4x64x64, .f32⟩
  | .hbm, ⟨52, _⟩ => ⟨S4x64x64, .f32⟩
  | .hbm, ⟨53, _⟩ => ⟨S4x64x64, .f32⟩
  | .hbm, ⟨54, _⟩ => ⟨S4x64x64, .f32⟩
  | .hbm, ⟨55, _⟩ => ⟨S4x64x64, .f32⟩
  | .hbm, ⟨56, _⟩ => ⟨S_, .f32⟩
  | .hbm, ⟨57, _⟩ => ⟨S4x64x64, .f32⟩
  | .hbm, ⟨58, _⟩ => ⟨S4x64x64, .f32⟩
  | .hbm, ⟨59, _⟩ => ⟨S4x64x64, .f32⟩
  | .hbm, ⟨60, _⟩ => ⟨S_, .f32⟩
  | .hbm, ⟨61, _⟩ => ⟨S4x64x64, .f32⟩
  | .hbm, ⟨62, _⟩ => ⟨S4x64x64, .f32⟩
  | .hbm, ⟨63, _⟩ => ⟨S4x64x64, .f32⟩
  | .hbm, ⟨64, _⟩ => ⟨S4x64x64, .f32⟩
  | .hbm, ⟨65, _⟩ => ⟨S4x64x64, .f32⟩
  | .hbm, ⟨66, _⟩ => ⟨S_, .f32⟩
  | .hbm, ⟨67, _⟩ => ⟨S4x64x64, .f32⟩
  | .hbm, ⟨68, _⟩ => ⟨S4x64x64, .f32⟩
  | .hbm, ⟨69, _⟩ => ⟨S4x64x64, .f32⟩
  | .hbm, ⟨70, _⟩ => ⟨S_, .f32⟩
  | .hbm, ⟨71, _⟩ => ⟨S4x64x64, .f32⟩
  | .hbm, ⟨72, _⟩ => ⟨S4x64x64, .f32⟩
  | .hbm, ⟨73, _⟩ => ⟨S4x64x64, .f32⟩
  | .hbm, ⟨74, _⟩ => ⟨S4x64x64, .f32⟩
  | .hbm, ⟨75, _⟩ => ⟨S4x64x64, .f32⟩
  | .hbm, ⟨76, _⟩ => ⟨S_, .f32⟩
  | .hbm, ⟨77, _⟩ => ⟨S4x64x64, .f32⟩
  | .hbm, ⟨78, _⟩ => ⟨S4x64x64, .f32⟩
  | .hbm, ⟨79, _⟩ => ⟨S4x64x64, .f32⟩
  | .hbm, ⟨80, _⟩ => ⟨S_, .f32⟩
  | .hbm, ⟨81, _⟩ => ⟨S4x64x64, .f32⟩
  | .hbm, ⟨82, _⟩ => ⟨S4x64x64, .f32⟩
  | .hbm, ⟨83, _⟩ => ⟨S4x64x64, .f32⟩
  | .hbm, ⟨84, _⟩ => ⟨S4x64x64, .f32⟩
  | .hbm, ⟨85, _⟩ => ⟨S4x64x64, .f32⟩
  | .hbm, ⟨86, _⟩ => ⟨S_, .f32⟩
  | .hbm, ⟨87, _⟩ => ⟨S4x64x64, .f32⟩
  | .hbm, ⟨88, _⟩ => ⟨S4x64x64, .f32⟩
  | .hbm, ⟨89, _⟩ => ⟨S4x64x64, .f32⟩
  | .hbm, ⟨90, _⟩ => ⟨S_, .f32⟩
  | .hbm, ⟨91, _⟩ => ⟨S4x64x64, .f32⟩
  | .hbm, ⟨92, _⟩ => ⟨S4x64x64, .f32⟩
  | .hbm, ⟨93, _⟩ => ⟨S4x64x64, .f32⟩
  | .hbm, ⟨94, _⟩ => ⟨S4x1x1, .f32⟩
  | .hbm, ⟨95, _⟩ => ⟨S4x64x64, .f32⟩
  | .hbm, ⟨96, _⟩ => ⟨S4x64x64, .f32⟩
  | .hbm, ⟨97, _⟩ => ⟨S4x64x200704, .f32⟩
  | .hbm, ⟨98, _⟩ => ⟨S256x64x56x56, .f32⟩
  | .hbm, ⟨99, _⟩ => ⟨S64x256x56x56, .f32⟩
  | .hbm, ⟨100, _⟩ => ⟨S64x256x56x56, .f32⟩
  | .hbm, ⟨101, _⟩ => ⟨S64x256x56x56, .f32⟩
  | .hbm, ⟨102, _⟩ => ⟨S64x256x56x56, .f32⟩
  | .hbm, ⟨103, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩

abbrev nD : Nat := 1
abbrev τ : Topo := Topo.v7x

variable {F : FTy → Type} [FloatOps F]

class Facts₀ : Prop where
  transposes_S64x256x56x56_S256x64x56x56_1_0_2_3 : S64x256x56x56.Transposes [1, 0, 2, 3] S256x64x56x56
  shapeCasts_S256x64x56x56_S4x64x200704 : S256x64x56x56.ShapeCasts S4x64x200704
  reducesTo_S4x64x200704_S4x64_d2 : S4x64x200704.ReducesTo [2] S4x64
  h_S_ : 0 < S_.numel
  bcast_S4x64_S4x64x1_0_1 : S4x64.BroadcastsInDim S4x64x1 (![0, 1] : Fin 2 → Fin S4x64x1.rank)
  bcast_S_S4x64x1 : S_.BroadcastsInDim S4x64x1 (![] : Fin 0 → Fin S4x64x1.rank)
  bcast_S4x64x1_S4x64x200704_0_1_2 : S4x64x1.BroadcastsInDim S4x64x200704 (![0, 1, 2] : Fin 3 → Fin S4x64x200704.rank)
  bcast_S_S64x64 : S_.BroadcastsInDim S64x64 (![] : Fin 0 → Fin S64x64.rank)
  bcast_S64x64_S4x64x64_1_2 : S64x64.BroadcastsInDim S4x64x64 (![1, 2] : Fin 2 → Fin S4x64x64.rank)
  bcast_S_S4x64x64 : S_.BroadcastsInDim S4x64x64 (![] : Fin 0 → Fin S4x64x64.rank)
  reducesTo_S4x64x64_S4_d1_2 : S4x64x64.ReducesTo [1, 2] S4
  bcast_S_S4 : S_.BroadcastsInDim S4 (![] : Fin 0 → Fin S4.rank)
  bcast_S4_S4x1x1_0 : S4.BroadcastsInDim S4x1x1 (![0] : Fin 1 → Fin S4x1x1.rank)
  bcast_S4x1x1_S4x64x64_0_1_2 : S4x1x1.BroadcastsInDim S4x64x64 (![0, 1, 2] : Fin 3 → Fin S4x64x64.rank)
  shapeCasts_S4x64x200704_S256x64x56x56 : S4x64x200704.ShapeCasts S256x64x56x56
  transposes_S256x64x56x56_S64x256x56x56_1_0_2_3 : S256x64x56x56.Transposes [1, 0, 2, 3] S64x256x56x56
  bcast_S1x256x1x1_S64x256x56x56_0_1_2_3 : S1x256x1x1.BroadcastsInDim S64x256x56x56 (![0, 1, 2, 3] : Fin 4 → Fin S64x256x56x56.rank)
  dot_S4x64x200704_S4x64x200704_S4x64x64_2_2_1_1_0_0_wf : DotDims.WF S4x64x200704 S4x64x200704 S4x64x64 [2] [2] [1] [1] [0] [0]
  dot_S4x64x64_S4x64x64_S4x64x64_1_2_2_1_0_0_wf : DotDims.WF S4x64x64 S4x64x64 S4x64x64 [1] [2] [2] [1] [0] [0]
  dot_S4x64x64_S4x64x64_S4x64x64_1_1_2_2_0_0_wf : DotDims.WF S4x64x64 S4x64x64 S4x64x64 [1] [1] [2] [2] [0] [0]
  dot_S4x64x64_S4x64x64_S4x64x64_2_1_1_2_0_0_wf : DotDims.WF S4x64x64 S4x64x64 S4x64x64 [2] [1] [1] [2] [0] [0]
  dot_S4x64x64_S4x64x200704_S4x64x200704_2_1_1_2_0_0_wf : DotDims.WF S4x64x64 S4x64x200704 S4x64x200704 [2] [1] [1] [2] [0] [0]

variable [Facts₀]

def dot_S4x64x200704_S4x64x200704_S4x64x64_2_2_1_1_0_0 : DotDims S4x64x200704 S4x64x200704 S4x64x64 where
  lhsContracting := [2]
  rhsContracting := [2]
  lhsNonContracting := [1]
  rhsNonContracting := [1]
  lhsBatch := [0]
  rhsBatch := [0]
  wf := dot_S4x64x200704_S4x64x200704_S4x64x64_2_2_1_1_0_0_wf
def dot_S4x64x64_S4x64x64_S4x64x64_1_2_2_1_0_0 : DotDims S4x64x64 S4x64x64 S4x64x64 where
  lhsContracting := [1]
  rhsContracting := [2]
  lhsNonContracting := [2]
  rhsNonContracting := [1]
  lhsBatch := [0]
  rhsBatch := [0]
  wf := dot_S4x64x64_S4x64x64_S4x64x64_1_2_2_1_0_0_wf
def dot_S4x64x64_S4x64x64_S4x64x64_1_1_2_2_0_0 : DotDims S4x64x64 S4x64x64 S4x64x64 where
  lhsContracting := [1]
  rhsContracting := [1]
  lhsNonContracting := [2]
  rhsNonContracting := [2]
  lhsBatch := [0]
  rhsBatch := [0]
  wf := dot_S4x64x64_S4x64x64_S4x64x64_1_1_2_2_0_0_wf
def dot_S4x64x64_S4x64x64_S4x64x64_2_1_1_2_0_0 : DotDims S4x64x64 S4x64x64 S4x64x64 where
  lhsContracting := [2]
  rhsContracting := [1]
  lhsNonContracting := [1]
  rhsNonContracting := [2]
  lhsBatch := [0]
  rhsBatch := [0]
  wf := dot_S4x64x64_S4x64x64_S4x64x64_2_1_1_2_0_0_wf
def dot_S4x64x64_S4x64x200704_S4x64x200704_2_1_1_2_0_0 : DotDims S4x64x64 S4x64x200704 S4x64x200704 where
  lhsContracting := [2]
  rhsContracting := [1]
  lhsNonContracting := [1]
  rhsNonContracting := [2]
  lhsBatch := [0]
  rhsBatch := [0]
  wf := dot_S4x64x64_S4x64x200704_S4x64x200704_2_1_1_2_0_0_wf

class Facts : Prop extends Facts₀ where

variable [Facts]
-- ==== Proof.KTail.lean ====
/-
  The kernel's host arithmetic from a group's covariance matrix to its whitening matrix, as the program spells it:
  1 / trace (the trace by keeping the diagonal and summing), the covariance scaled to unit trace, five Newton–Schulz
  steps P ← 1.5·P − 0.5·((P·P)·P)·Sn from the identity, and the final scaling by sqrt (1 / trace).  The same chain of
  operations, in the same order, as on the reference's side; only the names of the shape records differ.
-/
import proofs.«165309_j63874753626715_1_alg».proof.Proof.Gen.KernelIdeal
import Idealize.ShloMosaic.PureOps.Ideal

noncomputable section

namespace Cert.KernelIdeal.KTail

open Cert.KernelIdeal Cert.KernelIdeal.Gen Idealize.ShloMosaic

/-- The 64×64 identity as the program computes it. -/
def eye : FVec Ideal S64x64 .f32 :=
  uitofp .f32 (cmpi .eq (addi (iotaInDim S64x64 32 0) (broadcastInDim S64x64 ![] bcast_S_S64x64 (constantI S_ 32 0#32))) (iotaInDim S64x64 32 1))

/-- 1 / trace, as [4,1,1]. -/
def rTr (S : FVec Ideal S4x64x64 .f32) : FVec Ideal S4x1x1 .f32 :=
  broadcastInDim S4x1x1 ![0] bcast_S4_S4x1x1_0 (Host.divf (broadcastInDim S4 ![] bcast_S_S4 (constant (F := Ideal) S_ .f32 0x3F800000#32)) (Host.reduceAdd (select (broadcastInDim S4x64x64 ![1, 2] bcast_S64x64_S4x64x64_1_2 (cmpi .eq (iotaInDim S64x64 32 0) (iotaInDim S64x64 32 1))) S (broadcastInDim S4x64x64 ![] bcast_S_S4x64x64 (constant (F := Ideal) S_ .f32 0x00000000#32))) (constant (F := Ideal) S_ .f32 0x00000000#32) reducesTo_S4x64x64_S4_d1_2 h_S_))

/-- The normalised covariance. -/
def sigN (S : FVec Ideal S4x64x64 .f32) : FVec Ideal S4x64x64 .f32 :=
  mulf S (broadcastInDim S4x64x64 ![0, 1, 2] bcast_S4x1x1_S4x64x64_0_1_2 (rTr S))

/-- One Newton–Schulz step. -/
def step (Sn P : FVec Ideal S4x64x64 .f32) : FVec Ideal S4x64x64 .f32 :=
  subf (mulf (broadcastInDim S4x64x64 ![] bcast_S_S4x64x64 (constant (F := Ideal) S_ .f32 0x3FC00000#32)) P) (mulf (broadcastInDim S4x64x64 ![] bcast_S_S4x64x64 (constant (F := Ideal) S_ .f32 0x3F000000#32)) (Host.dotGeneral (F := Ideal) dot_S4x64x64_S4x64x64_S4x64x64_2_1_1_2_0_0 none (Host.dotGeneral (F := Ideal) dot_S4x64x64_S4x64x64_S4x64x64_1_1_2_2_0_0 none (Host.dotGeneral (F := Ideal) dot_S4x64x64_S4x64x64_S4x64x64_1_2_2_1_0_0 none P P) P) Sn))

/-- From the covariance to the whitening matrix. -/
def tail (E : FVec Ideal S64x64 .f32) (S : FVec Ideal S4x64x64 .f32) : FVec Ideal S4x64x64 .f32 :=
  mulf (step (sigN S) (step (sigN S) (step (sigN S) (step (sigN S) (step (sigN S) (broadcastInDim S4x64x64 ![1, 2] bcast_S64x64_S4x64x64_1_2 E))))))
    (broadcastInDim S4x64x64 ![0, 1, 2] bcast_S4x1x1_S4x64x64_0_1_2 (Host.sqrt (rTr S)))

end Cert.KernelIdeal.KTail

end
-- ==== Proof.KHost.lean ====
/-
  The kernel's host arithmetic between its two passes, read off the line of operations.

  From the channel sums sx [4, 1, 64] and the raw second moments sxx [4, 64, 64] the program forms
    mean  = sx / 200704                                   (as [4, 64]),
    Sigma = (ε·E + sxx / 200704) − mean ⊗ mean            (E the 64×64 identity, the outer product per group),
  sends Sigma down the chain of KTail to the whitening matrices, and recasts the mean, the scale and the shift as
  rows [4, 1, 64].  Each of these is the composed term of the operations that write it.
-/
import proofs.«165309_j63874753626715_1_alg».proof.Proof.Gen.KernelIdeal.Frame
import proofs.«165309_j63874753626715_1_alg».proof.Proof.KTail
import Idealize.ShloMosaic.Lib.StableHlo.Run

set_option maxRecDepth 16384

noncomputable section

namespace Cert.KernelIdeal.KHost

open Cert.KernelIdeal Cert.KernelIdeal.Gen Cert.KernelIdeal.KTail Idealize.ShloMosaic Idealize.ShloMosaic.TcCoe Idealize.SL.Sem Idealize.ShloMosaic.StableHlo

/-- The channel means [4, 64] from the channel sums [4, 1, 64]. -/
def meanArr (sx : FVec Ideal S4x1x64 .f32) : FVec Ideal S4x64 .f32 :=
  Host.divf (shapeCast S4x64 sx shapeCasts_S4x1x64_S4x64) (broadcastInDim S4x64 ![] bcast_S_S4x64 (constant (F := Ideal) S_ .f32 0x48440000#32))

/-- The covariance from raw moments, as the program spells it. -/
def sigArr (sx : FVec Ideal S4x1x64 .f32) (sxx : FVec Ideal S4x64x64 .f32) : FVec Ideal S4x64x64 .f32 :=
  subf
    (addf
      (broadcastInDim S4x64x64 ![0, 1, 2] bcast_S1x64x64_S4x64x64_0_1_2
        (mulf (broadcastInDim S1x64x64 ![] bcast_S_S1x64x64 (constant (F := Ideal) S_ .f32 0x3727C5AC#32))
          (broadcastInDim S1x64x64 ![1, 2] bcast_S64x64_S1x64x64_1_2 eye)))
      (Host.divf sxx (broadcastInDim S4x64x64 ![] bcast_S_S4x64x64 (constant (F := Ideal) S_ .f32 0x48440000#32))))
    (mulf
      (broadcastInDim S4x64x64 ![0, 1, 2] bcast_S4x64x1_S4x64x64_0_1_2 (broadcastInDim S4x64x1 ![0, 1] bcast_S4x64_S4x64x1_0_1 (meanArr sx)))
      (broadcastInDim S4x64x64 ![0, 1, 2] bcast_S4x1x64_S4x64x64_0_1_2 (broadcastInDim S4x1x64 ![0, 2] bcast_S4x64_S4x1x64_0_2 (meanArr sx))))

variable (W : Valuation τ sig (Elt Ideal))

set_option maxHeartbeats 4000000 in
/-- The whitening matrices the middle stretch leaves. -/
theorem wm_eq : StableHlo.after (hostOps1 (F := Ideal)) W (Proc.devRef .tc main_v79)
    = tail eye (sigArr (W (Proc.devRef .tc main_v1_0)) (W (Proc.devRef .tc main_v1_1))) := by
  after_results_simp
  rfl

set_option maxHeartbeats 4000000 in
/-- The mean rows. -/
theorem mean3_eq : StableHlo.after (hostOps1 (F := Ideal)) W (Proc.devRef .tc main_v80)
    = shapeCast S4x1x64 (meanArr (W (Proc.devRef .tc main_v1_0))) shapeCasts_S4x64_S4x1x64 := by
  after_results_simp
  rfl

set_option maxHeartbeats 4000000 in
/-- The scale rows. -/
theorem wt3_eq : StableHlo.after (hostOps1 (F := Ideal)) W (Proc.devRef .tc main_v82)
    = shapeCast S4x1x64 (shapeCast S256 (W (Proc.devRef .tc main_arg1)) shapeCasts_S1x256x1x1_S256) shapeCasts_S256_S4x1x64 := by
  after_results_simp
  rfl

set_option maxHeartbeats 4000000 in
/-- The shift rows. -/
theorem bs3_eq : StableHlo.after (hostOps1 (F := Ideal)) W (Proc.devRef .tc main_v84)
    = shapeCast S4x1x64 (shapeCast S256 (W (Proc.devRef .tc main_arg2)) shapeCasts_S1x256x1x1_S256) shapeCasts_S256_S4x1x64 := by
  after_results_simp
  rfl

set_option maxHeartbeats 4000000 in
/-- The data array is not written by the middle stretch. -/
theorem x3_keep : StableHlo.after (hostOps1 (F := Ideal)) W (Proc.devRef .tc main_v0) = W (Proc.devRef .tc main_v0) := by
  after_results_simp

end Cert.KernelIdeal.KHost

end
-- ==== Proof.Spec.lean ====
/-
  The mathematics of group whitening, stated once over literal shapes and the extended reals.

  The input X has shape [64, 256, 56, 56]: 64 images, 256 channels in 4 groups of 64, 3136 = 56·56 pixels.
  Channel 64·g + d is channel d of group g.  For a group g the statistics run over the 64·3136 = 200704
  (image, pixel) pairs:
    sumX g d    = Σ_b Σ_p x[b, 64g+d, p]                     the channel sums,
    sumXX g d e = Σ_b Σ_p x[b, 64g+d, p] · x[b, 64g+e, p]    the raw second moments,
    mean g d    = sumX g d / 200704.
  The covariance matrix of a group is written in two ways,
    raw      (ε·E[d,e] + sumXX g d e / 200704) − mean g d · mean g e,
    centred   ε·E[d,e] + (Σ_b Σ_p (x_d − mean_d)(x_e − mean_e)) / 200704,
  with E an arbitrary 64×64 array (the identity matrix in the programs; nothing here looks inside it).
  For real (finite) inputs the two agree: Σ (x_d − μ_d)(x_e − μ_e) = Σ x_d x_e − n μ_d μ_e  (module Covariance).
  The output is, for a whitening matrix WM[g, d, e] and a mean mu g e,
    out[b, 64g+d, h, w] = (Σ_e WM[g,d,e] · (X[b, 64g+e, h, w] − mu g e)) · weight[64g+d] + bias[64g+d].
-/
import Idealize.ShloMosaic.PureOps.Ideal
import Idealize.ShloMosaic.Lib.ValueIdx

noncomputable section

namespace Cert.Whiten

open Idealize.ShloMosaic Idealize.ShloMosaic.ValueIdx

/-- The input's shape [64, 256, 56, 56]. -/
abbrev SX : Shape := ⟨4, ![64, 256, 56, 56]⟩
/-- The input with its two pixel axes joined, [64, 256, 3136]. -/
abbrev SX3 : Shape := ⟨3, ![64, 256, 3136]⟩
/-- The per-channel scale and shift, [1, 256, 1, 1]. -/
abbrev SP : Shape := ⟨4, ![1, 256, 1, 1]⟩
/-- One 64×64 matrix per group, [4, 64, 64]. -/
abbrev SG : Shape := ⟨3, ![4, 64, 64]⟩
/-- A 64×64 matrix. -/
abbrev SE : Shape := ⟨2, ![64, 64]⟩

/-- Channel d of group g is channel 64·g + d. -/
def chan (g : Fin 4) (d : Fin 64) : Fin 256 := ⟨64 * g.val + d.val, by omega⟩
/-- The group of a channel. -/
def grp (c : Fin 256) : Fin 4 := ⟨c.val / 64, by omega⟩
/-- The place of a channel inside its group. -/
def sub (c : Fin 256) : Fin 64 := ⟨c.val % 64, by omega⟩
/-- The row of pixel p of a 56×56 image. -/
def prow (p : Fin 3136) : Fin 56 := ⟨p.val / 56, by omega⟩
/-- The column of pixel p of a 56×56 image. -/
def pcol (p : Fin 3136) : Fin 56 := ⟨p.val % 56, by omega⟩
/-- Pixel (h, w) of a 56×56 image is pixel 56·h + w. -/
def pix (h w : Fin 56) : Fin 3136 := ⟨56 * h.val + w.val, by omega⟩

theorem chan_grp_sub (c : Fin 256) : chan (grp c) (sub c) = c := Fin.ext (by simp only [chan, grp, sub]; omega)
theorem grp_chan (g : Fin 4) (d : Fin 64) : grp (chan g d) = g := Fin.ext (by simp only [chan, grp]; omega)
theorem sub_chan (g : Fin 4) (d : Fin 64) : sub (chan g d) = d := Fin.ext (by simp only [chan, sub]; omega)
theorem prow_pix (h w : Fin 56) : prow (pix h w) = h := Fin.ext (by simp only [prow, pix]; omega)
theorem pcol_pix (h w : Fin 56) : pcol (pix h w) = w := Fin.ext (by simp only [pcol, pix]; omega)
theorem pix_prow_pcol (p : Fin 3136) : pix (prow p) (pcol p) = p := Fin.ext (by simp only [prow, pcol, pix]; omega)

/-- Entry (image b, channel d of group g, pixel p) of the input. -/
def xAt (X : SX.Idx → EReal) (g : Fin 4) (d : Fin 64) (b : Fin 64) (p : Fin 3136) : EReal :=
  X (ix4 b (chan g d) (prow p) (pcol p))

/-- The sum of channel d of group g over all images and pixels. -/
def sumX (X : SX.Idx → EReal) (g : Fin 4) (d : Fin 64) : EReal := ∑ b : Fin 64, ∑ p : Fin 3136, xAt X g d b p
/-- The raw second moment of channels d and e of group g. -/
def sumXX (X : SX.Idx → EReal) (g : Fin 4) (d e : Fin 64) : EReal :=
  ∑ b : Fin 64, ∑ p : Fin 3136, xAt X g d b p * xAt X g e b p
/-- The number of (image, pixel) pairs, 200704, as the programs write it (a float literal, exact). -/
def cnt : EReal := Ideal.ofBits .f32 0x48440000#32
/-- The regulariser ε as the programs write it (the same float literal in both). -/
def eps : EReal := Ideal.ofBits .f32 0x3727C5AC#32
/-- The mean of channel d of group g. -/
def mean (X : SX.Idx → EReal) (g : Fin 4) (d : Fin 64) : EReal := Ideal.div (sumX X g d) cnt
/-- The centred second moment of channels d and e of group g. -/
def sumCC (X : SX.Idx → EReal) (g : Fin 4) (d e : Fin 64) : EReal :=
  ∑ b : Fin 64, ∑ p : Fin 3136, (xAt X g d b p - mean X g d) * (xAt X g e b p - mean X g e)

/-- A group's covariance from the raw moments. -/
def sigRaw (E : SE.Idx → EReal) (X : SX.Idx → EReal) : SG.Idx → EReal := fun j =>
  (eps * E (ix2 (j 1) (j 2)) + Ideal.div (sumXX X (j 0) (j 1) (j 2)) cnt) - mean X (j 0) (j 1) * mean X (j 0) (j 2)
/-- A group's covariance from the centred data. -/
def sigCen (E : SE.Idx → EReal) (X : SX.Idx → EReal) : SG.Idx → EReal := fun j =>
  eps * E (ix2 (j 1) (j 2)) + Ideal.div (sumCC X (j 0) (j 1) (j 2)) cnt

/-- One output entry: whiten the centred channels of the entry's group, scale and shift. -/
def outAt (WM : SG.Idx → EReal) (mu : Fin 4 → Fin 64 → EReal) (X : SX.Idx → EReal) (wt bs : SP.Idx → EReal)
    (b : Fin 64) (c : Fin 256) (h w : Fin 56) : EReal :=
  (∑ e : Fin 64, WM (ix3 (grp c) (sub c) e) * (X (ix4 b (chan (grp c) e) h w) - mu (grp c) e))
    * wt (ix4 0 c 0 0) + bs (ix4 0 c 0 0)

/-- The whole output array. -/
def out (WM : SG.Idx → EReal) (mu : Fin 4 → Fin 64 → EReal) (X : SX.Idx → EReal) (wt bs : SP.Idx → EReal) :
    SX.Idx → EReal := fun j => outAt WM mu X wt bs (j 0) (j 1) (j 2) (j 3)

/-- One row of 64 per group, [4, 1, 64]. -/
abbrev SM : Shape := ⟨3, ![4, 1, 64]⟩

/-- The channel sums of an array [64, 256, 3136]. -/
def sumX3 (x : SX3.Idx → EReal) (g : Fin 4) (d : Fin 64) : EReal := ∑ b : Fin 64, ∑ p : Fin 3136, x (ix3 b (chan g d) p)
/-- The raw second moments of an array [64, 256, 3136]. -/
def sumXX3 (x : SX3.Idx → EReal) (g : Fin 4) (d e : Fin 64) : EReal :=
  ∑ b : Fin 64, ∑ p : Fin 3136, x (ix3 b (chan g d) p) * x (ix3 b (chan g e) p)

/-- The whitening pass as one function of its five arrays: the data [64, 256, 3136], one matrix per group
    [4, 64, 64], and the mean, scale and shift rows [4, 1, 64]. -/
def whiten3 (x : SX3.Idx → EReal) (wm : SG.Idx → EReal) (mu wt bs : SM.Idx → EReal) : SX3.Idx → EReal := fun j =>
  (∑ e : Fin 64, wm (ix3 (grp (j 1)) (sub (j 1)) e) * (x (ix3 (j 0) (chan (grp (j 1)) e) (j 2)) - mu (ix3 (grp (j 1)) 0 e)))
    * wt (ix3 (grp (j 1)) 0 (sub (j 1))) + bs (ix3 (grp (j 1)) 0 (sub (j 1)))

theorem whiten3_ix3 (x : SX3.Idx → EReal) (wm : SG.Idx → EReal) (mu wt bs : SM.Idx → EReal) (b : Fin 64) (c : Fin 256) (p : Fin 3136) :
    whiten3 x wm mu wt bs (ix3 b c p) =
      (∑ e : Fin 64, wm (ix3 (grp c) (sub c) e) * (x (ix3 b (chan (grp c) e) p) - mu (ix3 (grp c) 0 e)))
        * wt (ix3 (grp c) 0 (sub c)) + bs (ix3 (grp c) 0 (sub c)) := rfl

theorem out_ix4 (WM : SG.Idx → EReal) (mu : Fin 4 → Fin 64 → EReal) (X : SX.Idx → EReal) (wt bs : SP.Idx → EReal)
    (b : Fin 64) (c : Fin 256) (h w : Fin 56) : out WM mu X wt bs (ix4 b c h w) = outAt WM mu X wt bs b c h w := rfl

end Cert.Whiten

end
-- ==== Proof.LibPointOps.lean ====
/-
  Host operations on a stack of point clouds `B × N × K` read at an index — general in the extents.

  * a product contracting the channel axis against the rows of an `M × K` matrix reads, at `(p, n, o)`,
    `∑ₖ lhs (p, n, k) · rhs (o, k)`;
  * the maximum over the points reads, at `(p, k)`, the fold of `max` from the initial value over `n` of `x (p, n, k)`:
    `max` is commutative and associative, so the order of the fold does not matter;
  * two arrays joined along the channel axis read the first array below its extent and the second past it;
  * a `B × K` array given a middle unit axis, and a `B × 1 × K` array spread over the points.
-/
import Idealize.ShloMosaic.Lib.ValueIdx
import Idealize.ShloMosaic.Lib.Pipeline.Value
import Idealize.ShloMosaic.PureOps.Ideal.Laws

noncomputable section

open scoped BigOperators

namespace Cert.LibPointOps

open Idealize.ShloMosaic Idealize.ShloMosaic.ValueIdx

variable {B N K M : ℕ} {α : Type}

/-- The host's product over the channel axis, at `(p, n, o)`: `∑ₖ lhs (p, n, k) · rhs (o, k)`. -/
theorem dotLast_apply {φ₁ φ₂ : FTy}
    (D : DotDims (⟨3, ![B, N, K]⟩ : Shape) (⟨2, ![M, K]⟩ : Shape) (⟨3, ![B, N, M]⟩ : Shape))
    (hr : D.contr.rank = 1) (hs : D.contr.size ⟨0, by omega⟩ = K)
    (l0 : ∀ (i : (⟨3, ![B, N, M]⟩ : Shape).Idx) (q : D.contr.Idx), (D.lhsIdx i q 0).val = (i 0).val)
    (l1 : ∀ (i : (⟨3, ![B, N, M]⟩ : Shape).Idx) (q : D.contr.Idx), (D.lhsIdx i q 1).val = (i 1).val)
    (l2 : ∀ (i : (⟨3, ![B, N, M]⟩ : Shape).Idx) (q : D.contr.Idx), (D.lhsIdx i q 2).val = (q ⟨0, by omega⟩).val)
    (r0 : ∀ (i : (⟨3, ![B, N, M]⟩ : Shape).Idx) (q : D.contr.Idx), (D.rhsIdx i q 0).val = (i 2).val)
    (r1 : ∀ (i : (⟨3, ![B, N, M]⟩ : Shape).Idx) (q : D.contr.Idx), (D.rhsIdx i q 1).val = (q ⟨0, by omega⟩).val)
    (prec : Option ContractPrecision)
    (lhs : FVec Ideal (⟨3, ![B, N, K]⟩ : Shape) φ₁) (rhs : FVec Ideal (⟨2, ![M, K]⟩ : Shape) φ₂)
    (p : Fin B) (n : Fin N) (o : Fin M) :
    Host.dotGeneral D prec lhs rhs (ix3 p n o) = ∑ k : Fin K, (lhs (ix3 p n k) : EReal) * (rhs (ix2 o k) : EReal) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix3 p n o) ((contrEquiv1 D K hr hs).symm k) = ix3 p n k := funext fun a => Fin.ext (by
    match a with
    | ⟨0, _⟩ => exact l0 _ _
    | ⟨1, _⟩ => exact l1 _ _
    | ⟨2, _⟩ => exact (l2 _ _).trans hk)
  have er : D.rhsIdx (ix3 p n o) ((contrEquiv1 D K hr hs).symm k) = ix2 o k := funext fun a => Fin.ext (by
    match a with
    | ⟨0, _⟩ => exact r0 _ _
    | ⟨1, _⟩ => exact (r1 _ _).trans hk)
  rw [el, er]

/-- The host's maximum over the points, at `(p, k)`: the fold of `max` from the initial value over `n`. -/
theorem hostMidMax_apply {φ : FTy} {u : Shape} (x : FVec Ideal ⟨3, ![B, N, K]⟩ φ) (init : u.Idx → Ideal φ)
    (h' : (⟨3, ![B, N, K]⟩ : Shape).ReducesTo [1] ⟨2, ![B, K]⟩) (h : (⟨3, ![B, N, K]⟩ : Shape).Reduces [1] ⟨2, ![B, K]⟩)
    (hu : 0 < u.numel) (p : Fin B) (k : Fin K) :
    Host.reduce FloatOps.maximumf x init h' hu (ix2 p k)
      = (Finset.univ : Finset (Fin N)).fold max (init (Shape.Idx.first hu)) (fun n : Fin N => x (ix3 p n k)) := by
  refine (Host.reduce_eq_fold_single FloatOps.maximumf x init h' h hu (ix2 p k)).trans ?_
  have hf : (x ∘ h.lift (ix2 p k)) = fun n : Fin N => x (ix3 p n k) := funext fun n => congrArg x
    (funext fun c => Fin.ext (by match c with | ⟨0, _⟩ => rfl | ⟨1, _⟩ => rfl | ⟨2, _⟩ => rfl))
  exact congrArg (fun f => Finset.fold max (init (Shape.Idx.first hu)) f (Finset.univ : Finset (Fin N))) hf

variable {K1 K2 : ℕ}

/-- Two arrays joined along the channel axis: below the first array's extent, the first array. -/
theorem concatLast_left (x₁ : (⟨3, ![B, N, K1]⟩ : Shape).Idx → α) (x₂ : (⟨3, ![B, N, K2]⟩ : Shape).Idx → α)
    (h : Shape.Concatenates [(⟨3, ![B, N, K1]⟩ : Shape), (⟨3, ![B, N, K2]⟩ : Shape)] (⟨3, ![B, N, K]⟩ : Shape) 2)
    (p : Fin B) (n : Fin N) (q : Fin K) (hq : q.val < K1) :
    concatenate (⟨3, ![B, N, K]⟩ : Shape) 2 [⟨_, x₁⟩, ⟨_, x₂⟩] h (ix3 p n q) = x₁ (ix3 p n ⟨q.val, hq⟩) :=
  concatenate_pair_apply_left 2 x₁ x₂ h (ix3 p n q) rfl (ix3 p n ⟨q.val, hq⟩) (fun c => by
    match c with
    | ⟨0, _⟩ => rfl
    | ⟨1, _⟩ => rfl
    | ⟨2, _⟩ => rfl)

/-- Two arrays joined along the channel axis: past the first array's extent, the second array. -/
theorem concatLast_right (x₁ : (⟨3, ![B, N, K1]⟩ : Shape).Idx → α) (x₂ : (⟨3, ![B, N, K2]⟩ : Shape).Idx → α)
    (h : Shape.Concatenates [(⟨3, ![B, N, K1]⟩ : Shape), (⟨3, ![B, N, K2]⟩ : Shape)] (⟨3, ![B, N, K]⟩ : Shape) 2)
    (p : Fin B) (n : Fin N) (q : Fin K) (hq : K1 ≤ q.val) (hlt : q.val - K1 < K2) :
    concatenate (⟨3, ![B, N, K]⟩ : Shape) 2 [⟨_, x₁⟩, ⟨_, x₂⟩] h (ix3 p n q) = x₂ (ix3 p n ⟨q.val - K1, hlt⟩) :=
  concatenate_pair_apply_right 2 x₁ x₂ h (ix3 p n q) rfl rfl (ix3 p n ⟨q.val - K1, hlt⟩) (fun c hc => by
    match c with
    | ⟨0, _⟩ => rfl
    | ⟨1, _⟩ => rfl
    | ⟨2, _⟩ => exact absurd rfl hc) (by
    show (q.val - K1) + K1 = q.val
    omega)

/-- A `B × K` array given a middle unit axis reads, at `(p, z, k)`, the array at `(p, k)`. -/
theorem bcast_BK_B1K_apply (v : (⟨2, ![B, K]⟩ : Shape).Idx → α)
    (h : (⟨2, ![B, K]⟩ : Shape).BroadcastsInDim ⟨3, ![B, 1, K]⟩ ![0, 2]) (p : Fin B) (z : Fin 1) (k : Fin K) :
    broadcastInDim ⟨3, ![B, 1, K]⟩ ![0, 2] h v (ix3 p z k) = v (ix2 p k) :=
  broadcastInDim_apply _ h v (ix3 p z k) (ix2 p k) (fun a => match a with
    | ⟨0, _⟩ => by
      show p.val = if B = 1 then 0 else p.val
      split
      · have := p.isLt; omega
      · rfl
    | ⟨1, _⟩ => by
      show k.val = if K = 1 then 0 else k.val
      split
      · have := k.isLt; omega
      · rfl)

/-- A `B × 1 × K` array spread over the points reads, at `(p, n, k)`, the array at `(p, 0, k)`. -/
theorem bcast_B1K_BNK_apply (v : (⟨3, ![B, 1, K]⟩ : Shape).Idx → α)
    (h : (⟨3, ![B, 1, K]⟩ : Shape).BroadcastsInDim ⟨3, ![B, N, K]⟩ ![0, 1, 2]) (p : Fin B) (n : Fin N) (k : Fin K) :
    broadcastInDim ⟨3, ![B, N, K]⟩ ![0, 1, 2] h v (ix3 p n k) = v (ix3 p (0 : Fin 1) k) :=
  broadcastInDim_apply _ h v (ix3 p n k) (ix3 p (0 : Fin 1) k) (fun a => match a with
    | ⟨0, _⟩ => by
      show p.val = if B = 1 then 0 else p.val
      split
      · have := p.isLt; omega
      · rfl
    | ⟨1, _⟩ => by
      show 0 = if (1 : ℕ) = 1 then 0 else n.val
      rw [if_pos rfl]
    | ⟨2, _⟩ => by
      show k.val = if K = 1 then 0 else k.val
      split
      · have := k.isLt; omega
      · rfl)

/-- A `B × 1 × N` array with its unit axis dropped reads, at `(p, n)`, the array at `(p, 0, n)`. -/
theorem shapeCast_B1N_BN_apply (x : (⟨3, ![B, 1, N]⟩ : Shape).Idx → α)
    (h : (⟨3, ![B, 1, N]⟩ : Shape).ShapeCasts ⟨2, ![B, N]⟩) (p : Fin B) (n : Fin N) :
    shapeCast ⟨2, ![B, N]⟩ x h (ix2 p n) = x (ix3 p (0 : Fin 1) n) :=
  shapeCast_apply x h _ _ (by
    rw [Shape.rowMajor_val_three, Shape.rowMajor_val_two]
    show (p.val * 1 + 0) * N + n.val = p.val * N + n.val
    rw [Nat.mul_one, Nat.add_zero])

/-- An `B × 1 × K` array with its unit axis dropped, the other way: a `B × K` array cast to `B × 1 × K`. -/
theorem shapeCast_BN_B1N_apply (x : (⟨2, ![B, N]⟩ : Shape).Idx → α)
    (h : (⟨2, ![B, N]⟩ : Shape).ShapeCasts ⟨3, ![B, 1, N]⟩) (p : Fin B) (z : Fin 1) (n : Fin N) :
    shapeCast ⟨3, ![B, 1, N]⟩ x h (ix3 p z n) = x (ix2 p n) :=
  shapeCast_apply x h _ _ (by
    have hz : z.val = 0 := by omega
    rw [Shape.rowMajor_val_three, Shape.rowMajor_val_two]
    show p.val * N + n.val = (p.val * 1 + z.val) * N + n.val
    rw [hz, Nat.mul_one, Nat.add_zero])

end Cert.LibPointOps

end
-- ==== Proof.KIndex.lean ====
/-
  The kernel's host arithmetic read entry by entry.

  Reshapes keep the row-major position, so [64, 256, 56, 56] ↔ [64, 256, 3136] pairs pixel (h, w) with 56·h + w, and
  [1, 256, 1, 1] → [256] → [4, 1, 64] pairs channel c with (c / 64, 0, c % 64).  Broadcasts copy along the new axes.  So
  the mean at (g, d) is sx[g, 0, d] / 200704, and the covariance from raw moments at (g, d, e) is
      (ε·E[d, e] + sxx[g, d, e] / 200704) − mean[g, d] · mean[g, e].
-/
import proofs.«165309_j63874753626715_1_alg».proof.Proof.KHost
import proofs.«165309_j63874753626715_1_alg».proof.Proof.Spec
import proofs.«165309_j63874753626715_1_alg».proof.Proof.LibPointOps
import Idealize.ShloMosaic.Lib.Pipeline.Value
import Idealize.ShloMosaic.Lib.ValueIdx
import Idealize.ShloMosaic.Lib.IdealHost

set_option maxRecDepth 16384

noncomputable section

namespace Cert.KernelIdeal.KIndex

open Cert.KernelIdeal Cert.KernelIdeal.Gen Cert.KernelIdeal.KTail Cert.KernelIdeal.KHost Idealize.ShloMosaic Idealize.ShloMosaic.ValueIdx Cert.Whiten

/-! ## Reshapes -/

/-- X with its pixel axes joined: entry (b, c, p) is X[b, c, p / 56, p % 56]. -/
theorem join_pixels (X : FVec Ideal S64x256x56x56 .f32) (b : Fin 64) (c : Fin 256) (p : Fin 3136) :
    shapeCast S64x256x3136 X shapeCasts_S64x256x56x56_S64x256x3136 (ix3 b c p) = X (ix4 b c (prow p) (pcol p)) :=
  shapeCast_apply X _ (ix3 b c p) (ix4 b c (prow p) (pcol p)) (by
    rw [Shape.rowMajor_val_four, Shape.rowMajor_val_three]
    show ((b.val * 256 + c.val) * 56 + p.val / 56) * 56 + p.val % 56 = (b.val * 256 + c.val) * 3136 + p.val
    omega)

/-- The result with its pixel axis split: entry (b, c, h, w) is entry (b, c, 56·h + w). -/
theorem split_pixels (Y : FVec Ideal S64x256x3136 .f32) (b : Fin 64) (c : Fin 256) (h w : Fin 56) :
    shapeCast S64x256x56x56 Y shapeCasts_S64x256x3136_S64x256x56x56 (ix4 b c h w) = Y (ix3 b c (pix h w)) :=
  shapeCast_apply Y _ (ix4 b c h w) (ix3 b c (pix h w)) (by
    rw [Shape.rowMajor_val_four, Shape.rowMajor_val_three]
    show (b.val * 256 + c.val) * 3136 + (56 * h.val + w.val) = ((b.val * 256 + c.val) * 56 + h.val) * 56 + w.val
    omega)

/-- A per-channel parameter [1, 256, 1, 1] recast as rows [4, 1, 64]: entry (g, 0, d) is the parameter of channel 64·g + d. -/
theorem param_rows (wt : FVec Ideal S1x256x1x1 .f32) (g : Fin 4) (z : Fin 1) (d : Fin 64) :
    shapeCast S4x1x64 (shapeCast S256 wt shapeCasts_S1x256x1x1_S256) shapeCasts_S256_S4x1x64 (ix3 g z d)
      = wt (ix4 (0 : Fin 1) (chan g d) (0 : Fin 1) (0 : Fin 1)) := by
  have hz : z.val = 0 := by omega
  refine (shapeCast_apply _ shapeCasts_S256_S4x1x64 (ix3 g z d) (ix1 (chan g d)) (by
    rw [Shape.rowMajor_val_one, Shape.rowMajor_val_three]
    show 64 * g.val + d.val = (g.val * 1 + z.val) * 64 + d.val
    omega)).trans ?_
  exact shapeCast_apply wt shapeCasts_S1x256x1x1_S256 (ix1 (chan g d)) (ix4 (0 : Fin 1) (chan g d) (0 : Fin 1) (0 : Fin 1)) (by
    rw [Shape.rowMajor_val_four, Shape.rowMajor_val_one]
    show ((0 * 256 + (64 * g.val + d.val)) * 1 + 0) * 1 + 0 = 64 * g.val + d.val
    omega)

/-! ## The mean and the covariance, entry by entry -/

theorem cnt_bcast {T : Shape} (h : (⟨0, ![]⟩ : Shape).BroadcastsInDim T ![]) (j : T.Idx) :
    broadcastInDim T ![] h (constant (F := Ideal) S_ .f32 0x48440000#32) j = cnt :=
  broadcastInDim_scalar_apply h _ j

theorem eps_bcast {T : Shape} (h : (⟨0, ![]⟩ : Shape).BroadcastsInDim T ![]) (j : T.Idx) :
    broadcastInDim T ![] h (constant (F := Ideal) S_ .f32 0x3727C5AC#32) j = eps :=
  broadcastInDim_scalar_apply h _ j

/-- The mean at (g, d). -/
theorem meanArr_apply (sx : FVec Ideal S4x1x64 .f32) (g : Fin 4) (d : Fin 64) :
    meanArr sx (ix2 g d) = Ideal.div (sx (ix3 g (0 : Fin 1) d)) cnt := by
  unfold meanArr
  show Ideal.div (shapeCast S4x64 sx shapeCasts_S4x1x64_S4x64 (ix2 g d)) (broadcastInDim S4x64 ![] bcast_S_S4x64 (constant (F := Ideal) S_ .f32 0x48440000#32) (ix2 g d)) = _
  rw [cnt_bcast, Cert.LibPointOps.shapeCast_B1N_BN_apply]

/-- The mean rows at (g, 0, e). -/
theorem mean_rows (sx : FVec Ideal S4x1x64 .f32) (g : Fin 4) (z : Fin 1) (e : Fin 64) :
    shapeCast S4x1x64 (meanArr sx) shapeCasts_S4x64_S4x1x64 (ix3 g z e) = Ideal.div (sx (ix3 g (0 : Fin 1) e)) cnt := by
  rw [Cert.LibPointOps.shapeCast_BN_B1N_apply, meanArr_apply]

/-- The covariance from raw moments at (g, d, e). -/
theorem sigArr_apply (sx : FVec Ideal S4x1x64 .f32) (sxx : FVec Ideal S4x64x64 .f32) (g : Fin 4) (d e : Fin 64) :
    sigArr sx sxx (ix3 g d e)
      = (eps * eye (ix2 d e) + Ideal.div (sxx (ix3 g d e)) cnt)
        - Ideal.div (sx (ix3 g (0 : Fin 1) d)) cnt * Ideal.div (sx (ix3 g (0 : Fin 1) e)) cnt := by
  unfold sigArr
  have b1 : ∀ v : FVec Ideal S1x64x64 .f32, broadcastInDim S4x64x64 ![0, 1, 2] bcast_S1x64x64_S4x64x64_0_1_2 v (ix3 g d e) = v (ix3 (0 : Fin 1) d e) := fun v =>
    broadcastInDim_apply _ _ v (ix3 g d e) (ix3 (0 : Fin 1) d e) (fun a => match a with
      | ⟨0, _⟩ => rfl
      | ⟨1, _⟩ => rfl
      | ⟨2, _⟩ => rfl)
  have b2 : ∀ v : FVec Ideal S64x64 .f32, broadcastInDim S1x64x64 ![1, 2] bcast_S64x64_S1x64x64_1_2 v (ix3 (0 : Fin 1) d e) = v (ix2 d e) := fun v =>
    broadcastInDim_apply _ _ v (ix3 (0 : Fin 1) d e) (ix2 d e) (fun a => match a with
      | ⟨0, _⟩ => rfl
      | ⟨1, _⟩ => rfl)
  have b3 : ∀ v : FVec Ideal S4x64x1 .f32, broadcastInDim S4x64x64 ![0, 1, 2] bcast_S4x64x1_S4x64x64_0_1_2 v (ix3 g d e) = v (ix3 g d (0 : Fin 1)) := fun v =>
    broadcastInDim_apply _ _ v (ix3 g d e) (ix3 g d (0 : Fin 1)) (fun a => match a with
      | ⟨0, _⟩ => rfl
      | ⟨1, _⟩ => rfl
      | ⟨2, _⟩ => rfl)
  have b4 : ∀ v : FVec Ideal S4x64 .f32, broadcastInDim S4x64x1 ![0, 1] bcast_S4x64_S4x64x1_0_1 v (ix3 g d (0 : Fin 1)) = v (ix2 g d) := fun v =>
    broadcastInDim_apply _ _ v (ix3 g d (0 : Fin 1)) (ix2 g d) (fun a => match a with
      | ⟨0, _⟩ => rfl
      | ⟨1, _⟩ => rfl)
  show (broadcastInDim S4x64x64 ![0, 1, 2] bcast_S1x64x64_S4x64x64_0_1_2 (_ : FVec Ideal S1x64x64 .f32) (ix3 g d e)
        + Ideal.div (sxx (ix3 g d e)) (broadcastInDim S4x64x64 ![] bcast_S_S4x64x64 (constant (F := Ideal) S_ .f32 0x48440000#32) (ix3 g d e)))
      - broadcastInDim S4x64x64 ![0, 1, 2] bcast_S4x64x1_S4x64x64_0_1_2 (_ : FVec Ideal S4x64x1 .f32) (ix3 g d e)
        * broadcastInDim S4x64x64 ![0, 1, 2] bcast_S4x1x64_S4x64x64_0_1_2 (_ : FVec Ideal S4x1x64 .f32) (ix3 g d e) = _
  rw [b1, cnt_bcast, b3, b4, Cert.LibPointOps.bcast_B1K_BNK_apply, Cert.LibPointOps.bcast_BK_B1K_apply, meanArr_apply, meanArr_apply]
  show (broadcastInDim S1x64x64 ![] bcast_S_S1x64x64 (constant (F := Ideal) S_ .f32 0x3727C5AC#32) (ix3 (0 : Fin 1) d e)
        * broadcastInDim S1x64x64 ![1, 2] bcast_S64x64_S1x64x64_1_2 eye (ix3 (0 : Fin 1) d e) + _) - _ = _
  rw [eps_bcast, b2]

end Cert.KernelIdeal.KIndex

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.StatsBody.lean ====
import proofs.«165309_j63874753626715_1_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws
import Idealize.ShloMosaic.Lib.ValueLayout
import proofs.«165309_j63874753626715_1_alg».proof.Proof.LibPlainDot

set_option maxRecDepth 16384

/-!
  The statistics pass, one grid point at a time.

  At a point the body holds one block x of 8 images × 64 channels × 3136 pixels and two accumulators: a row of 64
  channel sums and a 64×64 matrix of second moments.  At the first tile of a group it clears both and then adds; at the
  other tiles it adds to what the tile before left.  What it adds is
      row:    d ↦ Σ_i Σ_p x[i, d, p]                 (a lane sum over pixels, then a sum over the 8 images),
      matrix: (d, e) ↦ Σ_i Σ_p x[i, d, p] · x[i, e, p]   (eight products x_i · x_iᵀ, each into a zero accumulator, added up).
-/

noncomputable section

open Idealize.ShloMosaic Idealize.ShloMosaic.TcCoe Idealize.SL.Sem
open Idealize.ShloMosaic.Pipeline (Dat)

namespace Cert.KernelIdeal.StatsBody

open Cert.KernelIdeal Cert.KernelIdeal.Gen

variable {F : FTy → Type} [FloatOps F]

theorem hz3 : (![0, 0, 0] : Fin 3 → Nat) = fun _ => 0 := funext fun a => by fin_cases a <;> rfl

/-! ## What each case leaves in the two accumulators, as the body's payloads -/

/-- A later tile of a group: the row accumulator holds the payload of the one covering store, over what it held. -/
theorem rowB (c : Dev nD) (i : grid0.Coords) (a2 : Memref sig .tc .vmem S8x64x3136 .f32) (h2 : a2.IsWhole)
    (a3 : Memref sig .tc .vmem S1x1x64 .f32) (h3 : a3.IsWhole) (a4 : Memref sig .tc .vmem S1x64x64 .f32) (h4 : a4.IsWhole)
    (hc : ¬cond0_0 i) (x : Vec F S8x64x3136 .f32) (xo1 : Vec F S1x1x64 .f32) (xo2 : Vec F S1x64x64 .f32) :
    out0_B_1 c i a2 h2 a3 h3 a4 h4 hc x xo1 xo2 = k0_pay5 x xo1 := by
  unfold out0_B_1
  rw [View.read_writes_eq_canon _ _ _ (cover0_B_1 c i a2 h2 a3 h3 a4 h4 hc x xo1 xo2)]
  unfold kernelRun0_B
  dsimp only
  rw [View.canon_unit_zero hz3]
  simp only [View.readAt_eq_ld, h2.read_unread, h3.read_unread, View.ld_unit_zero (S := S8x64x3136) hz3,
    View.ld_unit_zero (S := S1x1x64) hz3]

/-- A later tile of a group: the matrix accumulator likewise. -/
theorem matB (c : Dev nD) (i : grid0.Coords) (a2 : Memref sig .tc .vmem S8x64x3136 .f32) (h2 : a2.IsWhole)
    (a3 : Memref sig .tc .vmem S1x1x64 .f32) (h3 : a3.IsWhole) (a4 : Memref sig .tc .vmem S1x64x64 .f32) (h4 : a4.IsWhole)
    (hc : ¬cond0_0 i) (x : Vec F S8x64x3136 .f32) (xo1 : Vec F S1x1x64 .f32) (xo2 : Vec F S1x64x64 .f32) :
    out0_B_2 c i a2 h2 a3 h3 a4 h4 hc x xo1 xo2 = k0_pay1 (k0_pay4 x) (k0_pay6 x) (k0_pay7 x) xo2 := by
  unfold out0_B_2
  rw [View.read_writes_eq_canon _ _ _ (cover0_B_2 c i a2 h2 a3 h3 a4 h4 hc x xo1 xo2)]
  unfold kernelRun0_B
  dsimp only
  sl_unfold_words
  rw [View.canon_unit_zero hz3]
  simp only [View.readAt_eq_ld, h2.read_unread, h4.read_unread, View.ld_unit_zero (S := S8x64x3136) hz3,
    View.ld_unit_zero (S := S1x64x64) hz3]

/-- The first tile of a group: the row accumulator is cleared, then added to. -/
theorem rowA (c : Dev nD) (i : grid0.Coords) (a2 : Memref sig .tc .vmem S8x64x3136 .f32) (h2 : a2.IsWhole)
    (a3 : Memref sig .tc .vmem S1x1x64 .f32) (h3 : a3.IsWhole) (a4 : Memref sig .tc .vmem S1x64x64 .f32) (h4 : a4.IsWhole)
    (hc : cond0_0 i) (x : Vec F S8x64x3136 .f32) :
    out0_A_1 c i a2 h2 a3 h3 a4 h4 hc x = k0_pay5 x k0_pay2 := by
  unfold out0_A_1
  rw [View.read_writes_eq_canon _ _ _ (cover0_A_1 c i a2 h2 a3 h3 a4 h4 hc x)]
  unfold kernelRun0_A
  dsimp only
  sl_unfold_words
  rw [View.canon_cons_unit_zero (S := S1x1x64) hz3, View.readCov_unit_zero (S := S1x1x64) _ hz3]
  simp only [View.readAt_eq_ld, h2.read_unread, View.ld_unit_zero (S := S8x64x3136) hz3]

/-- The first tile of a group: the matrix accumulator is cleared, then added to. -/
theorem matA (c : Dev nD) (i : grid0.Coords) (a2 : Memref sig .tc .vmem S8x64x3136 .f32) (h2 : a2.IsWhole)
    (a3 : Memref sig .tc .vmem S1x1x64 .f32) (h3 : a3.IsWhole) (a4 : Memref sig .tc .vmem S1x64x64 .f32) (h4 : a4.IsWhole)
    (hc : cond0_0 i) (x : Vec F S8x64x3136 .f32) :
    out0_A_2 c i a2 h2 a3 h3 a4 h4 hc x = k0_pay1 (k0_pay4 x) (k0_pay6 x) (k0_pay7 x) k0_pay3 := by
  unfold out0_A_2
  rw [View.read_writes_eq_canon _ _ _ (cover0_A_2 c i a2 h2 a3 h3 a4 h4 hc x)]
  unfold kernelRun0_A
  dsimp only
  sl_unfold_words
  rw [View.canon_cons_unit_zero (S := S1x64x64) hz3, View.readCov_unit_zero (S := S1x64x64) _ hz3]
  simp only [View.readAt_eq_ld, h2.read_unread, View.ld_unit_zero (S := S8x64x3136) hz3]

/-! ## The payloads read at an index, over the extended reals -/

open Idealize.ShloMosaic.ValueIdx

/-- A lane sum over the pixels of an [8, 64, 3136] block. -/
theorem pixelSum_apply (src : FVec Ideal S8x64x3136 .f32) (acc : BitVec 32) (h : S8x64x3136.Reduces [2] S8x64)
    (hφ : FKind.Formats .f32) (hacc : acc = FKind.add.neutral .f32 hφ) (i : Fin 8) (d : Fin 64) :
    multiReduction .add [2] S8x64 src acc h hφ hacc (ix2 i d) = ∑ p : Fin 3136, src (ix3 i d p) := by
  refine (Ideal.multiReduction_add_single src acc h hφ hacc (ix2 i d)).trans ?_
  refine Finset.sum_congr rfl fun k _ => congrArg src ?_
  funext a
  apply Fin.ext
  match a with
  | ⟨0, _⟩ => rfl
  | ⟨1, _⟩ => rfl
  | ⟨2, _⟩ => rfl

/-- A sum over the 8 images of an [8, 64] table. -/
theorem imageSum_apply (src : FVec Ideal S8x64 .f32) (acc : BitVec 32) (h : S8x64.Reduces [0] S64)
    (hφ : FKind.Formats .f32) (hacc : acc = FKind.add.neutral .f32 hφ) (d : Fin 64) :
    multiReduction .add [0] S64 src acc h hφ hacc (ix1 d) = ∑ i : Fin 8, src (ix2 i d) := by
  refine (Ideal.multiReduction_add_single src acc h hφ hacc (ix1 d)).trans ?_
  refine Finset.sum_congr rfl fun k _ => congrArg src ?_
  funext a
  apply Fin.ext
  match a with
  | ⟨0, _⟩ => rfl
  | ⟨1, _⟩ => rfl

/-- What a point adds to the row accumulator: entry d gains Σ_i Σ_p x[i, d, p]. -/
theorem row_apply (x : Vec Ideal S8x64x3136 .f32) (v7 : Vec Ideal S1x1x64 .f32) (d : Fin 64) :
    k0_pay5 (F := Ideal) x v7 (ix3 (0 : Fin 1) (0 : Fin 1) d)
      = v7 (ix3 (0 : Fin 1) (0 : Fin 1) d) + ∑ i : Fin 8, ∑ p : Fin 3136, x (ix3 i d p) := by
  unfold k0_pay5 k0_pay4
  dsimp only
  simp only [shapeCast_self, addf_apply]
  refine congrArg (v7 (ix3 (0 : Fin 1) (0 : Fin 1) d) + ·) ?_
  refine (shapeCast_apply _ shapeCasts_S64_S1x1x64 (ix3 (0 : Fin 1) (0 : Fin 1) d) (ix1 d) (by
    rw [Shape.rowMajor_val_one, Shape.rowMajor_val_three]
    show d.val = (0 * 1 + 0) * 64 + d.val
    omega)).trans ?_
  refine (imageSum_apply _ _ _ _ _ d).trans ?_
  refine Finset.sum_congr rfl fun i _ => ?_
  exact pixelSum_apply _ _ _ _ _ i d

/-- One image's product x_i · x_iᵀ into a zero accumulator: entry (d, e) is Σ_p x[i, d, p] · x[i, e, p]. -/
theorem gram_apply (x : FVec Ideal S8x64x3136 .f32) (off : Fin 3 → Nat) (i : Fin 8) (hoff : off = ![i.val, 0, 0])
    (hs : S8x64x3136.Slices off S1x64x3136) (d e : Fin 64) :
    matmul (F := Ideal) dot_S64x3136_S3136x64_S64x64_1_0_0_1_n_n none
      (shapeCast S64x3136 (extractStridedSlice S1x64x3136 off x hs) shapeCasts_S1x64x3136_S64x3136)
      (transpose S3136x64 [1, 0] (shapeCast S64x3136 (extractStridedSlice S1x64x3136 off x hs) shapeCasts_S1x64x3136_S64x3136)
        transposes_S64x3136_p1_0_S3136x64)
      (constant S64x64 .f32 0x00000000#32) (ix2 d e)
    = ∑ p : Fin 3136, x (ix3 i d p) * x (ix3 i e p) := by
  subst hoff
  have hrow : ∀ (d' : Fin 64) (p : Fin 3136),
      shapeCast S64x3136 (extractStridedSlice S1x64x3136 ![i.val, 0, 0] x hs) shapeCasts_S1x64x3136_S64x3136 (ix2 d' p)
        = x (ix3 i d' p) := fun d' p =>
    (shapeCast_1ab_ab_apply _ _ d' p).trans
      (extractStridedSlice_apply _ x hs (ix3 (0 : Fin 1) d' p) (ix3 i d' p) (fun a => by
        match a with
        | ⟨0, _⟩ => show i.val = i.val + 0; omega
        | ⟨1, _⟩ => show d'.val = 0 + d'.val; omega
        | ⟨2, _⟩ => show p.val = 0 + p.val; omega))
  refine (Cert.PlainDot.matmul_zero_apply _ rfl rfl (fun _ _ => rfl) (fun _ _ => rfl) (fun _ _ => rfl) (fun _ _ => rfl) none _ _ d e).trans ?_
  refine Finset.sum_congr rfl fun p _ => ?_
  rw [hrow, transpose_ix2_apply, hrow]

/-- What a point adds to the matrix accumulator: entry (d, e) gains Σ_i Σ_p x[i, d, p] · x[i, e, p]. -/
theorem mat_apply (x : Vec Ideal S8x64x3136 .f32) (v53 : Vec Ideal S1x64x64 .f32) (d e : Fin 64) :
    k0_pay1 (F := Ideal) (k0_pay4 x) (k0_pay6 x) (k0_pay7 x) v53 (ix3 (0 : Fin 1) d e)
      = v53 (ix3 (0 : Fin 1) d e) + ∑ i : Fin 8, ∑ p : Fin 3136, x (ix3 i d p) * x (ix3 i e p) := by
  unfold k0_pay1 k0_pay6 k0_pay7 k0_pay4
  dsimp only
  simp only [shapeCast_self, addf_apply]
  refine congrArg (v53 (ix3 (0 : Fin 1) d e) + ·) ?_
  refine (shapeCast_ab_1ab_apply _ _ (0 : Fin 1) d e).trans ?_
  simp only [addf_apply, broadcast_apply]
  rw [gram_apply x ![0, 0, 0] 0 rfl, gram_apply x ![1, 0, 0] 1 rfl, gram_apply x ![2, 0, 0] 2 rfl, gram_apply x ![3, 0, 0] 3 rfl,
    gram_apply x ![4, 0, 0] 4 rfl, gram_apply x ![5, 0, 0] 5 rfl, gram_apply x ![6, 0, 0] 6 rfl, gram_apply x ![7, 0, 0] 7 rfl,
    Fin.sum_univ_eight]
  rw [show (FloatOps.ofBits (F := Ideal) FTy.f32 0x00000000#32 : EReal) = 0 from Ideal.ofBits_zero_f32, zero_add]

end Cert.KernelIdeal.StatsBody
end
-- ==== Proof.StatsRegion.lean ====
/-
  The statistics pass over its grid.

  The grid is 4 groups × 8 tiles of 8 images; point t works on group t / 8 and images 8·(t % 8) … 8·(t % 8) + 7.  The two
  accumulators of a group stay in place over its 8 tiles, are cleared at the first, and are written back after the
  last.  By induction on the point, after tile j of group g the row accumulator holds at d the sum over the first
  8·(j + 1) images (and all pixels) of channel 64·g + d, and the matrix accumulator at (d, e) the same sum of products of
  channels 64·g + d and 64·g + e.  After the last tile these are the full sums, and the write-backs of the four groups
  tile the two result arrays.
-/
import proofs.«165309_j63874753626715_1_alg».proof.Proof.StatsBody
import proofs.«165309_j63874753626715_1_alg».proof.Proof.Spec

set_option maxRecDepth 16384

noncomputable section

open Idealize.ShloMosaic Idealize.ShloMosaic.TcCoe Idealize.SL.Sem
open Idealize.ShloMosaic.Pipeline (Dat)

namespace Cert.KernelIdeal.StatsRegion

open Cert.KernelIdeal Cert.KernelIdeal.Gen Cert.KernelIdeal.StatsBody Idealize.ShloMosaic.ValueIdx Cert.Whiten

variable (V : (c : Dev nD) → (b : Ref sig .tc) → Buf (Elt Ideal) ((c : Thread nD τ).loc b))

/-- The printed index maps over the grid: the data block is (tile, group, 0), both accumulators' block is (group, 0, 0). -/
theorem idx_facts : ∀ t : Fin cfg0.N,
    win0_0.index t (0 : Fin 3) = t.val % 8 ∧ win0_0.index t (1 : Fin 3) = t.val / 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- The data array as the region finds it. -/
abbrev X3 (c : Dev nD) : SX3.Idx → EReal := V c main_v0

/-- Entry (i, d, p) of point t's data block is entry (8·(t % 8) + i, 64·(t / 8) + d, p) of the array. -/
theorem blk_apply (c : Dev nD) (t : Fin cfg0.N) (i : Fin 8) (d : Fin 64) (p : Fin 3136)
    (hb : 8 * (t.val % 8) + i.val < 64) (hg : t.val / 8 < 4) :
    (iblk0 V c 0 t : Vec Ideal S8x64x3136 .f32) (ix3 i d p)
      = X3 V c (ix3 ⟨8 * (t.val % 8) + i.val, hb⟩ (chan ⟨t.val / 8, hg⟩ d) p) := by
  obtain ⟨e0, e1, e2, -⟩ := idx_facts t
  unfold iblk0
  rw [View.read_apply]
  show V c main_v0 (((cfg0.win 0).blk t).view.emb (ix3 i d p)) = V c main_v0 _
  refine congrArg _ (funext fun a => Fin.ext ?_)
  match a with
  | ⟨0, _⟩ => show win0_0.index t (0 : Fin 3) * 8 + 1 * i.val = 8 * (t.val % 8) + i.val; omega
  | ⟨1, _⟩ => show win0_0.index t (1 : Fin 3) * 64 + 1 * d.val = 64 * (t.val / 8) + d.val; omega
  | ⟨2, _⟩ => show win0_0.index t (2 : Fin 3) * 3136 + 1 * p.val = p.val; omega

/-- Image b's share of a channel sum; zero outside the array. -/
def rowTerm (X : SX3.Idx → EReal) (g : ℕ) (d : Fin 64) (b : ℕ) : EReal :=
  if h : b < 64 ∧ g < 4 then ∑ p : Fin 3136, X (ix3 ⟨b, h.1⟩ (chan ⟨g, h.2⟩ d) p) else 0
/-- Image b's share of a second moment; zero outside the array. -/
def matTerm (X : SX3.Idx → EReal) (g : ℕ) (d e : Fin 64) (b : ℕ) : EReal :=
  if h : b < 64 ∧ g < 4 then ∑ p : Fin 3136, X (ix3 ⟨b, h.1⟩ (chan ⟨g, h.2⟩ d) p) * X (ix3 ⟨b, h.1⟩ (chan ⟨g, h.2⟩ e) p) else 0

theorem lt32 (t : Fin cfg0.N) : t.val < 32 := lt_of_lt_of_eq t.isLt (N_0 : cfg0.N = 32)

/-- What point t adds to the row accumulator. -/
theorem add_row (c : Dev nD) (t : Fin cfg0.N) (v7 : Vec Ideal S1x1x64 .f32) (d : Fin 64) :
    k0_pay5 (F := Ideal) (iblk0 V c 0 t) v7 (ix3 (0 : Fin 1) (0 : Fin 1) d)
      = v7 (ix3 (0 : Fin 1) (0 : Fin 1) d) + ∑ k ∈ Finset.range 8, rowTerm (X3 V c) (t.val / 8) d (8 * (t.val % 8) + k) := by
  have ht := lt32 t
  refine (row_apply _ v7 d).trans (congrArg (v7 (ix3 (0 : Fin 1) (0 : Fin 1) d) + ·) ?_)
  rw [Finset.sum_range]
  refine Finset.sum_congr rfl fun i _ => ?_
  have hi := i.isLt
  unfold rowTerm
  rw [dif_pos ⟨by omega, by omega⟩]
  exact Finset.sum_congr rfl fun p _ => blk_apply V c t i d p (by omega) (by omega)

/-- What point t adds to the matrix accumulator. -/
theorem add_mat (c : Dev nD) (t : Fin cfg0.N) (v53 : Vec Ideal S1x64x64 .f32) (d e : Fin 64) :
    k0_pay1 (F := Ideal) (k0_pay4 (iblk0 V c 0 t)) (k0_pay6 (iblk0 V c 0 t)) (k0_pay7 (iblk0 V c 0 t)) v53 (ix3 (0 : Fin 1) d e)
      = v53 (ix3 (0 : Fin 1) d e) + ∑ k ∈ Finset.range 8, matTerm (X3 V c) (t.val / 8) d e (8 * (t.val % 8) + k) := by
  have ht := lt32 t
  refine (mat_apply _ v53 d e).trans (congrArg (v53 (ix3 (0 : Fin 1) d e) + ·) ?_)
  rw [Finset.sum_range]
  refine Finset.sum_congr rfl fun i _ => ?_
  have hi := i.isLt
  unfold matTerm
  rw [dif_pos ⟨by omega, by omega⟩]
  exact Finset.sum_congr rfl fun p _ => by
    rw [blk_apply V c t i d p (by omega) (by omega), blk_apply V c t i e p (by omega) (by omega)]

theorem zero_row (j : S1x1x64.Idx) : k0_pay2 (F := Ideal) j = 0 := Ideal.ofBits_zero_f32
theorem zero_mat (j : S1x64x64.Idx) : k0_pay3 (F := Ideal) j = 0 := Ideal.ofBits_zero_f32

/-- THE RUNNING SUMS: after point n both accumulators hold the sums over the first 8·(n % 8 + 1) images of group n / 8. -/
theorem running (c : Dev nD) : ∀ (n : ℕ) (h : n < cfg0.N),
    (∀ d : Fin 64, (outsAt0 V c n h).1 (ix3 (0 : Fin 1) (0 : Fin 1) d)
        = ∑ k ∈ Finset.range (8 * (n % 8 + 1)), rowTerm (X3 V c) (n / 8) d k)
    ∧ (∀ d e : Fin 64, (outsAt0 V c n h).2 (ix3 (0 : Fin 1) d e)
        = ∑ k ∈ Finset.range (8 * (n % 8 + 1)), matTerm (X3 V c) (n / 8) d e k)
  | 0, h => by
    have hA := outsAt0_A V c ⟨0, h⟩ rfl
    refine ⟨fun d => ?_, fun d e => ?_⟩
    · refine (congrArg (fun pr : Vec Ideal S1x1x64 .f32 × Vec Ideal S1x64x64 .f32 => pr.1 (ix3 (0 : Fin 1) (0 : Fin 1) d)) hA).trans ?_
      dsimp only
      rw [rowA]
      refine (add_row V c ⟨0, h⟩ _ d).trans ?_
      rw [zero_row, zero_add]
      exact Finset.sum_congr rfl fun k _ => by simp
    · refine (congrArg (fun pr : Vec Ideal S1x1x64 .f32 × Vec Ideal S1x64x64 .f32 => pr.2 (ix3 (0 : Fin 1) d e)) hA).trans ?_
      dsimp only
      rw [matA]
      refine (add_mat V c ⟨0, h⟩ _ d e).trans ?_
      rw [zero_mat, zero_add]
      exact Finset.sum_congr rfl fun k _ => by simp
  | n + 1, h => by
    by_cases h0 : (n + 1) % 8 = 0
    · have hA := outsAt0_A V c ⟨n + 1, h⟩ h0
      refine ⟨fun d => ?_, fun d e => ?_⟩
      · refine (congrArg (fun pr : Vec Ideal S1x1x64 .f32 × Vec Ideal S1x64x64 .f32 => pr.1 (ix3 (0 : Fin 1) (0 : Fin 1) d)) hA).trans ?_
        dsimp only
        rw [rowA]
        refine (add_row V c ⟨n + 1, h⟩ _ d).trans ?_
        rw [zero_row, zero_add]
        dsimp only
        rw [h0]
        exact Finset.sum_congr rfl fun k _ => by simp
      · refine (congrArg (fun pr : Vec Ideal S1x1x64 .f32 × Vec Ideal S1x64x64 .f32 => pr.2 (ix3 (0 : Fin 1) d e)) hA).trans ?_
        dsimp only
        rw [matA]
        refine (add_mat V c ⟨n + 1, h⟩ _ d e).trans ?_
        rw [zero_mat, zero_add]
        dsimp only
        rw [h0]
        exact Finset.sum_congr rfl fun k _ => by simp
    · have hB := outsAt0_B V c ⟨n + 1, h⟩ h0
      have ih := running c n (Nat.lt_of_succ_lt h)
      have hm : n % 8 + 1 = (n + 1) % 8 := by omega
      have hq : n / 8 = (n + 1) / 8 := by omega
      refine ⟨fun d => ?_, fun d e => ?_⟩
      · refine (congrArg (fun pr : Vec Ideal S1x1x64 .f32 × Vec Ideal S1x64x64 .f32 => pr.1 (ix3 (0 : Fin 1) (0 : Fin 1) d)) hB).trans ?_
        dsimp only
        rw [rowB]
        refine (add_row V c ⟨n + 1, h⟩ _ d).trans ?_
        have e1 : (outsAt0 V c (n + 1 - 1) (Nat.lt_of_le_of_lt (Nat.sub_le _ _) h)).1 (ix3 (0 : Fin 1) (0 : Fin 1) d)
            = ∑ k ∈ Finset.range (8 * (n % 8 + 1)), rowTerm (X3 V c) (n / 8) d k := ih.1 d
        dsimp only at e1 ⊢
        rw [e1, hm, hq, Nat.mul_succ, Finset.sum_range_add]
      · refine (congrArg (fun pr : Vec Ideal S1x1x64 .f32 × Vec Ideal S1x64x64 .f32 => pr.2 (ix3 (0 : Fin 1) d e)) hB).trans ?_
        dsimp only
        rw [matB]
        refine (add_mat V c ⟨n + 1, h⟩ _ d e).trans ?_
        have e1 : (outsAt0 V c (n + 1 - 1) (Nat.lt_of_le_of_lt (Nat.sub_le _ _) h)).2 (ix3 (0 : Fin 1) d e)
            = ∑ k ∈ Finset.range (8 * (n % 8 + 1)), matTerm (X3 V c) (n / 8) d e k := ih.2 d e
        dsimp only at e1 ⊢
        rw [e1, hm, hq, Nat.mul_succ, Finset.sum_range_add]

/-! ## After a group's last tile: the full sums -/

theorem full_row (X : SX3.Idx → EReal) (g : Fin 4) (d : Fin 64) :
    ∑ k ∈ Finset.range 64, rowTerm X g.val d k = sumX3 X g d := by
  rw [Finset.sum_range]
  unfold sumX3
  refine Finset.sum_congr rfl fun b _ => ?_
  unfold rowTerm
  rw [dif_pos ⟨b.isLt, g.isLt⟩]

theorem full_mat (X : SX3.Idx → EReal) (g : Fin 4) (d e : Fin 64) :
    ∑ k ∈ Finset.range 64, matTerm X g.val d e k = sumXX3 X g d e := by
  rw [Finset.sum_range]
  unfold sumXX3
  refine Finset.sum_congr rfl fun b _ => ?_
  unfold matTerm
  rw [dif_pos ⟨b.isLt, g.isLt⟩]

/-- The channel sums as an array [4, 1, 64]. -/
abbrev sumsArr (X : SX3.Idx → EReal) : S4x1x64.Idx → EReal := fun j => sumX3 X (j 0) (j 2)
/-- The raw second moments as an array [4, 64, 64]. -/
abbrev momentsArr (X : SX3.Idx → EReal) : S4x64x64.Idx → EReal := fun j => sumXX3 X (j 0) (j 1) (j 2)

/-! ## The write-backs and the result arrays -/

/-- What a group's last tile writes back to the sums array is that group's row of full sums. -/
theorem flushed_sums (c : Dev nD) (t : Fin cfg0.N) (hf : (cfg0.win 1).flush t = true) :
    (dat0 V c).flushed 1 t = ((cfg0.win 1).blk t).view.read (Elt Ideal) (sumsArr (X3 V c)) := by
  have h7 : t.val % 8 = 7 := (flush0_1 t).mp hf
  have ht := lt32 t
  obtain ⟨-, -, -, e3, e4, e5, -⟩ := idx_facts t
  show (cfg0.win 1).cut (grid0.coords t) ((dat0 V c).after 1 t) = _
  rw [after0_1]
  funext y
  rw [View.read_apply]
  obtain ⟨u, v, d, rfl⟩ : ∃ (u v : Fin 1) (d : Fin 64), y = ix3 u v d := ⟨y 0, y 1, y 2, eq_ix3 y⟩
  obtain rfl : u = 0 := Subsingleton.elim _ _
  obtain rfl : v = 0 := Subsingleton.elim _ _
  have hemb : ((cfg0.win 1).blk t).view.emb (ix3 (0 : Fin 1) (0 : Fin 1) d)
      = (ix3 (⟨t.val / 8, by omega⟩ : Fin 4) (0 : Fin 1) d : S4x1x64.Idx) := by
    funext a; apply Fin.ext
    match a with
    | ⟨0, _⟩ => show win0_1.index t (0 : Fin 3) * 1 + 1 * 0 = t.val / 8; omega
    | ⟨1, _⟩ => show win0_1.index t (1 : Fin 3) * 1 + 1 * 0 = 0; omega
    | ⟨2, _⟩ => show win0_1.index t (2 : Fin 3) * 64 + 1 * d.val = d.val; omega
  rw [hemb]
  show (outsAt0 V c t.val t.isLt).1 (ix3 (0 : Fin 1) (0 : Fin 1) d) = sumX3 (X3 V c) ⟨t.val / 8, _⟩ d
  rw [(running V c t.val t.isLt).1 d, h7]
  exact full_row _ ⟨t.val / 8, _⟩ d

/-- What a group's last tile writes back to the moments array is that group's matrix of full sums. -/
theorem flushed_moments (c : Dev nD) (t : Fin cfg0.N) (hf : (cfg0.win 2).flush t = true) :
    (dat0 V c).flushed 2 t = ((cfg0.win 2).blk t).view.read (Elt Ideal) (momentsArr (X3 V c)) := by
  have h7 : t.val % 8 = 7 := (flush0_2 t).mp hf
  have ht := lt32 t
  obtain ⟨-, -, -, -, -, -, e6, e7, e8⟩ := idx_facts t
  show (cfg0.win 2).cut (grid0.coords t) ((dat0 V c).after 2 t) = _
  rw [after0_2]
  funext y
  rw [View.read_apply]
  obtain ⟨u, d, e, rfl⟩ : ∃ (u : Fin 1) (d e : Fin 64), y = ix3 u d e := ⟨y 0, y 1, y 2, eq_ix3 y⟩
  obtain rfl : u = 0 := Subsingleton.elim _ _
  have hemb : ((cfg0.win 2).blk t).view.emb (ix3 (0 : Fin 1) d e)
      = (ix3 (⟨t.val / 8, by omega⟩ : Fin 4) d e : S4x64x64.Idx) := by
    funext a; apply Fin.ext
    match a with
    | ⟨0, _⟩ => show win0_2.index t (0 : Fin 3) * 1 + 1 * 0 = t.val / 8; omega
    | ⟨1, _⟩ => show win0_2.index t (1 : Fin 3) * 64 + 1 * d.val = d.val; omega
    | ⟨2, _⟩ => show win0_2.index t (2 : Fin 3) * 64 + 1 * e.val = e.val; omega
  rw [hemb]
  show (outsAt0 V c t.val t.isLt).2 (ix3 (0 : Fin 1) d e) = sumXX3 (X3 V c) ⟨t.val / 8, _⟩ d e
  rw [(running V c t.val t.isLt).2 d e, h7]
  exact full_mat _ ⟨t.val / 8, _⟩ d e

theorem mem_sums_blk (t : Fin cfg0.N) (i : S4x1x64.Idx) :
    i ∈ ((cfg0.win 1).blk t).view.set ↔ ∀ a : Fin 3, win0_1.index t a * S1x1x64.size a ≤ (i a).val ∧ (i a).val < win0_1.index t a * S1x1x64.size a + S1x1x64.size a := by
  show i ∈ ((View.whole main_v1_0).slice (win0_1.rect t)).set ↔ _
  rw [View.set_slice_whole, Rect.mem_set_unit]
  exact Iff.rfl

theorem mem_moments_blk (t : Fin cfg0.N) (i : S4x64x64.Idx) :
    i ∈ ((cfg0.win 2).blk t).view.set ↔ ∀ a : Fin 3, win0_2.index t a * S1x64x64.size a ≤ (i a).val ∧ (i a).val < win0_2.index t a * S1x64x64.size a + S1x64x64.size a := by
  show i ∈ ((View.whole main_v1_1).slice (win0_2.rect t)).set ↔ _
  rw [View.set_slice_whole, Rect.mem_set_unit]
  exact Iff.rfl

/-- THE SUMS ARRAY after the pass: group g's row is written back by its last tile, point 8·g + 7. -/
theorem final_sums (c : Dev nD) : (dat0 V c).arrAt 1 cfg0.N = sumsArr (X3 V c) :=
  (dat0 V c).arrAt_eq_of_cover 1 (sumsArr (X3 V c)) (flushed_sums V c) fun i => by
    have hi0 : (i 0).val < 4 := (i 0).isLt
    have hi1 : (i 1).val < 1 := (i 1).isLt
    have hi2 : (i 2).val < 64 := (i 2).isLt
    have hN : cfg0.N = 32 := N_0
    obtain ⟨-, -, -, e3, e4, e5, -⟩ := idx_facts ⟨8 * (i 0).val + 7, by omega⟩
    dsimp only at e3
    refine ⟨⟨8 * (i 0).val + 7, by omega⟩, (flush0_1 _).mpr (by show (8 * (i 0).val + 7) % 8 = 7; omega), ?_⟩
    rw [mem_sums_blk]
    intro a
    match a with
    | ⟨0, _⟩ => show win0_1.index _ (0 : Fin 3) * 1 ≤ (i 0).val ∧ (i 0).val < win0_1.index _ (0 : Fin 3) * 1 + 1; omega
    | ⟨1, _⟩ => show win0_1.index _ (1 : Fin 3) * 1 ≤ (i 1).val ∧ (i 1).val < win0_1.index _ (1 : Fin 3) * 1 + 1; omega
    | ⟨2, _⟩ => show win0_1.index _ (2 : Fin 3) * 64 ≤ (i 2).val ∧ (i 2).val < win0_1.index _ (2 : Fin 3) * 64 + 64; omega

/-- THE MOMENTS ARRAY after the pass. -/
theorem final_moments (c : Dev nD) : (dat0 V c).arrAt 2 cfg0.N = momentsArr (X3 V c) :=
  (dat0 V c).arrAt_eq_of_cover 2 (momentsArr (X3 V c)) (flushed_moments V c) fun i => by
    have hi0 : (i 0).val < 4 := (i 0).isLt
    have hi1 : (i 1).val < 64 := (i 1).isLt
    have hi2 : (i 2).val < 64 := (i 2).isLt
    have hN : cfg0.N = 32 := N_0
    obtain ⟨-, -, -, -, -, -, e6, e7, e8⟩ := idx_facts ⟨8 * (i 0).val + 7, by omega⟩
    dsimp only at e6
    refine ⟨⟨8 * (i 0).val + 7, by omega⟩, (flush0_2 _).mpr (by show (8 * (i 0).val + 7) % 8 = 7; omega), ?_⟩
    rw [mem_moments_blk]
    intro a
    match a with
    | ⟨0, _⟩ => show win0_2.index _ (0 : Fin 3) * 1 ≤ (i 0).val ∧ (i 0).val < win0_2.index _ (0 : Fin 3) * 1 + 1; omega
    | ⟨1, _⟩ => show win0_2.index _ (1 : Fin 3) * 64 ≤ (i 1).val ∧ (i 1).val < win0_2.index _ (1 : Fin 3) * 64 + 64; omega
    | ⟨2, _⟩ => show win0_2.index _ (2 : Fin 3) * 64 ≤ (i 2).val ∧ (i 2).val < win0_2.index _ (2 : Fin 3) * 64 + 64; omega

end Cert.KernelIdeal.StatsRegion

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.WhitenBody.lean ====
/-
  The whitening pass on one block, entry by entry.

  A block holds 8 images of one group's 64 channels over the 3136 pixels, the group's 64 × 64 whitening matrix and its
  mean, scale and shift rows.  For each image b the pass forms the 64 × 3136 matrix of centred channels
  (x[b, e, p] − mean[e]), multiplies it on the left by the whitening matrix, scales row c by scale[c] and adds shift[c]:

    out[b, c, p] = (Σ_e wm[c, e] · (x[b, e, p] − mean[e])) · scale[c] + shift[c].

  This module reads that value off the arithmetic of each of the eight stores, once for an image at any offset, and then
  names the eight instances.
-/
import proofs.«165309_j63874753626715_1_alg».proof.Proof.Gen.KernelIdeal.Skeleton
import proofs.«165309_j63874753626715_1_alg».proof.Proof.LibColumns
import proofs.«165309_j63874753626715_1_alg».proof.Proof.LibPlainDot
import Idealize.ShloMosaic.Lib.ValueLayout

noncomputable section

open scoped BigOperators

namespace Cert.KernelIdeal.WhitenRegion

open Cert.KernelIdeal Cert.KernelIdeal.Gen Idealize.ShloMosaic Idealize.ShloMosaic.ValueIdx

/-- One entry of the whitened block: image b, channel c, pixel p. -/
def blockAt (x : S8x64x3136.Idx → EReal) (wm : S1x64x64.Idx → EReal) (mu wt bs : S1x1x64.Idx → EReal)
    (b : Fin 8) (c : Fin 64) (p : Fin 3136) : EReal :=
  (∑ e : Fin 64, wm (ix3 (0 : Fin 1) c e) * (x (ix3 b e p) - mu (ix3 (0 : Fin 1) (0 : Fin 1) e)))
    * wt (ix3 (0 : Fin 1) (0 : Fin 1) c) + bs (ix3 (0 : Fin 1) (0 : Fin 1) c)

/-- The whitened block as a function of the block's index. -/
def blockOut (x : S8x64x3136.Idx → EReal) (wm : S1x64x64.Idx → EReal) (mu wt bs : S1x1x64.Idx → EReal) :
    S8x64x3136.Idx → EReal := fun y => blockAt x wm mu wt bs (y 0) (y 1) (y 2)

/-- A row of 64 numbers held as a 1 × 1 × 64 block, recast as a vector, reads the row's entry. -/
theorem row_as_vector_apply {α : Type} (v : S1x1x64.Idx → α) (h : S1x1x64.ShapeCasts S64) (e : Fin 64) :
    shapeCast S64 v h (ix1 e) = v (ix3 (0 : Fin 1) (0 : Fin 1) e) :=
  shapeCast_apply v h _ _ (by
    rw [Shape.rowMajor_val_three, Shape.rowMajor_val_one]
    show ((0 * 1 + 0) * 64 + e.val) = e.val
    omega)

/-- The same row recast as a 64 × 1 column reads, at row e, the row's entry e. -/
theorem row_as_column_apply {α : Type} (v : S1x1x64.Idx → α) (h : S1x1x64.ShapeCasts S64) (h' : S64.ShapeCasts S64x1)
    (e : Fin 64) (z : Fin 1) :
    shapeCast S64x1 (shapeCast S64 v h) h' (ix2 e z) = v (ix3 (0 : Fin 1) (0 : Fin 1) e) :=
  (Cert.LibColumns.shapeCast_a_a1_apply _ h' e z).trans (row_as_vector_apply v h e)

/-- The product of the 64 × 64 matrix with a 64 × 3136 matrix into a zero accumulator, at entry (c, p). -/
theorem whiten_dot_apply (l : FVec Ideal S64x64 .f32) (r : FVec Ideal S64x3136 .f32) (c : Fin 64) (p : Fin 3136) :
    matmul (F := Ideal) dot_S64x64_S64x3136_S64x3136_1_0_0_1_n_n none l r (constant (F := Ideal) S64x3136 .f32 0x00000000#32) (ix2 c p)
      = ∑ e : Fin 64, l (ix2 c e) * r (ix2 e p) :=
  Cert.PlainDot.matmul_zero_apply dot_S64x64_S64x3136_S64x3136_1_0_0_1_n_n rfl rfl
    (fun _ _ => rfl) (fun i q => DotDims.lhsIdx_val_of_single _ rfl i q)
    (fun i q => DotDims.rhsIdx_val_of_single _ rfl i q) (fun _ _ => rfl) none l r c p

/-- One image's store, whatever the image's offset o in the block: the slice of image o as a 64 × 3136 matrix, centred
    by the mean column, multiplied by the whitening matrix, scaled and shifted row by row, and recast as a 1 × 64 × 3136
    block, read at (u, c, p). -/
theorem image_apply (o : Nat) (hs : S8x64x3136.Slices ![o, 0, 0] S1x64x3136) (h1 : S1x64x3136.ShapeCasts S64x3136)
    (hb : S64x1.Broadcasts S64x3136) (h2 : S64x3136.ShapeCasts S1x64x3136)
    (v1 : FVec Ideal S8x64x3136 .f32) (v3 : FVec Ideal S64x64 .f32) (v6 v9 v12 : FVec Ideal S64x1 .f32)
    (b : Fin 8) (hbo : b.val = o) (u : Fin 1) (c : Fin 64) (p : Fin 3136) :
    shapeCast S1x64x3136
        (addf (mulf (matmul (F := Ideal) dot_S64x64_S64x3136_S64x3136_1_0_0_1_n_n none v3
              (subf (shapeCast S64x3136 (extractStridedSlice S1x64x3136 ![o, 0, 0] v1 hs) h1) (broadcastTo S64x3136 v6 hb))
              (constant (F := Ideal) S64x3136 .f32 0x00000000#32))
            (broadcastTo S64x3136 v9 hb))
          (broadcastTo S64x3136 v12 hb)) h2 (ix3 u c p)
      = (∑ e : Fin 64, v3 (ix2 c e) * (v1 (ix3 b e p) - v6 (ix2 e (0 : Fin 1)))) * v9 (ix2 c (0 : Fin 1))
          + v12 (ix2 c (0 : Fin 1)) := by
  rw [shapeCast_ab_1ab_apply, addf_apply, mulf_apply, whiten_dot_apply, Cert.LibColumns.broadcastTo_a1_ab_apply,
    Cert.LibColumns.broadcastTo_a1_ab_apply]
  congr 2
  refine Finset.sum_congr rfl fun e _ => ?_
  rw [subf_apply, shapeCast_1ab_ab_apply, Cert.LibColumns.broadcastTo_a1_ab_apply]
  congr 2
  refine extractStridedSlice_apply _ _ _ _ (ix3 b e p) fun a => ?_
  match a with
  | ⟨0, _⟩ => show b.val = o + 0; omega
  | ⟨1, _⟩ => exact (Nat.zero_add _).symm
  | ⟨2, _⟩ => exact (Nat.zero_add _).symm

/-- The same value over the block as loaded: the matrix and the three columns are the loaded 1 × 64 × 64 and 1 × 1 × 64
    blocks recast, the data block is recast to its own shape. -/
theorem recast_apply (X0 : Vec Ideal S8x64x3136 .f32) (X1 : Vec Ideal S1x64x64 .f32) (X2 X3 X4 : Vec Ideal S1x1x64 .f32)
    (b : Fin 8) (c : Fin 64) (p : Fin 3136) :
    (∑ e : Fin 64, k1_pay5 X1 (ix2 c e) * (k1_pay4 X0 (ix3 b e p) - k1_pay6 X2 (ix2 e (0 : Fin 1))))
        * k1_pay7 X3 (ix2 c (0 : Fin 1)) + k1_pay8 X4 (ix2 c (0 : Fin 1))
      = blockAt X0 X1 X2 X3 X4 b c p := by
  unfold blockAt k1_pay4 k1_pay5 k1_pay6 k1_pay7 k1_pay8
  simp only [shapeCast_self, shapeCast_1ab_ab_apply, row_as_column_apply]

variable (X0 : Vec Ideal S8x64x3136 .f32) (X1 : Vec Ideal S1x64x64 .f32) (X2 X3 X4 : Vec Ideal S1x1x64 .f32)
  (u : Fin 1) (c : Fin 64) (p : Fin 3136)

/-- The store of image 0. -/
theorem image0_apply : k1_pay9 X0 X1 X2 X3 X4 (ix3 u c p) = blockAt X0 X1 X2 X3 X4 0 c p :=
  (image_apply 0 _ _ _ _ (k1_pay4 X0) (k1_pay5 X1) (k1_pay6 X2) (k1_pay7 X3) (k1_pay8 X4) 0 rfl u c p).trans
    (recast_apply X0 X1 X2 X3 X4 0 c p)

/-- The store of image 1. -/
theorem image1_apply : k1_pay11 (k1_pay10 X0 X1 X2 X3 X4) (ix3 u c p) = blockAt X0 X1 X2 X3 X4 1 c p :=
  (image_apply 1 _ _ _ _ (k1_pay4 X0) (k1_pay5 X1) (k1_pay6 X2) (k1_pay7 X3) (k1_pay8 X4) 1 rfl u c p).trans
    (recast_apply X0 X1 X2 X3 X4 1 c p)

/-- The store of image 2. -/
theorem image2_apply :
    k1_pay12 (k1_pay4 X0) (k1_pay5 X1) (k1_pay6 X2) (k1_pay7 X3) (k1_pay8 X4) (ix3 u c p) = blockAt X0 X1 X2 X3 X4 2 c p :=
  (image_apply 2 _ _ _ _ (k1_pay4 X0) (k1_pay5 X1) (k1_pay6 X2) (k1_pay7 X3) (k1_pay8 X4) 2 rfl u c p).trans
    (recast_apply X0 X1 X2 X3 X4 2 c p)

/-- The store of image 3. -/
theorem image3_apply :
    k1_pay13 (k1_pay4 X0) (k1_pay5 X1) (k1_pay6 X2) (k1_pay7 X3) (k1_pay8 X4) (ix3 u c p) = blockAt X0 X1 X2 X3 X4 3 c p :=
  (image_apply 3 _ _ _ _ (k1_pay4 X0) (k1_pay5 X1) (k1_pay6 X2) (k1_pay7 X3) (k1_pay8 X4) 3 rfl u c p).trans
    (recast_apply X0 X1 X2 X3 X4 3 c p)

/-- The store of image 4. -/
theorem image4_apply :
    k1_pay14 (k1_pay4 X0) (k1_pay5 X1) (k1_pay6 X2) (k1_pay7 X3) (k1_pay8 X4) (ix3 u c p) = blockAt X0 X1 X2 X3 X4 4 c p :=
  (image_apply 4 _ _ _ _ (k1_pay4 X0) (k1_pay5 X1) (k1_pay6 X2) (k1_pay7 X3) (k1_pay8 X4) 4 rfl u c p).trans
    (recast_apply X0 X1 X2 X3 X4 4 c p)

/-- The store of image 5 (its centred matrix is formed before the product's other operands are read). -/
theorem image5_apply :
    k1_pay1 (k1_pay5 X1) (k1_pay7 X3) (k1_pay8 X4) (k1_pay15 (k1_pay4 X0) (k1_pay6 X2))
        (constant (F := Ideal) S64x3136 .f32 0x00000000#32) (ix3 u c p) = blockAt X0 X1 X2 X3 X4 5 c p :=
  (image_apply 5 _ _ _ _ (k1_pay4 X0) (k1_pay5 X1) (k1_pay6 X2) (k1_pay7 X3) (k1_pay8 X4) 5 rfl u c p).trans
    (recast_apply X0 X1 X2 X3 X4 5 c p)

/-- The store of image 6. -/
theorem image6_apply :
    k1_pay2 (k1_pay4 X0) (k1_pay5 X1) (k1_pay6 X2) (k1_pay7 X3) (k1_pay8 X4) (ix3 u c p) = blockAt X0 X1 X2 X3 X4 6 c p :=
  (image_apply 6 _ _ _ _ (k1_pay4 X0) (k1_pay5 X1) (k1_pay6 X2) (k1_pay7 X3) (k1_pay8 X4) 6 rfl u c p).trans
    (recast_apply X0 X1 X2 X3 X4 6 c p)

/-- The store of image 7. -/
theorem image7_apply :
    k1_pay3 (k1_pay4 X0) (k1_pay5 X1) (k1_pay6 X2) (k1_pay7 X3) (k1_pay8 X4) (ix3 u c p) = blockAt X0 X1 X2 X3 X4 7 c p :=
  (image_apply 7 _ _ _ _ (k1_pay4 X0) (k1_pay5 X1) (k1_pay6 X2) (k1_pay7 X3) (k1_pay8 X4) 7 rfl u c p).trans
    (recast_apply X0 X1 X2 X3 X4 7 c p)

end Cert.KernelIdeal.WhitenRegion

end
-- ==== Proof.WhitenRegion.lean ====
/-
  The whitening pass over the whole array.

  The pass runs over a grid of 4 groups × 8 batch tiles.  Point t works on group t / 8 and batch tile t % 8: it reads the
  block of images 8·(t % 8) … 8·(t % 8) + 7 and channels 64·(t / 8) … 64·(t / 8) + 63 of the data, the group's whitening
  matrix and its mean, scale and shift rows, and writes the whitened block back to the same place of the output.  The
  eight stores of a point tile its block, each the whitened image at its offset (module WhitenBody), so the block a point
  writes is one function of the block's index; that function is the corresponding block of the whole-array whitening
  `Cert.Whiten.whiten3`; and the 32 blocks tile the output array, entry (b, c, p) lying in the block of point
  8·(c / 64) + b / 8.  So the output array ends holding `whiten3` of the five arrays the pass reads.
-/
import proofs.«165309_j63874753626715_1_alg».proof.Proof.Gen.KernelIdeal.Frame
import proofs.«165309_j63874753626715_1_alg».proof.Proof.WhitenBody
import proofs.«165309_j63874753626715_1_alg».proof.Proof.Spec
import Idealize.ShloMosaic.Lib.Pipeline.Value

set_option maxRecDepth 16384

noncomputable section

open scoped BigOperators

namespace Cert.KernelIdeal.WhitenRegion

open Cert.KernelIdeal Cert.KernelIdeal.Gen Idealize.ShloMosaic Idealize.ShloMosaic.ValueIdx Idealize.ShloMosaic.TcCoe
open Idealize.SL.Sem
open Idealize.ShloMosaic.Pipeline (Dat)
open Cert.Whiten (SX3 SG SM chan grp sub whiten3 whiten3_ix3)

/-! ## The eight stores of a point are one function of the block's index -/

theorem zero_offsets : (![0, 0, 0] : Fin 3 → Nat) = fun _ => 0 := funext fun a => by fin_cases a <;> rfl

/-- Entry (u, c, p) of the rectangle of image o sits at (o, c, p) of the block. -/
theorem image_rect_emb (o : Nat) (inb : ∀ a, (![o, 0, 0] : Fin 3 → Nat) a + S1x64x3136.size a ≤ S8x64x3136.size a)
    (b : Fin 8) (hbo : b.val = o) (u : Fin 1) (c : Fin 64) (p : Fin 3136) :
    (Rect.unit (s := S8x64x3136) ![o, 0, 0] S1x64x3136.size inb).emb (ix3 u c p) = ix3 b c p := by
  funext a
  apply Fin.ext
  match a with
  | ⟨0, _⟩ => show o + 1 * u.val = b.val; omega
  | ⟨1, _⟩ => show 0 + 1 * c.val = c.val; omega
  | ⟨2, _⟩ => show 0 + 1 * p.val = p.val; omega

section Pieces

variable (X0 : Vec Ideal S8x64x3136 .f32) (X1 : Vec Ideal S1x64x64 .f32) (X2 X3 X4 : Vec Ideal S1x1x64 .f32)

theorem piece0 (x : S1x64x3136.Idx) : k1_pay9 X0 X1 X2 X3 X4 x = blockOut X0 X1 X2 X3 X4 (r1_3.emb x) := by
  obtain ⟨u, c, p, rfl⟩ : ∃ (u : Fin 1) (c : Fin 64) (p : Fin 3136), x = ix3 u c p := ⟨x 0, x 1, x 2, eq_ix3 x⟩
  exact (image0_apply X0 X1 X2 X3 X4 u c p).trans
    (congrArg (blockOut X0 X1 X2 X3 X4) (image_rect_emb 0 _ 0 rfl u c p)).symm

theorem piece1 (x : S1x64x3136.Idx) :
    k1_pay11 (k1_pay10 X0 X1 X2 X3 X4) x = blockOut X0 X1 X2 X3 X4 (r1_4.emb x) := by
  obtain ⟨u, c, p, rfl⟩ : ∃ (u : Fin 1) (c : Fin 64) (p : Fin 3136), x = ix3 u c p := ⟨x 0, x 1, x 2, eq_ix3 x⟩
  exact (image1_apply X0 X1 X2 X3 X4 u c p).trans
    (congrArg (blockOut X0 X1 X2 X3 X4) (image_rect_emb 1 _ 1 rfl u c p)).symm

theorem piece2 (x : S1x64x3136.Idx) :
    k1_pay12 (k1_pay4 X0) (k1_pay5 X1) (k1_pay6 X2) (k1_pay7 X3) (k1_pay8 X4) x = blockOut X0 X1 X2 X3 X4 (r1_5.emb x) := by
  obtain ⟨u, c, p, rfl⟩ : ∃ (u : Fin 1) (c : Fin 64) (p : Fin 3136), x = ix3 u c p := ⟨x 0, x 1, x 2, eq_ix3 x⟩
  exact (image2_apply X0 X1 X2 X3 X4 u c p).trans
    (congrArg (blockOut X0 X1 X2 X3 X4) (image_rect_emb 2 _ 2 rfl u c p)).symm

theorem piece3 (x : S1x64x3136.Idx) :
    k1_pay13 (k1_pay4 X0) (k1_pay5 X1) (k1_pay6 X2) (k1_pay7 X3) (k1_pay8 X4) x = blockOut X0 X1 X2 X3 X4 (r1_6.emb x) := by
  obtain ⟨u, c, p, rfl⟩ : ∃ (u : Fin 1) (c : Fin 64) (p : Fin 3136), x = ix3 u c p := ⟨x 0, x 1, x 2, eq_ix3 x⟩
  exact (image3_apply X0 X1 X2 X3 X4 u c p).trans
    (congrArg (blockOut X0 X1 X2 X3 X4) (image_rect_emb 3 _ 3 rfl u c p)).symm

theorem piece4 (x : S1x64x3136.Idx) :
    k1_pay14 (k1_pay4 X0) (k1_pay5 X1) (k1_pay6 X2) (k1_pay7 X3) (k1_pay8 X4) x = blockOut X0 X1 X2 X3 X4 (r1_7.emb x) := by
  obtain ⟨u, c, p, rfl⟩ : ∃ (u : Fin 1) (c : Fin 64) (p : Fin 3136), x = ix3 u c p := ⟨x 0, x 1, x 2, eq_ix3 x⟩
  exact (image4_apply X0 X1 X2 X3 X4 u c p).trans
    (congrArg (blockOut X0 X1 X2 X3 X4) (image_rect_emb 4 _ 4 rfl u c p)).symm

theorem piece5 (x : S1x64x3136.Idx) :
    k1_pay1 (k1_pay5 X1) (k1_pay7 X3) (k1_pay8 X4) (k1_pay15 (k1_pay4 X0) (k1_pay6 X2))
        (constant (F := Ideal) S64x3136 .f32 0x00000000#32) x = blockOut X0 X1 X2 X3 X4 (r1_8.emb x) := by
  obtain ⟨u, c, p, rfl⟩ : ∃ (u : Fin 1) (c : Fin 64) (p : Fin 3136), x = ix3 u c p := ⟨x 0, x 1, x 2, eq_ix3 x⟩
  exact (image5_apply X0 X1 X2 X3 X4 u c p).trans
    (congrArg (blockOut X0 X1 X2 X3 X4) (image_rect_emb 5 _ 5 rfl u c p)).symm

theorem piece6 (x : S1x64x3136.Idx) :
    k1_pay2 (k1_pay4 X0) (k1_pay5 X1) (k1_pay6 X2) (k1_pay7 X3) (k1_pay8 X4) x = blockOut X0 X1 X2 X3 X4 (r1_9.emb x) := by
  obtain ⟨u, c, p, rfl⟩ : ∃ (u : Fin 1) (c : Fin 64) (p : Fin 3136), x = ix3 u c p := ⟨x 0, x 1, x 2, eq_ix3 x⟩
  exact (image6_apply X0 X1 X2 X3 X4 u c p).trans
    (congrArg (blockOut X0 X1 X2 X3 X4) (image_rect_emb 6 _ 6 rfl u c p)).symm

theorem piece7 (x : S1x64x3136.Idx) :
    k1_pay3 (k1_pay4 X0) (k1_pay5 X1) (k1_pay6 X2) (k1_pay7 X3) (k1_pay8 X4) x = blockOut X0 X1 X2 X3 X4 (r1_10.emb x) := by
  obtain ⟨u, c, p, rfl⟩ : ∃ (u : Fin 1) (c : Fin 64) (p : Fin 3136), x = ix3 u c p := ⟨x 0, x 1, x 2, eq_ix3 x⟩
  exact (image7_apply X0 X1 X2 X3 X4 u c p).trans
    (congrArg (blockOut X0 X1 X2 X3 X4) (image_rect_emb 7 _ 7 rfl u c p)).symm

/-- What a point leaves in the output's block: the whitened block, as one function of the loaded blocks. -/
theorem out_block : out1_5 (F := Ideal) X0 X1 X2 X3 X4 = blockOut X0 X1 X2 X3 X4 := by
  funext y
  unfold out1_5
  simp only [View.ld_unit_zero (S := S8x64x3136) zero_offsets, View.ld_unit_zero (S := S1x64x64) zero_offsets,
    View.ld_unit_zero (S := S1x1x64) zero_offsets]
  refine View.canon_apply_of_pieces (Val := Elt Ideal) (e := .f32) (blockOut X0 X1 X2 X3 X4) _ ?_ y (cover1_5 _ _ _ _ _ _ _ _ y)
  intro pc hpc
  simp only [List.mem_cons, List.not_mem_nil, or_false] at hpc
  rcases hpc with rfl | rfl | rfl | rfl | rfl | rfl | rfl | rfl
  · exact piece7 X0 X1 X2 X3 X4
  · exact piece6 X0 X1 X2 X3 X4
  · exact piece5 X0 X1 X2 X3 X4
  · exact piece4 X0 X1 X2 X3 X4
  · exact piece3 X0 X1 X2 X3 X4
  · exact piece2 X0 X1 X2 X3 X4
  · exact piece1 X0 X1 X2 X3 X4
  · exact piece0 X0 X1 X2 X3 X4

end Pieces

/-! ## A point's blocks are blocks of the arrays -/

/-- The printed index maps, decided over the grid: point t reads and writes batch tile t % 8 of group t / 8. -/
theorem idx_facts : ∀ t : Fin cfg1.N,
    win1_0.index t (0 : Fin 3) = t.val % 8 ∧ win1_0.index t (1 : Fin 3) = t.val / 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = 0 ∧ win1_3.index t (2 : Fin 3) = 0
    ∧ win1_4.index t (0 : Fin 3) = t.val / 8 ∧ win1_4.index t (1 : Fin 3) = 0 ∧ win1_4.index t (2 : Fin 3) = 0
    ∧ win1_5.index t (0 : Fin 3) = t.val % 8 ∧ win1_5.index t (1 : Fin 3) = t.val / 8 ∧ win1_5.index t (2 : Fin 3) = 0 :=
  (by decide +kernel : ∀ t : Fin grid1.N, _)

section Blocks

variable (V : (c : Dev nD) → (b : Ref sig .tc) → Buf (Elt Ideal) ((c : Thread nD τ).loc b))

/-- The data block of point t: images 8·(t % 8) + ·, channels 64·(t / 8) + ·, every pixel. -/
theorem data_block_apply (c : Dev nD) (t : Fin cfg1.N) (y : S8x64x3136.Idx) (k : SX3.Idx)
    (hk0 : (k 0).val = 8 * (t.val % 8) + (y 0).val) (hk1 : (k 1).val = 64 * (t.val / 8) + (y 1).val)
    (hk2 : (k 2).val = (y 2).val) :
    (iblk1 V c 0 t : Vec Ideal S8x64x3136 .f32) y = (V c main_v0 : SX3.Idx → EReal) k := by
  obtain ⟨e0, e1, e2, -⟩ := idx_facts t
  unfold iblk1
  rw [View.read_apply]
  show V c main_v0 _ = V c main_v0 _
  congr 1
  funext a
  apply Fin.ext
  match a with
  | ⟨0, _⟩ => show win1_0.index t (0 : Fin 3) * 8 + 1 * (y 0).val = (k 0).val; rw [e0, hk0]; omega
  | ⟨1, _⟩ => show win1_0.index t (1 : Fin 3) * 64 + 1 * (y 1).val = (k 1).val; rw [e1, hk1]; omega
  | ⟨2, _⟩ => show win1_0.index t (2 : Fin 3) * 3136 + 1 * (y 2).val = (k 2).val; rw [e2, hk2]; omega

/-- The matrix block of point t: the whitening matrix of group t / 8. -/
theorem matrix_block_apply (c : Dev nD) (t : Fin cfg1.N) (y : S1x64x64.Idx) (k : SG.Idx)
    (hk0 : (k 0).val = t.val / 8) (hk1 : (k 1).val = (y 1).val) (hk2 : (k 2).val = (y 2).val) :
    (iblk1 V c 1 t : Vec Ideal S1x64x64 .f32) y = (V c main_v79 : SG.Idx → EReal) k := by
  obtain ⟨-, -, -, e0, e1, e2, -⟩ := idx_facts t
  have hy0 : (y 0).val = 0 := by have h : (y 0).val < 1 := (y 0).isLt; omega
  unfold iblk1
  rw [View.read_apply]
  show V c main_v79 _ = V c main_v79 _
  congr 1
  funext a
  apply Fin.ext
  match a with
  | ⟨0, _⟩ => show win1_1.index t (0 : Fin 3) * 1 + 1 * (y 0).val = (k 0).val; rw [e0, hk0, hy0]; omega
  | ⟨1, _⟩ => show win1_1.index t (1 : Fin 3) * 64 + 1 * (y 1).val = (k 1).val; rw [e1, hk1]; omega
  | ⟨2, _⟩ => show win1_1.index t (2 : Fin 3) * 64 + 1 * (y 2).val = (k 2).val; rw [e2, hk2]; omega

/-- The mean row of point t: the row of group t / 8. -/
theorem mean_block_apply (c : Dev nD) (t : Fin cfg1.N) (y : S1x1x64.Idx) (k : SM.Idx)
    (hk0 : (k 0).val = t.val / 8) (hk2 : (k 2).val = (y 2).val) :
    (iblk1 V c 2 t : Vec Ideal S1x1x64 .f32) y = (V c main_v80 : SM.Idx → EReal) k := by
  obtain ⟨-, -, -, -, -, -, e0, e1, e2, -⟩ := idx_facts t
  have hy0 : (y 0).val = 0 := by have h : (y 0).val < 1 := (y 0).isLt; omega
  have hy1 : (y 1).val = 0 := by have h : (y 1).val < 1 := (y 1).isLt; omega
  have hk1 : (k 1).val = 0 := by have h : (k 1).val < 1 := (k 1).isLt; omega
  unfold iblk1
  rw [View.read_apply]
  show V c main_v80 _ = V c main_v80 _
  congr 1
  funext a
  apply Fin.ext
  match a with
  | ⟨0, _⟩ => show win1_2.index t (0 : Fin 3) * 1 + 1 * (y 0).val = (k 0).val; rw [e0, hk0, hy0]; omega
  | ⟨1, _⟩ => show win1_2.index t (1 : Fin 3) * 1 + 1 * (y 1).val = (k 1).val; rw [e1, hk1, hy1]
  | ⟨2, _⟩ => show win1_2.index t (2 : Fin 3) * 64 + 1 * (y 2).val = (k 2).val; rw [e2, hk2]; omega

/-- The scale row of point t: the row of group t / 8. -/
theorem scale_block_apply (c : Dev nD) (t : Fin cfg1.N) (y : S1x1x64.Idx) (k : SM.Idx)
    (hk0 : (k 0).val = t.val / 8) (hk2 : (k 2).val = (y 2).val) :
    (iblk1 V c 3 t : Vec Ideal S1x1x64 .f32) y = (V c main_v82 : SM.Idx → EReal) k := by
  obtain ⟨-, -, -, -, -, -, -, -, -, e0, e1, e2, -⟩ := idx_facts t
  have hy0 : (y 0).val = 0 := by have h : (y 0).val < 1 := (y 0).isLt; omega
  have hy1 : (y 1).val = 0 := by have h : (y 1).val < 1 := (y 1).isLt; omega
  have hk1 : (k 1).val = 0 := by have h : (k 1).val < 1 := (k 1).isLt; omega
  unfold iblk1
  rw [View.read_apply]
  show V c main_v82 _ = V c main_v82 _
  congr 1
  funext a
  apply Fin.ext
  match a with
  | ⟨0, _⟩ => show win1_3.index t (0 : Fin 3) * 1 + 1 * (y 0).val = (k 0).val; rw [e0, hk0, hy0]; omega
  | ⟨1, _⟩ => show win1_3.index t (1 : Fin 3) * 1 + 1 * (y 1).val = (k 1).val; rw [e1, hk1, hy1]
  | ⟨2, _⟩ => show win1_3.index t (2 : Fin 3) * 64 + 1 * (y 2).val = (k 2).val; rw [e2, hk2]; omega

/-- The shift row of point t: the row of group t / 8. -/
theorem shift_block_apply (c : Dev nD) (t : Fin cfg1.N) (y : S1x1x64.Idx) (k : SM.Idx)
    (hk0 : (k 0).val = t.val / 8) (hk2 : (k 2).val = (y 2).val) :
    (iblk1 V c 4 t : Vec Ideal S1x1x64 .f32) y = (V c main_v84 : SM.Idx → EReal) k := by
  obtain ⟨-, -, -, -, -, -, -, -, -, -, -, -, e0, e1, e2, -⟩ := idx_facts t
  have hy0 : (y 0).val = 0 := by have h : (y 0).val < 1 := (y 0).isLt; omega
  have hy1 : (y 1).val = 0 := by have h : (y 1).val < 1 := (y 1).isLt; omega
  have hk1 : (k 1).val = 0 := by have h : (k 1).val < 1 := (k 1).isLt; omega
  unfold iblk1
  rw [View.read_apply]
  show V c main_v84 _ = V c main_v84 _
  congr 1
  funext a
  apply Fin.ext
  match a with
  | ⟨0, _⟩ => show win1_4.index t (0 : Fin 3) * 1 + 1 * (y 0).val = (k 0).val; rw [e0, hk0, hy0]; omega
  | ⟨1, _⟩ => show win1_4.index t (1 : Fin 3) * 1 + 1 * (y 1).val = (k 1).val; rw [e1, hk1, hy1]
  | ⟨2, _⟩ => show win1_4.index t (2 : Fin 3) * 64 + 1 * (y 2).val = (k 2).val; rw [e2, hk2]; omega

end Blocks

/-! ## The whitened block is a block of the whitened array -/

/-- When the five blocks are the blocks of batch tile tl and group g of five arrays, the whitened block is the
    corresponding block of the whitening of those arrays. -/
theorem block_eq_whiten (x : SX3.Idx → EReal) (wm : SG.Idx → EReal) (mu wt bs : SM.Idx → EReal)
    (B0 : S8x64x3136.Idx → EReal) (B1 : S1x64x64.Idx → EReal) (B2 B3 B4 : S1x1x64.Idx → EReal) (g tl : ℕ)
    (h0 : ∀ (y : S8x64x3136.Idx) (k : SX3.Idx), (k 0).val = 8 * tl + (y 0).val → (k 1).val = 64 * g + (y 1).val →
      (k 2).val = (y 2).val → B0 y = x k)
    (h1 : ∀ (y : S1x64x64.Idx) (k : SG.Idx), (k 0).val = g → (k 1).val = (y 1).val → (k 2).val = (y 2).val → B1 y = wm k)
    (h2 : ∀ (y : S1x1x64.Idx) (k : SM.Idx), (k 0).val = g → (k 2).val = (y 2).val → B2 y = mu k)
    (h3 : ∀ (y : S1x1x64.Idx) (k : SM.Idx), (k 0).val = g → (k 2).val = (y 2).val → B3 y = wt k)
    (h4 : ∀ (y : S1x1x64.Idx) (k : SM.Idx), (k 0).val = g → (k 2).val = (y 2).val → B4 y = bs k)
    (y : S8x64x3136.Idx) (i : SX3.Idx) (hi0 : (i 0).val = 8 * tl + (y 0).val) (hi1 : (i 1).val = 64 * g + (y 1).val)
    (hi2 : (i 2).val = (y 2).val) :
    blockOut B0 B1 B2 B3 B4 y = whiten3 x wm mu wt bs i := by
  obtain ⟨b, c, p, rfl⟩ : ∃ (b : Fin 8) (c : Fin 64) (p : Fin 3136), y = ix3 b c p := ⟨y 0, y 1, y 2, eq_ix3 y⟩
  obtain ⟨i0, i1, i2, rfl⟩ : ∃ (i0 : Fin 64) (i1 : Fin 256) (i2 : Fin 3136), i = ix3 i0 i1 i2 := ⟨i 0, i 1, i 2, eq_ix3 i⟩
  have hi0' : i0.val = 8 * tl + b.val := hi0
  have hi1' : i1.val = 64 * g + c.val := hi1
  have hi2' : i2.val = p.val := hi2
  have hg : (grp i1).val = g := by simp only [grp]; omega
  have hc : sub i1 = c := Fin.ext (by simp only [sub]; omega)
  rw [whiten3_ix3, hc]
  show blockAt B0 B1 B2 B3 B4 b c p = _
  unfold blockAt
  rw [h3 (ix3 (0 : Fin 1) (0 : Fin 1) c) (ix3 (grp i1) (0 : Fin 1) c) hg rfl,
    h4 (ix3 (0 : Fin 1) (0 : Fin 1) c) (ix3 (grp i1) (0 : Fin 1) c) hg rfl]
  congr 2
  refine Finset.sum_congr rfl fun e _ => ?_
  rw [h1 (ix3 (0 : Fin 1) c e) (ix3 (grp i1) c e) hg rfl rfl,
    h2 (ix3 (0 : Fin 1) (0 : Fin 1) e) (ix3 (grp i1) (0 : Fin 1) e) hg rfl,
    h0 (ix3 b e p) (ix3 i0 (chan (grp i1) e) i2) hi0' (by show 64 * (grp i1).val + e.val = 64 * g + e.val; rw [hg]) hi2']

section Array

variable (V : (c : Dev nD) → (b : Ref sig .tc) → Buf (Elt Ideal) ((c : Thread nD τ).loc b))

/-- What point t writes back is block t of the whitening of the five arrays as the pass finds them. -/
theorem flushed_eq (c : Dev nD) (t : Fin cfg1.N) :
    (dat1 (F := Ideal) V c).flushed 5 t
      = ((cfg1.win 5).blk t).view.read (Elt Ideal)
          (whiten3 (V c main_v0) (V c main_v79) (V c main_v80) (V c main_v82) (V c main_v84)) := by
  show (cfg1.win 5).cut (grid1.coords t) ((dat1 V c).after 5 t) = _
  rw [after1_5]
  obtain ⟨-, -, -, -, -, -, -, -, -, -, -, -, -, -, -, e0, e1, e2⟩ := idx_facts t
  funext j
  refine (congrFun (out_block (iblk1 V c 0 t) (iblk1 V c 1 t) (iblk1 V c 2 t) (iblk1 V c 3 t) (iblk1 V c 4 t)) j).trans ?_
  refine block_eq_whiten (V c main_v0) (V c main_v79) (V c main_v80) (V c main_v82) (V c main_v84)
    (iblk1 V c 0 t) (iblk1 V c 1 t) (iblk1 V c 2 t) (iblk1 V c 3 t) (iblk1 V c 4 t) (t.val / 8) (t.val % 8)
    (fun y k => data_block_apply V c t y k) (fun y k => matrix_block_apply V c t y k)
    (fun y k => mean_block_apply V c t y k) (fun y k => scale_block_apply V c t y k)
    (fun y k => shift_block_apply V c t y k) j (((cfg1.win 5).blk t).view.emb j) ?_ ?_ ?_
  · show win1_5.index t (0 : Fin 3) * 8 + 1 * (j 0).val = 8 * (t.val % 8) + (j 0).val; rw [e0]; omega
  · show win1_5.index t (1 : Fin 3) * 64 + 1 * (j 1).val = 64 * (t.val / 8) + (j 1).val; rw [e1]; omega
  · show win1_5.index t (2 : Fin 3) * 3136 + 1 * (j 2).val = (j 2).val; rw [e2]; omega

/-- Every entry of the output array lies in some point's block: entry (b, c, p) in that of point 8·(c / 64) + b / 8. -/
theorem cover (i : SX3.Idx) : ∃ t : Fin cfg1.N, (cfg1.win 5).flush t = true ∧ i ∈ ((cfg1.win 5).blk t).view.set := by
  have hb : (i 0).val < 64 := (i 0).isLt
  have hc : (i 1).val < 256 := (i 1).isLt
  have hp : (i 2).val < 3136 := (i 2).isLt
  have hN : cfg1.N = 32 := N_1
  have ht : 8 * ((i 1).val / 64) + (i 0).val / 8 < cfg1.N := by rw [hN]; omega
  refine ⟨⟨8 * ((i 1).val / 64) + (i 0).val / 8, ht⟩, flush1_5 _, ?_⟩
  obtain ⟨-, -, -, -, -, -, -, -, -, -, -, -, -, -, -, e0, e1, e2⟩ :=
    idx_facts ⟨8 * ((i 1).val / 64) + (i 0).val / 8, ht⟩
  show i ∈ ((View.whole main_v85).slice (win1_5.rect ⟨8 * ((i 1).val / 64) + (i 0).val / 8, ht⟩)).set
  rw [View.set_slice_whole, Rect.mem_set_unit]
  intro a
  match a with
  | ⟨0, _⟩ =>
    show win1_5.index ⟨8 * ((i 1).val / 64) + (i 0).val / 8, ht⟩ (0 : Fin 3) * 8 ≤ (i 0).val
      ∧ (i 0).val < win1_5.index ⟨8 * ((i 1).val / 64) + (i 0).val / 8, ht⟩ (0 : Fin 3) * 8 + 8
    rw [e0]; show (8 * ((i 1).val / 64) + (i 0).val / 8) % 8 * 8 ≤ (i 0).val ∧ (i 0).val < (8 * ((i 1).val / 64) + (i 0).val / 8) % 8 * 8 + 8
    omega
  | ⟨1, _⟩ =>
    show win1_5.index ⟨8 * ((i 1).val / 64) + (i 0).val / 8, ht⟩ (1 : Fin 3) * 64 ≤ (i 1).val
      ∧ (i 1).val < win1_5.index ⟨8 * ((i 1).val / 64) + (i 0).val / 8, ht⟩ (1 : Fin 3) * 64 + 64
    rw [e1]; show (8 * ((i 1).val / 64) + (i 0).val / 8) / 8 * 64 ≤ (i 1).val ∧ (i 1).val < (8 * ((i 1).val / 64) + (i 0).val / 8) / 8 * 64 + 64
    omega
  | ⟨2, _⟩ =>
    show win1_5.index ⟨8 * ((i 1).val / 64) + (i 0).val / 8, ht⟩ (2 : Fin 3) * 3136 ≤ (i 2).val
      ∧ (i 2).val < win1_5.index ⟨8 * ((i 1).val / 64) + (i 0).val / 8, ht⟩ (2 : Fin 3) * 3136 + 3136
    rw [e2]; omega

/-- The output array after the pass: the whitening of the five arrays the pass reads. -/
theorem final (c : Dev nD) :
    (dat1 (F := Ideal) V c).arrAt 5 cfg1.N
      = whiten3 (V c main_v0) (V c main_v79) (V c main_v80) (V c main_v82) (V c main_v84) :=
  (dat1 (F := Ideal) V c).arrAt_eq_of_cover 5
    (whiten3 (V c main_v0) (V c main_v79) (V c main_v80) (V c main_v82) (V c main_v84))
    (fun t _ => flushed_eq V c t) cover

end Array

end Cert.KernelIdeal.WhitenRegion

end
-- ==== Proof.KernelRun.lean ====
/-
  The idealized kernel's run with its result named.

  @main is five segments: a reshape of X to [64, 256, 3136], the statistics pass, the host arithmetic that turns the
  statistics into one whitening matrix per group, the whitening pass, and a reshape back.  The buffer contents at each
  segment boundary are a fold from the launch memory; every weakly fair execution terminates with each unscoped
  buffer at the last boundary's contents.  Read at the result buffer, that is the value of the program; read at the
  arguments, it is the launch memory.
-/
import proofs.«165309_j63874753626715_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the three arguments as launched. -/
theorem run : θ_run defs (onTc (τ := τ) (main (F := F))) ⟨m, fun _ => 0, ρ⟩ (fun r => ∀ c : Dev nD,
      r.2.mem ((c.tc : Thread nD τ).loc main_v86) = W5 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v86 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.KernelRun

end
-- ==== Proof.KValue.lean ====
/-
  The idealized kernel's value: its result buffer as one function of the three arguments.

  Walking the boundary contents back from the result: the last reshape of the whitening pass's array; that array is the
  whitening formula of its five operand arrays; those are what the host arithmetic made of the two statistics arrays,
  which the statistics pass filled with the channel sums and raw second moments of X with its pixel axes joined.
  Entry by entry this is
      out[b, 64g+d, h, w] = (Σ_e WM[g,d,e] · (X[b, 64g+e, h, w] − mean g e)) · weight[64g+d] + bias[64g+d],
  WM the chain of KTail applied to the covariance from raw moments.
-/
import proofs.«165309_j63874753626715_1_alg».proof.Proof.KIndex
import proofs.«165309_j63874753626715_1_alg».proof.Proof.StatsRegion
import proofs.«165309_j63874753626715_1_alg».proof.Proof.WhitenRegion
import proofs.«165309_j63874753626715_1_alg».proof.Proof.KernelRun

set_option maxRecDepth 16384

noncomputable section

namespace Cert.KernelIdeal.KValue

open Cert.KernelIdeal Cert.KernelIdeal.Gen Cert.KernelIdeal.KTail Cert.KernelIdeal.KHost Cert.KernelIdeal.KIndex
open Idealize.ShloMosaic Idealize.ShloMosaic.TcCoe Idealize.SL.Sem Idealize.ShloMosaic.StableHlo Idealize.ShloMosaic.ValueIdx Cert.Whiten

variable (m : (ℓ : Loc nD τ sig) → Buf (Elt Ideal) ℓ) (ρ : Dev nD → PrngReg)

/-- X with its pixel axes joined. -/
abbrev x3 (c : Dev nD) : FVec Ideal S64x256x3136 .f32 :=
  shapeCast S64x256x3136 (m ((c : Thread nD τ).loc main_arg0)) shapeCasts_S64x256x56x56_S64x256x3136

/-! ## The boundary contents, walked back -/

theorem W0_apply (c : Dev nD) (b : Ref sig .tc) : W0 m ρ c (Proc.devRef .tc b) = m ((c : Thread nD τ).loc b) := rfl

/-- Entering the statistics pass the data array is X with its pixel axes joined. -/
theorem V1_x3 (c : Dev nD) : V1 m ρ c main_v0 = x3 m c := by
  show StableHlo.after (hostOps0 (F := Ideal)) (W0 m ρ c) (Proc.devRef .tc main_v0) = _
  after_results
  rfl

/-- The statistics pass leaves the data array as it found it. -/
theorem W2_x3 (c : Dev nD) : W2 m ρ c (Proc.devRef .tc main_v0) = x3 m c :=
  ((W2_arr m ρ c 0).trans ((dat0 (V1 m ρ) c).arrAt_in 0 rfl _)).trans ((A_eq0 (V1 m ρ) c 0).trans (V1_x3 m ρ c))

/-- The channel sums it leaves. -/
theorem W2_sums (c : Dev nD) : W2 m ρ c (Proc.devRef .tc main_v1_0) = StatsRegion.sumsArr (x3 m c) :=
  (W2_arr m ρ c 1).trans ((StatsRegion.final_sums (V1 m ρ) c).trans (by rw [show StatsRegion.X3 (V1 m ρ) c = x3 m c from V1_x3 m ρ c]))

/-- The raw second moments it leaves. -/
theorem W2_moments (c : Dev nD) : W2 m ρ c (Proc.devRef .tc main_v1_1) = StatsRegion.momentsArr (x3 m c) :=
  (W2_arr m ρ c 2).trans ((StatsRegion.final_moments (V1 m ρ) c).trans (by rw [show StatsRegion.X3 (V1 m ρ) c = x3 m c from V1_x3 m ρ c]))

/-- The arguments are untouched up to the whitening pass. -/
theorem W2_arg1 (c : Dev nD) : W2 m ρ c (Proc.devRef .tc main_arg1) = m ((c : Thread nD τ).loc main_arg1) := by
  refine (W2_of_ne m ρ c main_arg1 (by decide)).trans ?_
  show StableHlo.after (hostOps0 (F := Ideal)) (W0 m ρ c) (Proc.devRef .tc main_arg1) = _
  after_results
theorem W2_arg2 (c : Dev nD) : W2 m ρ c (Proc.devRef .tc main_arg2) = m ((c : Thread nD τ).loc main_arg2) := by
  refine (W2_of_ne m ρ c main_arg2 (by decide)).trans ?_
  show StableHlo.after (hostOps0 (F := Ideal)) (W0 m ρ c) (Proc.devRef .tc main_arg2) = _
  after_results

/-- THE RESULT BUFFER as arrays: the reshape of the whitening formula over what the passes and the host arithmetic left. -/
theorem result_arrays (c : Dev nD) : W5 m ρ c (Proc.devRef .tc main_v86)
    = shapeCast S64x256x56x56
        (whiten3 (x3 m c)
          (tail eye (sigArr (StatsRegion.sumsArr (x3 m c)) (StatsRegion.momentsArr (x3 m c))))
          (shapeCast S4x1x64 (meanArr (StatsRegion.sumsArr (x3 m c))) shapeCasts_S4x64_S4x1x64)
          (shapeCast S4x1x64 (shapeCast S256 (m ((c : Thread nD τ).loc main_arg1)) shapeCasts_S1x256x1x1_S256) shapeCasts_S256_S4x1x64)
          (shapeCast S4x1x64 (shapeCast S256 (m ((c : Thread nD τ).loc main_arg2)) shapeCasts_S1x256x1x1_S256) shapeCasts_S256_S4x1x64))
        shapeCasts_S64x256x3136_S64x256x56x56 := by
  have h85 : W4 m ρ c (Proc.devRef .tc main_v85)
      = whiten3 (V3 m ρ c main_v0) (V3 m ρ c main_v79) (V3 m ρ c main_v80) (V3 m ρ c main_v82) (V3 m ρ c main_v84) :=
    (W4_arr m ρ c 5).trans (WhitenRegion.final (V3 m ρ) c)
  have e0 : V3 m ρ c main_v0 = x3 m c := (x3_keep (W2 m ρ c)).trans (W2_x3 m ρ c)
  have e79 : V3 m ρ c main_v79 = tail eye (sigArr (StatsRegion.sumsArr (x3 m c)) (StatsRegion.momentsArr (x3 m c))) := by
    refine (wm_eq (W2 m ρ c)).trans ?_
    rw [W2_sums, W2_moments]
  have e80 : V3 m ρ c main_v80 = shapeCast S4x1x64 (meanArr (StatsRegion.sumsArr (x3 m c))) shapeCasts_S4x64_S4x1x64 := by
    refine (mean3_eq (W2 m ρ c)).trans ?_
    rw [W2_sums]
  have e82 : V3 m ρ c main_v82 = shapeCast S4x1x64 (shapeCast S256 (m ((c : Thread nD τ).loc main_arg1)) shapeCasts_S1x256x1x1_S256) shapeCasts_S256_S4x1x64 := by
    refine (wt3_eq (W2 m ρ c)).trans ?_
    rw [W2_arg1]
  have e84 : V3 m ρ c main_v84 = shapeCast S4x1x64 (shapeCast S256 (m ((c : Thread nD τ).loc main_arg2)) shapeCasts_S1x256x1x1_S256) shapeCasts_S256_S4x1x64 := by
    refine (bs3_eq (W2 m ρ c)).trans ?_
    rw [W2_arg2]
  rw [e0, e79, e80, e82, e84] at h85
  show StableHlo.after (hostOps2 (F := Ideal)) (W4 m ρ c) (Proc.devRef .tc main_v86) = _
  after_results
  rw [h85]
  rfl

/-! ## Entry by entry -/

/-- The channel sums of X with its pixel axes joined are the channel sums of X. -/
theorem sumX3_join (X : FVec Ideal S64x256x56x56 .f32) (g : Fin 4) (d : Fin 64) :
    sumX3 (shapeCast S64x256x3136 X shapeCasts_S64x256x56x56_S64x256x3136) g d = sumX X g d := by
  unfold sumX3 sumX xAt
  exact Finset.sum_congr rfl fun b _ => Finset.sum_congr rfl fun p _ => join_pixels X b (chan g d) p

/-- Likewise the raw second moments. -/
theorem sumXX3_join (X : FVec Ideal S64x256x56x56 .f32) (g : Fin 4) (d e : Fin 64) :
    sumXX3 (shapeCast S64x256x3136 X shapeCasts_S64x256x56x56_S64x256x3136) g d e = sumXX X g d e := by
  unfold sumXX3 sumXX xAt
  exact Finset.sum_congr rfl fun b _ => Finset.sum_congr rfl fun p _ => by
    rw [join_pixels X b (chan g d) p, join_pixels X b (chan g e) p]

/-- The program's covariance array is the covariance from raw moments of the specification. -/
theorem sig_raw (X : FVec Ideal S64x256x56x56 .f32) :
    sigArr (StatsRegion.sumsArr (shapeCast S64x256x3136 X shapeCasts_S64x256x56x56_S64x256x3136))
      (StatsRegion.momentsArr (shapeCast S64x256x3136 X shapeCasts_S64x256x56x56_S64x256x3136)) = sigRaw eye X := by
  funext j
  obtain ⟨g, d, e, rfl⟩ : ∃ (g : Fin 4) (d e : Fin 64), j = ix3 g d e := ⟨j 0, j 1, j 2, eq_ix3 j⟩
  rw [sigArr_apply]
  show (eps * eye (ix2 d e) + Ideal.div (sumXX3 _ g d e) cnt) - Ideal.div (sumX3 _ g d) cnt * Ideal.div (sumX3 _ g e) cnt
    = (eps * eye (ix2 d e) + Ideal.div (sumXX X g d e) cnt) - mean X g d * mean X g e
  rw [sumX3_join, sumX3_join, sumXX3_join]
  rfl

/-- THE VALUE: the result buffer is the specification's output, with the whitening matrix the chain makes from the
    covariance from raw moments. -/
theorem value (c : Dev nD) : W5 m ρ c (Proc.devRef .tc main_v86)
    = Cert.Whiten.out (tail eye (sigRaw eye (m ((c : Thread nD τ).loc main_arg0))))
        (mean (m ((c : Thread nD τ).loc main_arg0)))
        (m ((c : Thread nD τ).loc main_arg0)) (m ((c : Thread nD τ).loc main_arg1)) (m ((c : Thread nD τ).loc main_arg2)) := by
  rw [result_arrays]
  dsimp only [x3]
  obtain ⟨X, hX⟩ : ∃ X : FVec Ideal S64x256x56x56 .f32, m ((c : Thread nD τ).loc main_arg0) = X := ⟨_, rfl⟩
  obtain ⟨wt, hwt⟩ : ∃ wt : FVec Ideal S1x256x1x1 .f32, m ((c : Thread nD τ).loc main_arg1) = wt := ⟨_, rfl⟩
  obtain ⟨bs, hbs⟩ : ∃ bs : FVec Ideal S1x256x1x1 .f32, m ((c : Thread nD τ).loc main_arg2) = bs := ⟨_, rfl⟩
  rw [hX, hwt, hbs]
  rw [sig_raw X]
  generalize tail eye (sigRaw eye X) = WM
  funext j
  obtain ⟨b, ch, h, w, rfl⟩ : ∃ (b : Fin 64) (ch : Fin 256) (h w : Fin 56), j = ix4 b ch h w := ⟨j 0, j 1, j 2, j 3, eq_ix4 j⟩
  rw [split_pixels, whiten3_ix3, out_ix4]
  unfold outAt
  rw [param_rows, param_rows, chan_grp_sub]
  refine congrArg (fun s : EReal => s * wt (ix4 (0 : Fin 1) ch (0 : Fin 1) (0 : Fin 1)) + bs (ix4 (0 : Fin 1) ch (0 : Fin 1) (0 : Fin 1))) ?_
  refine Finset.sum_congr rfl fun e _ => ?_
  rw [join_pixels, prow_pix, pcol_pix, mean_rows]
  show WM _ * (X _ - Ideal.div (sumX3 _ (grp ch) e) cnt) = WM _ * (X _ - mean X (grp ch) e)
  rw [sumX3_join]
  rfl

end Cert.KernelIdeal.KValue

end
-- ==== Proof.RefTail.lean ====
/-
  The reference's path from a group's covariance matrix to its whitening matrix, as the program spells it.

  For one 64×64 covariance S per group (an array [4, 64, 64]):
    rTr S      = 1 / trace S, the trace taken by keeping the diagonal entries and summing each group's matrix,
                 shaped [4, 1, 1];
    sigN S     = S · rTr S, the covariance scaled to unit trace;
    step Sn P  = 1.5 · P − 0.5 · ((P · P) · P) · Sn, one Newton–Schulz step towards Sn^(−1/2)
                 (the three matrix products are batched over the groups);
    tail E S   = step⁵ from P = E, times sqrt (rTr S): the whitening matrix S^(−1/2) up to the iteration's error.
  The identity matrix E is eye: entry (d, e) is 1 when the two coordinates agree and 0 otherwise, computed as the
  program computes it (two iotas compared, the truth value converted to a float).

  These are definitions only; nothing here looks inside them.
-/
import proofs.«165309_j63874753626715_1_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The 64×64 identity as the program computes it. -/
def eye : FVec Ideal S64x64 .f32 :=
  uitofp .f32 (cmpi .eq (addi (iotaInDim S64x64 32 0) (broadcastInDim S64x64 ![] bcast_S_S64x64 (constantI S_ 32 0#32))) (iotaInDim S64x64 32 1))

/-- 1 / trace, as [4,1,1]. -/
def rTr (S : FVec Ideal S4x64x64 .f32) : FVec Ideal S4x1x1 .f32 :=
  broadcastInDim S4x1x1 ![0] bcast_S4_S4x1x1_0 (Host.divf (broadcastInDim S4 ![] bcast_S_S4 (constant (F := Ideal) S_ .f32 0x3F800000#32)) (Host.reduceAdd (select (broadcastInDim S4x64x64 ![1, 2] bcast_S64x64_S4x64x64_1_2 (cmpi .eq (iotaInDim S64x64 32 0) (iotaInDim S64x64 32 1))) S (broadcastInDim S4x64x64 ![] bcast_S_S4x64x64 (constant (F := Ideal) S_ .f32 0x00000000#32))) (constant (F := Ideal) S_ .f32 0x00000000#32) reducesTo_S4x64x64_S4_d1_2 h_S_))

/-- The normalised covariance. -/
def sigN (S : FVec Ideal S4x64x64 .f32) : FVec Ideal S4x64x64 .f32 :=
  mulf S (broadcastInDim S4x64x64 ![0, 1, 2] bcast_S4x1x1_S4x64x64_0_1_2 (rTr S))

/-- One Newton–Schulz step. -/
def step (Sn P : FVec Ideal S4x64x64 .f32) : FVec Ideal S4x64x64 .f32 :=
  subf (mulf (broadcastInDim S4x64x64 ![] bcast_S_S4x64x64 (constant (F := Ideal) S_ .f32 0x3FC00000#32)) P) (mulf (broadcastInDim S4x64x64 ![] bcast_S_S4x64x64 (constant (F := Ideal) S_ .f32 0x3F000000#32)) (Host.dotGeneral (F := Ideal) dot_S4x64x64_S4x64x64_S4x64x64_2_1_1_2_0_0 none (Host.dotGeneral (F := Ideal) dot_S4x64x64_S4x64x64_S4x64x64_1_1_2_2_0_0 none (Host.dotGeneral (F := Ideal) dot_S4x64x64_S4x64x64_S4x64x64_1_2_2_1_0_0 none P P) P) Sn))

/-- From the covariance to the whitening matrix. -/
def tail (E : FVec Ideal S64x64 .f32) (S : FVec Ideal S4x64x64 .f32) : FVec Ideal S4x64x64 .f32 :=
  mulf (step (sigN S) (step (sigN S) (step (sigN S) (step (sigN S) (step (sigN S) (broadcastInDim S4x64x64 ![1, 2] bcast_S64x64_S4x64x64_1_2 E))))))
    (broadcastInDim S4x64x64 ![0, 1, 2] bcast_S4x1x1_S4x64x64_0_1_2 (Host.sqrt (rTr S)))

end Cert.ReferenceIdeal.RefValue

end
-- ==== Proof.LibBlockSum.lean ====
/-
  Two general facts used to put a blocked contraction back together.

  A sum over nb · bs consecutive naturals is the sum, over the nb blocks, of the bs terms of each block; stated with
  the terms of a block indexed by Fin bs and the whole range by Fin (nb · bs), as matrix products come. And a
  rank-2 array extended by zero to all pairs of naturals, so that offsets computed in ℕ need no bound proofs while
  they are being rearranged: inside the extents the extension is the array.
-/
import Mathlib.Algebra.BigOperators.Fin
import Mathlib.Algebra.BigOperators.Intervals
import Idealize.ShloMosaic.Lib.ValueIdx

noncomputable section

open scoped BigOperators

namespace Cert.LibBlockSum

open Idealize.ShloMosaic Idealize.ShloMosaic.ValueIdx

/-- Block by block over ranges: Σ_{s < nb} Σ_{kk < bs} g (bs · s + kk) = Σ_{k < nb · bs} g k. -/
theorem sum_range_blocks {β : Type*} [AddCommMonoid β] (g : ℕ → β) (bs : ℕ) :
    ∀ nb : ℕ, ∑ s ∈ Finset.range nb, ∑ kk ∈ Finset.range bs, g (bs * s + kk) = ∑ k ∈ Finset.range (nb * bs), g k
  | 0 => by simp
  | nb + 1 => by
    rw [Finset.sum_range_succ, sum_range_blocks g bs nb, Nat.succ_mul, Finset.sum_range_add, Nat.mul_comm bs nb]

/-- The same with each block's terms indexed by Fin bs and the whole by Fin (nb · bs). -/
theorem sum_fin_blocks {β : Type*} [AddCommMonoid β] (g : ℕ → β) (nb bs : ℕ) :
    ∑ s ∈ Finset.range nb, ∑ kk : Fin bs, g (bs * s + kk.val) = ∑ k : Fin (nb * bs), g k.val := by
  rw [Fin.sum_univ_eq_sum_range g (nb * bs), ← sum_range_blocks g bs nb]
  exact Finset.sum_congr rfl fun s _ => Fin.sum_univ_eq_sum_range (fun kk => g (bs * s + kk)) bs

/-- The same with the total count named: n = nb · bs. -/
theorem sum_fin_blocks_eq {β : Type*} [AddCommMonoid β] (g : ℕ → β) (nb bs n : ℕ) (hn : nb * bs = n) :
    ∑ s ∈ Finset.range nb, ∑ kk : Fin bs, g (bs * s + kk.val) = ∑ k : Fin n, g k.val := by
  subst hn
  exact sum_fin_blocks g nb bs

/-- A rank-2 array extended by zero to all of ℕ × ℕ. -/
def ext2 {α : Type*} [Zero α] {n0 n1 : ℕ} (A : (⟨2, ![n0, n1]⟩ : Shape).Idx → α) (r k : ℕ) : α :=
  if h : r < n0 ∧ k < n1 then A (ix2 ⟨r, h.1⟩ ⟨k, h.2⟩) else 0

/-- Inside the extents the extension is the array. -/
theorem ext2_of_lt {α : Type*} [Zero α] {n0 n1 : ℕ} (A : (⟨2, ![n0, n1]⟩ : Shape).Idx → α) {r k : ℕ}
    (hr : r < n0) (hk : k < n1) : ext2 A r k = A (ix2 ⟨r, hr⟩ ⟨k, hk⟩) := dif_pos ⟨hr, hk⟩

/-- At the coordinates of an index the extension is the array at that index. -/
theorem ext2_ix {α : Type*} [Zero α] {n0 n1 : ℕ} (A : (⟨2, ![n0, n1]⟩ : Shape).Idx → α) (p : Fin n0) (k : Fin n1) :
    ext2 A p.val k.val = A (ix2 p k) := ext2_of_lt A p.isLt k.isLt

end Cert.LibBlockSum

end
-- ==== Proof.RefOps.lean ====
/-
  Two general facts about sums, used to read the reference's contractions index by index.

  * A sum over n = nb · bs consecutive places is the sum, over the nb blocks, of the bs places of each block
    (place bs · b + p of block b), stated for families indexed by Fin n.
  * The host's product of two arrays with ONE contracted axis, of extent K, read at a result index, is the sum over
    that axis of the products of the operands at the two indices the dimension numbers select; the caller names
    those indices as functions of the contracted coordinate.
-/
import proofs.«165309_j63874753626715_1_alg».proof.Proof.LibBlockSum
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx

/-- A family over Fin n extended by zero to all naturals. -/
def extN {β : Type*} [Zero β] {n : ℕ} (f : Fin n → β) (m : ℕ) : β := if h : m < n then f ⟨m, h⟩ else 0

/-- Below n the extension is the family. -/
theorem extN_of_lt {β : Type*} [Zero β] {n : ℕ} (f : Fin n → β) {m : ℕ} (h : m < n) : extN f m = f ⟨m, h⟩ := dif_pos h

/-- A sum over nb · bs consecutive places is the sum over the nb blocks of each block's bs places. -/
theorem sum_fin_split {β : Type*} [AddCommMonoid β] (nb bs n : ℕ) (hn : nb * bs = n) (f : Fin n → β)
    (hlt : ∀ (b : Fin nb) (p : Fin bs), bs * b.val + p.val < n) :
    ∑ k : Fin n, f k = ∑ b : Fin nb, ∑ p : Fin bs, f ⟨bs * b.val + p.val, hlt b p⟩ := by
  have e1 : ∑ k : Fin n, f k = ∑ k : Fin n, extN f k.val :=
    Finset.sum_congr rfl fun k _ => (extN_of_lt f k.isLt).symm
  rw [e1, ← Cert.LibBlockSum.sum_fin_blocks_eq (extN f) nb bs n hn,
    ← Fin.sum_univ_eq_sum_range (fun s => ∑ kk : Fin bs, extN f (bs * s + kk.val)) nb]
  exact Finset.sum_congr rfl fun b _ => Finset.sum_congr rfl fun p _ => extN_of_lt f (hlt b p)

/-- The host's product with ONE contracted axis of extent K, read at an index: the sum over that axis of the operands'
    products, the operand indices named by the caller. -/
theorem dotSingle_apply {sl sr so : Shape} {φ₁ φ₂ : FTy} (D : DotDims sl sr so) (K : ℕ)
    (hr : D.contr.rank = 1) (hs : D.contr.size ⟨0, by omega⟩ = K) (prec : Option ContractPrecision)
    (lhs : FVec Ideal sl φ₁) (rhs : FVec Ideal sr φ₂) (j : so.Idx) (L : Fin K → sl.Idx) (R : Fin K → sr.Idx)
    (hl : ∀ k : Fin K, D.lhsIdx j ((contrEquiv1 D K hr hs).symm k) = L k)
    (hR : ∀ k : Fin K, D.rhsIdx j ((contrEquiv1 D K hr hs).symm k) = R k) :
    Host.dotGeneral (F := Ideal) D prec lhs rhs j = ∑ k : Fin K, (lhs (L k) : EReal) * (rhs (R k) : EReal) := by
  simp only [Host.dotGeneral]
  rw [Ideal.dotGeneral_apply, ← Equiv.sum_comp (contrEquiv1 D K hr hs).symm]
  exact Finset.sum_congr rfl fun k _ => by rw [hl k, hR k]

end Cert.ReferenceIdeal.RefValue

end
-- ==== Proof.RefRead.lean ====
/-
  The reference's array operations read index by index, over variable arrays of the program's literal shapes.

  The reference rearranges the input X[b, c, h, w] (64 images, 256 = 4·64 channels, 56·56 = 3136 pixels) into
  x[g, d, k] with channel 64g + d leading and k = 3136·b + 56·h + w running over the 64·3136 = 200704 (image, pixel)
  pairs. On that array it takes, per channel, the mean (the sum over k divided by the count), centres the data, forms
  the 64×64 second-moment matrix of each group by contracting k, and, with a whitening matrix per group, contracts
  the matrix's last axis against the channels of the centred data, puts images first again and applies the per-channel
  scale and shift. Each step is read here at one index:
    xOf X (g, d, k)            = X[k / 3136, 64g + d, pixel k mod 3136]
    Σ_k f k                    = Σ_b Σ_p f (3136·b + p)
    xcOf x (g, d, k)           = x (g, d, k) − (Σ_k' x (g, d, k')) / count
    sigOf E xc (g, d, e)       = ε·E[d, e] + (Σ_k xc (g, d, k)·xc (g, e, k)) / count
    outOf wm xc wt bs (b, c, h, w) = (Σ_e wm (c / 64, c mod 64, e)·xc (c / 64, e, 3136·b + 56·h + w))·wt[c] + bs[c]
  and the covariance of the rearranged centred input is the specification's centred covariance.
-/
import proofs.«165309_j63874753626715_1_alg».proof.Proof.Gen.ReferenceIdeal
import proofs.«165309_j63874753626715_1_alg».proof.Proof.Spec
import proofs.«165309_j63874753626715_1_alg».proof.Proof.RefOps
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The data with channels leading: x[g, d, 3136·b + p] = X[b, 64g+d, p] -/

/-- The input with channels leading and (image, pixel) joined: [4, 64, 200704]. -/
def xOf (X : FVec Ideal S64x256x56x56 .f32) : FVec Ideal S4x64x200704 .f32 :=
  shapeCast _ (transpose S256x64x56x56 [1, 0, 2, 3] X transposes_S64x256x56x56_S256x64x56x56_1_0_2_3) shapeCasts_S256x64x56x56_S4x64x200704

/-- Place k of channel d of group g is pixel k mod 3136 of image k / 3136. -/
theorem xOf_apply (X : FVec Ideal S64x256x56x56 .f32) (g : Fin 4) (d : Fin 64) (k : Fin 200704) :
    xOf X (ix3 g d k) = Cert.Whiten.xAt X g d ⟨k.val / 3136, by omega⟩ ⟨k.val % 3136, by omega⟩ := by
  unfold xOf Cert.Whiten.xAt
  refine (shapeCast_apply _ _ (ix3 g d k)
    (ix4 (Cert.Whiten.chan g d) (⟨k.val / 3136, by omega⟩ : Fin 64) (⟨k.val % 3136 / 56, by omega⟩ : Fin 56) (⟨k.val % 56, by omega⟩ : Fin 56)) ?_).trans ?_
  · rw [Shape.rowMajor_val_four, Shape.rowMajor_val_three]
    show (((64 * g.val + d.val) * 64 + k.val / 3136) * 56 + k.val % 3136 / 56) * 56 + k.val % 56 = (g.val * 64 + d.val) * 200704 + k.val
    omega
  · refine (transpose_apply _ X _ _ (ix4 (⟨k.val / 3136, by omega⟩ : Fin 64) (Cert.Whiten.chan g d) (⟨k.val % 3136 / 56, by omega⟩ : Fin 56) (⟨k.val % 56, by omega⟩ : Fin 56)) (fun b => by
      match b with
      | ⟨0, _⟩ => rfl
      | ⟨1, _⟩ => rfl
      | ⟨2, _⟩ => rfl
      | ⟨3, _⟩ => rfl)).trans ?_
    refine congrArg X (congrArg (ix4 _ _ _) (Fin.ext ?_))
    show k.val % 56 = k.val % 3136 % 56
    omega

/-- Place 3136·b + p is pixel p of image b. -/
theorem xOf_block (X : FVec Ideal S64x256x56x56 .f32) (g : Fin 4) (d : Fin 64) (b : Fin 64) (p : Fin 3136) :
    xOf X (ix3 g d (⟨3136 * b.val + p.val, by omega⟩ : Fin 200704)) = Cert.Whiten.xAt X g d b p := by
  rw [xOf_apply]
  congr 1 <;> exact Fin.ext (by simp only; omega)

/-- A sum over the 200704 places of a channel is the sum over images and pixels. -/
theorem sum_places (f : Fin 200704 → EReal) :
    ∑ k : Fin 200704, f k = ∑ b : Fin 64, ∑ p : Fin 3136, f ⟨3136 * b.val + p.val, by omega⟩ :=
  sum_fin_split 64 3136 200704 (by norm_num) f (fun b p => by omega)

/-! ## The mean and the centred data -/

/-- A scalar literal spread over an array reads the literal's value everywhere. -/
theorem bcastConst_apply {t : Shape} (h : S_.BroadcastsInDim t (![] : Fin 0 → Fin t.rank)) (c : BitVec 32) (j : t.Idx) :
    broadcastInDim t ![] h (constant (F := Ideal) S_ .f32 c) j = Ideal.ofBits .f32 c := rfl

/-- The host's quotient at an index. -/
theorem hostDivf_apply {s : Shape} {φ : FTy} (a b : FVec Ideal s φ) (i : s.Idx) : Host.divf a b i = Ideal.div (a i) (b i) := rfl

/-- The host's sum over the last axis of an array [4, 64, 200704] from the zero literal, at (g, d). -/
theorem hostSum_apply (x : FVec Ideal S4x64x200704 .f32) (g : Fin 4) (d : Fin 64) :
    Host.reduceAdd (F := Ideal) x (constant (F := Ideal) S_ .f32 0x00000000#32) reducesTo_S4x64x200704_S4x64_d2 h_S_ (ix2 g d)
      = ∑ k : Fin 200704, x (ix3 g d k) := by
  have h : S4x64x200704.Reduces [2] S4x64 := by decide
  unfold Host.reduceAdd
  rw [Ideal.hostReduceAdd_def]
  refine (Ideal.hostReduceAdd_single _ h x _ (ix2 g d)).trans ?_
  show Ideal.ofBits .f32 0x00000000#32 + ∑ k : Fin 200704, x (h.lift (ix2 g d) k) = _
  rw [Ideal.ofBits_zero_f32, zero_add]
  refine Finset.sum_congr rfl fun k _ => congrArg x (funext fun c => Fin.ext ?_)
  match c with
  | ⟨0, _⟩ => rfl
  | ⟨1, _⟩ => rfl
  | ⟨2, _⟩ => rfl

/-- The channel means as the program computes them, [4, 64, 1]. -/
def meanOf (x : FVec Ideal S4x64x200704 .f32) : FVec Ideal S4x64x1 .f32 :=
  Host.divf (broadcastInDim S4x64x1 ![0, 1] bcast_S4x64_S4x64x1_0_1 (Host.reduceAdd (F := Ideal) x (constant (F := Ideal) S_ .f32 0x00000000#32) reducesTo_S4x64x200704_S4x64_d2 h_S_)) (broadcastInDim S4x64x1 ![] bcast_S_S4x64x1 (constant (F := Ideal) S_ .f32 0x48440000#32))

/-- The mean of channel d of group g: the channel's sum over the count. -/
theorem meanOf_apply (x : FVec Ideal S4x64x200704 .f32) (g : Fin 4) (d : Fin 64) (z : Fin 1) :
    meanOf x (ix3 g d z) = Ideal.div (∑ k : Fin 200704, x (ix3 g d k)) Cert.Whiten.cnt := by
  unfold meanOf
  rw [hostDivf_apply, bcastConst_apply, broadcastInDim_apply _ bcast_S4x64_S4x64x1_0_1 _ (ix3 g d z) (ix2 g d) (fun a => by
    match a with
    | ⟨0, _⟩ => rfl
    | ⟨1, _⟩ => rfl), hostSum_apply]
  rfl

/-- The centred data. -/
def xcOf (x : FVec Ideal S4x64x200704 .f32) : FVec Ideal S4x64x200704 .f32 :=
  subf x (broadcastInDim S4x64x200704 ![0, 1, 2] bcast_S4x64x1_S4x64x200704_0_1_2 (meanOf x))

/-- The centred data at a place: the entry minus its channel's mean. -/
theorem xcOf_apply (x : FVec Ideal S4x64x200704 .f32) (g : Fin 4) (d : Fin 64) (k : Fin 200704) :
    xcOf x (ix3 g d k) = x (ix3 g d k) - Ideal.div (∑ k' : Fin 200704, x (ix3 g d k')) Cert.Whiten.cnt := by
  unfold xcOf
  rw [subf_apply, broadcastInDim_apply _ bcast_S4x64x1_S4x64x200704_0_1_2 _ (ix3 g d k) (ix3 g d (0 : Fin 1)) (fun a => by
    match a with
    | ⟨0, _⟩ => rfl
    | ⟨1, _⟩ => rfl
    | ⟨2, _⟩ => rfl), meanOf_apply]

/-- The channel sums of the rearranged data are the specification's. -/
theorem sum_xOf (X : FVec Ideal S64x256x56x56 .f32) (g : Fin 4) (d : Fin 64) :
    ∑ k : Fin 200704, xOf X (ix3 g d k) = Cert.Whiten.sumX X g d := by
  rw [sum_places]
  exact Finset.sum_congr rfl fun b _ => Finset.sum_congr rfl fun p _ => xOf_block X g d b p

/-- The centred entry of image b at pixel p. -/
theorem xc_block (X : FVec Ideal S64x256x56x56 .f32) (g : Fin 4) (d : Fin 64) (b : Fin 64) (p : Fin 3136) :
    xcOf (xOf X) (ix3 g d (⟨3136 * b.val + p.val, by omega⟩ : Fin 200704)) = Cert.Whiten.xAt X g d b p - Cert.Whiten.mean X g d := by
  rw [xcOf_apply, xOf_block, sum_xOf]
  rfl

/-! ## The covariance -/

/-- The second-moment product: [4,64,200704] × [4,64,200704] over the last axis of both, batched over the groups. -/
theorem dotCov_apply (l r : FVec Ideal S4x64x200704 .f32) (g : Fin 4) (d e : Fin 64) :
    Host.dotGeneral (F := Ideal) dot_S4x64x200704_S4x64x200704_S4x64x64_2_2_1_1_0_0 none l r (ix3 g d e)
      = ∑ k : Fin 200704, (l (ix3 g d k) : EReal) * (r (ix3 g e k) : EReal) := by
  refine dotSingle_apply dot_S4x64x200704_S4x64x200704_S4x64x64_2_2_1_1_0_0 200704 rfl rfl none l r (ix3 g d e)
    (fun k => ix3 g d k) (fun k => ix3 g e k) (fun k => ?_) (fun k => ?_)
  · have hk := contrEquiv1_symm_val dot_S4x64x200704_S4x64x200704_S4x64x64_2_2_1_1_0_0 200704 rfl rfl k
    refine funext fun a => Fin.ext ?_
    match a with
    | ⟨0, _⟩ => simp [DotDims.lhsIdx, dot_S4x64x200704_S4x64x200704_S4x64x64_2_2_1_1_0_0]; rfl
    | ⟨1, _⟩ => simp [DotDims.lhsIdx, dot_S4x64x200704_S4x64x200704_S4x64x64_2_2_1_1_0_0]; rfl
    | ⟨2, _⟩ => exact (DotDims.lhsIdx_val_of_single _ rfl _ _).trans hk
  · have hk := contrEquiv1_symm_val dot_S4x64x200704_S4x64x200704_S4x64x64_2_2_1_1_0_0 200704 rfl rfl k
    refine funext fun a => Fin.ext ?_
    match a with
    | ⟨0, _⟩ => simp [DotDims.rhsIdx, dot_S4x64x200704_S4x64x200704_S4x64x64_2_2_1_1_0_0]; rfl
    | ⟨1, _⟩ => simp [DotDims.rhsIdx, dot_S4x64x200704_S4x64x200704_S4x64x64_2_2_1_1_0_0]; rfl
    | ⟨2, _⟩ => exact (DotDims.rhsIdx_val_of_single _ rfl _ _).trans hk

/-- The covariance as the program computes it from the centred data: ε·E + (xc · xcᵀ) / count. -/
def sigOf (E : FVec Ideal S64x64 .f32) (xc : FVec Ideal S4x64x200704 .f32) : FVec Ideal S4x64x64 .f32 :=
  addf (mulf (broadcastInDim S4x64x64 ![] bcast_S_S4x64x64 (constant (F := Ideal) S_ .f32 0x3727C5AC#32)) (broadcastInDim S4x64x64 ![1, 2] bcast_S64x64_S4x64x64_1_2 E)) (Host.divf (Host.dotGeneral (F := Ideal) dot_S4x64x200704_S4x64x200704_S4x64x64_2_2_1_1_0_0 none xc xc) (broadcastInDim S4x64x64 ![] bcast_S_S4x64x64 (constant (F := Ideal) S_ .f32 0x48440000#32)))

/-- A 64×64 matrix repeated for every group. -/
theorem bcastE_apply (E : FVec Ideal S64x64 .f32) (g : Fin 4) (d e : Fin 64) :
    broadcastInDim S4x64x64 ![1, 2] bcast_S64x64_S4x64x64_1_2 E (ix3 g d e) = E (ix2 d e) :=
  broadcastInDim_apply _ bcast_S64x64_S4x64x64_1_2 E (ix3 g d e) (ix2 d e) (fun a => by
    match a with
    | ⟨0, _⟩ => rfl
    | ⟨1, _⟩ => rfl)

/-- The covariance at (g, d, e). -/
theorem sigOf_apply (E : FVec Ideal S64x64 .f32) (xc : FVec Ideal S4x64x200704 .f32) (g : Fin 4) (d e : Fin 64) :
    sigOf E xc (ix3 g d e)
      = Cert.Whiten.eps * E (ix2 d e) + Ideal.div (∑ k : Fin 200704, xc (ix3 g d k) * xc (ix3 g e k)) Cert.Whiten.cnt := by
  unfold sigOf
  rw [addf_apply, mulf_apply, hostDivf_apply, bcastConst_apply, bcastConst_apply, bcastE_apply, dotCov_apply]
  rfl

/-- The program's covariance of the rearranged, centred input is the specification's centred covariance. -/
theorem sigOf_eq (E : FVec Ideal S64x64 .f32) (X : FVec Ideal S64x256x56x56 .f32) :
    sigOf E (xcOf (xOf X)) = Cert.Whiten.sigCen E X := by
  funext j
  obtain ⟨g, d, e, rfl⟩ : ∃ (g : Fin 4) (d e : Fin 64), j = ix3 g d e := ⟨j 0, j 1, j 2, eq_ix3 j⟩
  rw [sigOf_apply, sum_places]
  show _ = Cert.Whiten.eps * E (ix2 d e) + Ideal.div (Cert.Whiten.sumCC X g d e) Cert.Whiten.cnt
  unfold Cert.Whiten.sumCC
  refine congrArg (fun s => Cert.Whiten.eps * E (ix2 d e) + Ideal.div s Cert.Whiten.cnt) ?_
  exact Finset.sum_congr rfl fun b _ => Finset.sum_congr rfl fun p _ => by rw [xc_block, xc_block]

/-! ## The whitened output -/

/-- The whitening product: [4,64,64] × [4,64,200704], the matrix's last axis against the data's channel axis. -/
theorem dotWhiten_apply (wm : FVec Ideal S4x64x64 .f32) (xc : FVec Ideal S4x64x200704 .f32) (g : Fin 4) (d : Fin 64) (k : Fin 200704) :
    Host.dotGeneral (F := Ideal) dot_S4x64x64_S4x64x200704_S4x64x200704_2_1_1_2_0_0 none wm xc (ix3 g d k)
      = ∑ e : Fin 64, (wm (ix3 g d e) : EReal) * (xc (ix3 g e k) : EReal) := by
  refine dotSingle_apply dot_S4x64x64_S4x64x200704_S4x64x200704_2_1_1_2_0_0 64 rfl rfl none wm xc (ix3 g d k)
    (fun e => ix3 g d e) (fun e => ix3 g e k) (fun e => ?_) (fun e => ?_)
  · have hk := contrEquiv1_symm_val dot_S4x64x64_S4x64x200704_S4x64x200704_2_1_1_2_0_0 64 rfl rfl e
    refine funext fun a => Fin.ext ?_
    match a with
    | ⟨0, _⟩ => simp [DotDims.lhsIdx, dot_S4x64x64_S4x64x200704_S4x64x200704_2_1_1_2_0_0]; rfl
    | ⟨1, _⟩ => simp [DotDims.lhsIdx, dot_S4x64x64_S4x64x200704_S4x64x200704_2_1_1_2_0_0]; rfl
    | ⟨2, _⟩ => exact (DotDims.lhsIdx_val_of_single _ rfl _ _).trans hk
  · have hk := contrEquiv1_symm_val dot_S4x64x64_S4x64x200704_S4x64x200704_2_1_1_2_0_0 64 rfl rfl e
    refine funext fun a => Fin.ext ?_
    match a with
    | ⟨0, _⟩ => simp [DotDims.rhsIdx, dot_S4x64x64_S4x64x200704_S4x64x200704_2_1_1_2_0_0]; rfl
    | ⟨1, _⟩ => exact (DotDims.rhsIdx_val_of_single _ rfl _ _).trans hk
    | ⟨2, _⟩ => simp [DotDims.rhsIdx, dot_S4x64x64_S4x64x200704_S4x64x200704_2_1_1_2_0_0]; rfl

/-- The program's last stretch: whiten the centred data, put images first again, scale and shift per channel. -/
def outOf (wm : FVec Ideal S4x64x64 .f32) (xc : FVec Ideal S4x64x200704 .f32) (wt bs : FVec Ideal S1x256x1x1 .f32) :
    FVec Ideal S64x256x56x56 .f32 :=
  addf (mulf (transpose S64x256x56x56 [1, 0, 2, 3] (shapeCast _ (Host.dotGeneral (F := Ideal) dot_S4x64x64_S4x64x200704_S4x64x200704_2_1_1_2_0_0 none wm xc) shapeCasts_S4x64x200704_S256x64x56x56) transposes_S256x64x56x56_S64x256x56x56_1_0_2_3) (broadcastInDim S64x256x56x56 ![0, 1, 2, 3] bcast_S1x256x1x1_S64x256x56x56_0_1_2_3 wt)) (broadcastInDim S64x256x56x56 ![0, 1, 2, 3] bcast_S1x256x1x1_S64x256x56x56_0_1_2_3 bs)

/-- A per-channel row [1, 256, 1, 1] spread over the images and pixels. -/
theorem bcastChan_apply (v : FVec Ideal S1x256x1x1 .f32) (b : Fin 64) (c : Fin 256) (h w : Fin 56) :
    broadcastInDim S64x256x56x56 ![0, 1, 2, 3] bcast_S1x256x1x1_S64x256x56x56_0_1_2_3 v (ix4 b c h w)
      = v (ix4 (0 : Fin 1) c (0 : Fin 1) (0 : Fin 1)) :=
  broadcastInDim_apply _ bcast_S1x256x1x1_S64x256x56x56_0_1_2_3 v (ix4 b c h w) (ix4 (0 : Fin 1) c (0 : Fin 1) (0 : Fin 1)) (fun a => by
    match a with
    | ⟨0, _⟩ => rfl
    | ⟨1, _⟩ => rfl
    | ⟨2, _⟩ => rfl
    | ⟨3, _⟩ => rfl)

/-- The output at (b, c, h, w): channel c's row of its group's matrix against the centred data of image b at pixel
    (h, w), scaled and shifted. -/
theorem outOf_apply (wm : FVec Ideal S4x64x64 .f32) (xc : FVec Ideal S4x64x200704 .f32) (wt bs : FVec Ideal S1x256x1x1 .f32)
    (b : Fin 64) (c : Fin 256) (h w : Fin 56) :
    outOf wm xc wt bs (ix4 b c h w)
      = (∑ e : Fin 64, wm (ix3 (Cert.Whiten.grp c) (Cert.Whiten.sub c) e)
            * xc (ix3 (Cert.Whiten.grp c) e (⟨3136 * b.val + (Cert.Whiten.pix h w).val, by have := (Cert.Whiten.pix h w).isLt; omega⟩ : Fin 200704)))
          * wt (ix4 (0 : Fin 1) c (0 : Fin 1) (0 : Fin 1)) + bs (ix4 (0 : Fin 1) c (0 : Fin 1) (0 : Fin 1)) := by
  unfold outOf
  rw [addf_apply, mulf_apply, bcastChan_apply, bcastChan_apply]
  refine congrArg (fun s => s * wt (ix4 (0 : Fin 1) c (0 : Fin 1) (0 : Fin 1)) + bs (ix4 (0 : Fin 1) c (0 : Fin 1) (0 : Fin 1))) ?_
  refine (transpose_apply _ _ transposes_S256x64x56x56_S64x256x56x56_1_0_2_3 (ix4 b c h w) (ix4 c b h w) (fun a => by
    match a with
    | ⟨0, _⟩ => rfl
    | ⟨1, _⟩ => rfl
    | ⟨2, _⟩ => rfl
    | ⟨3, _⟩ => rfl)).trans ?_
  refine (shapeCast_apply _ shapeCasts_S4x64x200704_S256x64x56x56 (ix4 c b h w)
    (ix3 (Cert.Whiten.grp c) (Cert.Whiten.sub c) (⟨3136 * b.val + (Cert.Whiten.pix h w).val, by have := (Cert.Whiten.pix h w).isLt; omega⟩ : Fin 200704)) ?_).trans ?_
  · rw [Shape.rowMajor_val_four, Shape.rowMajor_val_three]
    show (c.val / 64 * 64 + c.val % 64) * 200704 + (3136 * b.val + (56 * h.val + w.val)) = ((c.val * 64 + b.val) * 56 + h.val) * 56 + w.val
    omega
  · exact dotWhiten_apply wm xc _ _ _

end Cert.ReferenceIdeal.RefValue

end
-- ==== Proof.RefValue.lean ====
/-
  The reference's result as one function of its three arguments, index by index.

  The run of the reference leaves in its result buffer the composed term of its 101 operations. Read from the inside:
  the rearranged input (xOf), the centred data (xcOf), the covariance (sigOf) — which is the specification's centred
  covariance sigCen —, then the chain from the covariance to the whitening matrix, which is carried as ONE function
  (tail) and never opened, and the last stretch (outOf), which at (b, c, h, w) is
    (Σ_e WM[c / 64, c mod 64, e] · (X[b, 64·(c / 64) + e, h, w] − mean (c / 64) e)) · weight[c] + bias[c],
  the specification's output.
-/
import proofs.«165309_j63874753626715_1_alg».proof.Proof.Gen.ReferenceIdeal.Run
import proofs.«165309_j63874753626715_1_alg».proof.Proof.Spec
import proofs.«165309_j63874753626715_1_alg».proof.Proof.RefTail
import proofs.«165309_j63874753626715_1_alg».proof.Proof.RefRead

noncomputable section

open scoped BigOperators

namespace Cert.ReferenceIdeal.RefValue

open Cert.ReferenceIdeal Cert.ReferenceIdeal.Gen Cert.ReferenceIdeal.Value Idealize.ShloMosaic Idealize.ShloMosaic.ValueIdx Idealize.SL.Sem Idealize.ShloMosaic.StableHlo

/-! ## The named intermediates of the run, in the vocabulary of this proof -/

section Names
variable (V0 : Valuation τ sig (Elt Ideal))

theorem v1_eq : res_main_v1 (F := Ideal) V0 = xOf (V0 (Proc.devRef .tc main_arg0)) := rfl

theorem v7_eq : res_main_v7 (F := Ideal) V0 = xcOf (xOf (V0 (Proc.devRef .tc main_arg0))) := by
  unfold res_main_v7
  rw [v1_eq]
  rfl

theorem v14_eq : res_main_v14 (F := Ideal) V0 = broadcastInDim S4x64x64 ![1, 2] bcast_S64x64_S4x64x64_1_2 eye := rfl

theorem v20_eq : res_main_v20 (F := Ideal) V0 = sigOf eye (xcOf (xOf (V0 (Proc.devRef .tc main_arg0)))) := by
  unfold res_main_v20
  rw [v14_eq, v7_eq]
  rfl

theorem v30_eq : res_main_v30 (F := Ideal) V0 = rTr (res_main_v20 (F := Ideal) V0) := rfl

theorem v32_eq : res_main_v32 (F := Ideal) V0 = sigN (res_main_v20 (F := Ideal) V0) := by
  unfold res_main_v32
  rw [v30_eq]
  rfl

theorem v40_eq : res_main_v40 (F := Ideal) V0 = step (sigN (res_main_v20 (F := Ideal) V0)) (broadcastInDim S4x64x64 ![1, 2] bcast_S64x64_S4x64x64_1_2 eye) := by
  unfold res_main_v40
  rw [v14_eq, v32_eq]
  rfl

theorem v48_eq : res_main_v48 (F := Ideal) V0 = step (sigN (res_main_v20 (F := Ideal) V0)) (res_main_v40 (F := Ideal) V0) := by
  unfold res_main_v48
  rw [v32_eq]
  rfl

theorem v56_eq : res_main_v56 (F := Ideal) V0 = step (sigN (res_main_v20 (F := Ideal) V0)) (res_main_v48 (F := Ideal) V0) := by
  unfold res_main_v56
  rw [v32_eq]
  rfl

theorem v64_eq : res_main_v64 (F := Ideal) V0 = step (sigN (res_main_v20 (F := Ideal) V0)) (res_main_v56 (F := Ideal) V0) := by
  unfold res_main_v64
  rw [v32_eq]
  rfl

/-- The run's whitening matrix is the chain from the covariance, applied to the run's covariance. -/
theorem wm_eq :
    mulf (subf (mulf (broadcastInDim S4x64x64 ![] bcast_S_S4x64x64 (constant (F := Ideal) S_ .f32 0x3FC00000#32)) (res_main_v64 (F := Ideal) V0)) (mulf (broadcastInDim S4x64x64 ![] bcast_S_S4x64x64 (constant (F := Ideal) S_ .f32 0x3F000000#32)) (Host.dotGeneral (F := Ideal) (φ₁ := .f32) (φ₂ := .f32) dot_S4x64x64_S4x64x64_S4x64x64_2_1_1_2_0_0 none (Host.dotGeneral (F := Ideal) (φ₁ := .f32) (φ₂ := .f32) dot_S4x64x64_S4x64x64_S4x64x64_1_1_2_2_0_0 none (Host.dotGeneral (F := Ideal) (φ₁ := .f32) (φ₂ := .f32) dot_S4x64x64_S4x64x64_S4x64x64_1_2_2_1_0_0 none (res_main_v64 (F := Ideal) V0) (res_main_v64 (F := Ideal) V0)) (res_main_v64 (F := Ideal) V0)) (res_main_v32 (F := Ideal) V0)))) (broadcastInDim S4x64x64 ![0, 1, 2] bcast_S4x1x1_S4x64x64_0_1_2 (Host.sqrt (F := Ideal) (φ := .f32) (res_main_v30 (F := Ideal) V0)))
      = tail eye (res_main_v20 (F := Ideal) V0) := by
  rw [v30_eq, v32_eq]
  refine Eq.trans (?_ : _ = mulf (step (sigN (res_main_v20 (F := Ideal) V0)) (res_main_v64 (F := Ideal) V0))
    (broadcastInDim S4x64x64 ![0, 1, 2] bcast_S4x1x1_S4x64x64_0_1_2 (Host.sqrt (F := Ideal) (φ := .f32) (rTr (res_main_v20 (F := Ideal) V0))))) ?_
  · rfl
  · rw [v64_eq, v56_eq, v48_eq, v40_eq]
    rfl

end Names

/-! ## The last stretch is the specification's output -/

/-- With any whitening matrix, the program's last stretch on the rearranged centred input is the specification's
    output with the specification's means. -/
theorem outOf_eq (WM : FVec Ideal S4x64x64 .f32) (X : FVec Ideal S64x256x56x56 .f32) (wt bs : FVec Ideal S1x256x1x1 .f32) :
    outOf WM (xcOf (xOf X)) wt bs = Cert.Whiten.out WM (Cert.Whiten.mean X) X wt bs := by
  funext j
  obtain ⟨b, c, h, w, rfl⟩ : ∃ (b : Fin 64) (c : Fin 256) (h w : Fin 56), j = ix4 b c h w := ⟨j 0, j 1, j 2, j 3, eq_ix4 j⟩
  rw [outOf_apply, Cert.Whiten.out_ix4]
  unfold Cert.Whiten.outAt
  refine congrArg (fun s => s * wt (ix4 (0 : Fin 1) c (0 : Fin 1) (0 : Fin 1)) + bs (ix4 (0 : Fin 1) c (0 : Fin 1) (0 : Fin 1))) ?_
  refine Finset.sum_congr rfl fun e _ => congrArg (WM (ix3 (Cert.Whiten.grp c) (Cert.Whiten.sub c) e) * ·) ?_
  rw [xc_block X (Cert.Whiten.grp c) e b (Cert.Whiten.pix h w)]
  unfold Cert.Whiten.xAt
  rw [Cert.Whiten.prow_pix, Cert.Whiten.pcol_pix]

/-! ## The result -/

/-- The reference's result, for any contents of its arguments: the specification's output with the whitening matrix
    the chain makes from the specification's centred covariance. -/
theorem result_eq (V0 : Valuation τ sig (Elt Ideal)) :
    addf (mulf (transpose S64x256x56x56 [1, 0, 2, 3] (shapeCast _ (Host.dotGeneral (F := Ideal) (φ₁ := .f32) (φ₂ := .f32) dot_S4x64x64_S4x64x200704_S4x64x200704_2_1_1_2_0_0 none (mulf (subf (mulf (broadcastInDim S4x64x64 ![] bcast_S_S4x64x64 (constant (F := Ideal) S_ .f32 0x3FC00000#32)) (res_main_v64 (F := Ideal) V0)) (mulf (broadcastInDim S4x64x64 ![] bcast_S_S4x64x64 (constant (F := Ideal) S_ .f32 0x3F000000#32)) (Host.dotGeneral (F := Ideal) (φ₁ := .f32) (φ₂ := .f32) dot_S4x64x64_S4x64x64_S4x64x64_2_1_1_2_0_0 none (Host.dotGeneral (F := Ideal) (φ₁ := .f32) (φ₂ := .f32) dot_S4x64x64_S4x64x64_S4x64x64_1_1_2_2_0_0 none (Host.dotGeneral (F := Ideal) (φ₁ := .f32) (φ₂ := .f32) dot_S4x64x64_S4x64x64_S4x64x64_1_2_2_1_0_0 none (res_main_v64 (F := Ideal) V0) (res_main_v64 (F := Ideal) V0)) (res_main_v64 (F := Ideal) V0)) (res_main_v32 (F := Ideal) V0)))) (broadcastInDim S4x64x64 ![0, 1, 2] bcast_S4x1x1_S4x64x64_0_1_2 (Host.sqrt (F := Ideal) (φ := .f32) (res_main_v30 (F := Ideal) V0)))) (res_main_v7 (F := Ideal) V0)) shapeCasts_S4x64x200704_S256x64x56x56) transposes_S256x64x56x56_S64x256x56x56_1_0_2_3) (broadcastInDim S64x256x56x56 ![0, 1, 2, 3] bcast_S1x256x1x1_S64x256x56x56_0_1_2_3 (V0 (Proc.devRef .tc main_arg1)))) (broadcastInDim S64x256x56x56 ![0, 1, 2, 3] bcast_S1x256x1x1_S64x256x56x56_0_1_2_3 (V0 (Proc.devRef .tc main_arg2)))
      = Cert.Whiten.out (tail eye (Cert.Whiten.sigCen eye (V0 (Proc.devRef .tc main_arg0)))) (Cert.Whiten.mean (V0 (Proc.devRef .tc main_arg0)))
          (V0 (Proc.devRef .tc main_arg0)) (V0 (Proc.devRef .tc main_arg1)) (V0 (Proc.devRef .tc main_arg2)) := by
  rw [wm_eq V0, v7_eq V0, v20_eq V0, sigOf_eq]
  exact outOf_eq _ _ _ _

end Cert.ReferenceIdeal.RefValue

end
-- ==== Proof.Covariance.lean ====
/-
  The one algebraic law of this certificate: for real data, the covariance computed from raw moments is the
  covariance computed from centred data,
      (Σ a·b)/n − (Σ a / n)(Σ b / n) = (Σ (a − Σ a / n)(b − Σ b / n)) / n,
  because Σ (a − α)(b − β) = Σ a·b − β Σ a − α Σ b + n α β and, with α = Σ a / n and β = Σ b / n, the last three
  terms collapse to − n α β.  On the extended reals the law needs every entry finite (it distributes products over
  sums and cancels), so it is proved over ℝ and carried across the coercion.
-/
import proofs.«165309_j63874753626715_1_alg».proof.Proof.Spec

noncomputable section

namespace Cert.Whiten

open Idealize.ShloMosaic Idealize.ShloMosaic.ValueIdx

/-- The coercion from the reals to the extended reals commutes with a finite sum. -/
theorem coe_finsum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The coercion commutes with a double sum. -/
theorem coe_finsum2 {m k : ℕ} (f : Fin m → Fin k → ℝ) :
    ((∑ i, ∑ j, f i j : ℝ) : EReal) = ∑ i, ∑ j, (f i j : EReal) := by
  rw [coe_finsum]; exact Finset.sum_congr rfl fun i _ => coe_finsum _ _

/-- The count of (image, pixel) pairs is the real number 200704. -/
theorem cnt_eq : cnt = ((200704 : ℝ) : EReal) := by
  unfold cnt; simp [Ideal.ofBits, Ideal.ieee, -EReal.coe_mul]; norm_num

/-- Raw and centred covariance over the reals, for an m × k table of pairs and n = m·k ≠ 0. -/
theorem cov_real {m k : ℕ} (a b : Fin m → Fin k → ℝ) (n : ℝ) (hn : (m : ℝ) * (k : ℝ) = n) (hn0 : n ≠ 0) :
    (∑ i, ∑ j, a i j * b i j) * (1 / n) - ((∑ i, ∑ j, a i j) * (1 / n)) * ((∑ i, ∑ j, b i j) * (1 / n))
      = (∑ i, ∑ j, (a i j - (∑ i, ∑ j, a i j) * (1 / n)) * (b i j - (∑ i, ∑ j, b i j) * (1 / n))) * (1 / n) := by
  generalize hA : (∑ i, ∑ j, a i j) = A
  generalize hB : (∑ i, ∑ j, b i j) = B
  have hexp : ∀ i j, (a i j - A * (1 / n)) * (b i j - B * (1 / n))
      = a i j * b i j - (B * (1 / n)) * a i j - (A * (1 / n)) * b i j + (A * (1 / n)) * (B * (1 / n)) := fun i j => by ring
  simp only [hexp, Finset.sum_add_distrib, Finset.sum_sub_distrib, ← Finset.mul_sum, Finset.sum_const, Finset.card_univ,
    Fintype.card_fin, nsmul_eq_mul, hA, hB]
  subst hn
  have hm : (m : ℝ) ≠ 0 := left_ne_zero_of_mul hn0
  have hk : (k : ℝ) ≠ 0 := right_ne_zero_of_mul hn0
  field_simp
  ring

/-- The two covariance entries agree when every input is finite; `c` is the regulariser's term, which the law never opens. -/
theorem sig_entry (X : SX.Idx → EReal) (hX : ∀ j, ∃ r : ℝ, X j = (r : EReal)) (g : Fin 4) (d e : Fin 64) (c : EReal) :
    (c + Ideal.div (sumXX X g d e) cnt) - mean X g d * mean X g e = c + Ideal.div (sumCC X g d e) cnt := by
  choose xr hxr using hX
  have h0 : (200704 : ℝ) ≠ 0 := by norm_num
  have hA : ∀ d', sumX X g d' = ((∑ b : Fin 64, ∑ p : Fin 3136, xr (ix4 b (chan g d') (prow p) (pcol p)) : ℝ) : EReal) := fun d' => by
    unfold sumX xAt; simp only [hxr]; rw [coe_finsum2]
  have hM : ∀ d', mean X g d' = (((∑ b : Fin 64, ∑ p : Fin 3136, xr (ix4 b (chan g d') (prow p) (pcol p))) * (1 / 200704) : ℝ) : EReal) := fun d' => by
    unfold mean; rw [hA, cnt_eq, Ideal.div_coe h0, ← EReal.coe_mul]
  have hAB : sumXX X g d e = ((∑ b : Fin 64, ∑ p : Fin 3136,
      xr (ix4 b (chan g d) (prow p) (pcol p)) * xr (ix4 b (chan g e) (prow p) (pcol p)) : ℝ) : EReal) := by
    unfold sumXX xAt; simp only [hxr, ← EReal.coe_mul]; rw [coe_finsum2]
  have hCC : sumCC X g d e = ((∑ b : Fin 64, ∑ p : Fin 3136,
      (xr (ix4 b (chan g d) (prow p) (pcol p)) - (∑ b : Fin 64, ∑ p : Fin 3136, xr (ix4 b (chan g d) (prow p) (pcol p))) * (1 / 200704))
      * (xr (ix4 b (chan g e) (prow p) (pcol p)) - (∑ b : Fin 64, ∑ p : Fin 3136, xr (ix4 b (chan g e) (prow p) (pcol p))) * (1 / 200704)) : ℝ) : EReal) := by
    unfold sumCC; simp only [hM]; unfold xAt; simp only [hxr, ← EReal.coe_sub, ← EReal.coe_mul]; rw [coe_finsum2]
  rw [hAB, hCC, hM, hM, cnt_eq, Ideal.div_coe h0, Ideal.div_coe h0, sub_eq_add_neg, add_assoc,
    ← EReal.coe_mul, ← EReal.coe_mul, ← EReal.coe_mul, ← EReal.coe_neg, ← EReal.coe_add, ← sub_eq_add_neg]
  refine congrArg (fun r : ℝ => c + (r : EReal)) ?_
  exact cov_real _ _ 200704 (by norm_num) h0

/-- The covariance from raw moments is the covariance from centred data, when every input is finite. -/
theorem sig_eq (E : SE.Idx → EReal) (X : SX.Idx → EReal) (hX : ∀ j, ∃ r : ℝ, X j = (r : EReal)) : sigRaw E X = sigCen E X := by
  funext j
  obtain ⟨g, d, e, rfl⟩ : ∃ (g : Fin 4) (d e : Fin 64), j = ix3 g d e := ⟨j 0, j 1, j 2, eq_ix3 j⟩
  exact sig_entry X hX g d e _

end Cert.Whiten

end
-- ==== Proof.Finite.lean ====
/-
  The precondition, read back: every float input is finite, so every entry of X is a real number.

  The predicate is the conjunction of three "all |x| < +inf" tests, one per input; it being all ones gives each test,
  each test gives its comparison at every index, and an extended real whose absolute value is below +inf is real.
-/
import proofs.«165309_j63874753626715_1_alg».proof.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.Whiten.Finite

open Idealize.ShloMosaic Idealize.ShloMosaic.ValueIdx Cert.Pre_finite_inputs

instance : Subsingleton S_.Idx := ⟨fun a b => funext fun d => d.elim0⟩

/-- The literal the tests compare against is +inf. -/
theorem inf_eq : Ideal.ofBits .f32 0x7F800000#32 = (⊤ : EReal) := by
  simp [Ideal.ofBits, Ideal.ieee]

/-- An extended real with |x| < +inf is a real number. -/
theorem real_of_lt (x : EReal) (h : Ideal.cmp .olt (max x (-x)) (⊤ : EReal) = 1#1) : ∃ r : ℝ, x = (r : EReal) := by
  have hlt : max x (-x) < ⊤ := by
    by_contra hn
    have h0 : Ideal.cmp .olt (max x (-x)) (⊤ : EReal) = 0#1 := by simp [Ideal.cmp, hn]
    rw [h0] at h
    exact absurd h (by decide)
  induction x using EReal.rec with
  | bot => simp at hlt
  | coe r => exact ⟨r, rfl⟩
  | top => simp at hlt

/-- Under the precondition every entry of the first input is real. -/
theorem x_real [Facts] (X : FVec Ideal S64x256x56x56 .f32) (w b : FVec Ideal S1x256x1x1 .f32)
    (h : fn (F := Ideal) X w b = fun _ => 1#1) : ∀ j, ∃ r : ℝ, X j = (r : EReal) := by
  intro j
  have h0 := congrFun h ix0
  dsimp only [fn] at h0
  have h1 := (IntOp.andi_eq_one.mp h0).1
  have h2 := (IntOp.andi_eq_one.mp h1).1
  have h3 := Host.reduce_andi_all _ _ Facts.reducesTo_S64x256x56x56_S_d0_1_2_3 Facts.h_S_ ix0 h2 j
  refine real_of_lt (X j) ?_
  rw [← inf_eq]
  exact h3

end Cert.Whiten.Finite

end
-- ==== Proof.Bridge.lean ====
/-
  The two programs compute one function.

  Both end at the specification's output formula over a whitening matrix made by the same chain of host operations
  from a covariance matrix; the kernel's covariance is the one from raw moments, the reference's the one from centred
  data, and for finite inputs these are equal (module Covariance).  The chain and the identity matrix are spelled with
  each program's own shape records, which are the same records.
-/
import proofs.«165309_j63874753626715_1_alg».proof.Defs
import proofs.«165309_j63874753626715_1_alg».proof.Proof.KValue
import proofs.«165309_j63874753626715_1_alg».proof.Proof.RefValue
import proofs.«165309_j63874753626715_1_alg».proof.Proof.Covariance
import proofs.«165309_j63874753626715_1_alg».proof.Proof.Finite
import proofs.«165309_j63874753626715_1_alg».proof.Proof.Gen.Pre_finite_inputs

set_option maxRecDepth 16384

noncomputable section

namespace Cert.Proof.Bridge

open Idealize.ShloMosaic Idealize.ShloMosaic.TcCoe Idealize.SL.Sem Cert.Whiten

/-- The identity matrix is computed by the same operations in both programs. -/
theorem eye_eq : (Cert.KernelIdeal.KTail.eye : SE.Idx → EReal) = Cert.ReferenceIdeal.RefValue.eye := rfl

/-- The chain from covariance to whitening matrix is the same operations in both programs. -/
theorem tail_eq (E : SE.Idx → EReal) (S : SG.Idx → EReal) :
    (Cert.KernelIdeal.KTail.tail E S : SG.Idx → EReal) = Cert.ReferenceIdeal.RefValue.tail E S := rfl

/-- At the ideal instance the two programs, from memories agreeing on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Whiten.out
      (Cert.KernelIdeal.KTail.tail Cert.KernelIdeal.KTail.eye (sigRaw Cert.KernelIdeal.KTail.eye (m ((c.tc : Thread Cert.KernelIdeal.nD Cert.KernelIdeal.τ).loc Cert.KernelIdeal.main_arg0))))
      (mean (m ((c.tc : Thread Cert.KernelIdeal.nD Cert.KernelIdeal.τ).loc Cert.KernelIdeal.main_arg0)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.KValue.value m ρ c), (h c).2⟩)
      (Cert.KernelIdeal.KernelRun.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.result_eq (Idealize.ShloMosaic.StableHlo.launchContents m' c)).trans ?_
    have hX := @Cert.Whiten.Finite.x_real Cert.Pre_finite_inputs.Gen.facts _ _ _ (hpre c)
    have e0 : Idealize.ShloMosaic.StableHlo.launchContents m' c (Proc.devRef .tc Cert.ReferenceIdeal.main_arg0)
        = m ((c.tc : Thread Cert.KernelIdeal.nD Cert.KernelIdeal.τ).loc Cert.KernelIdeal.main_arg0) := (hagree c).1
    have e1 : Idealize.ShloMosaic.StableHlo.launchContents m' c (Proc.devRef .tc Cert.ReferenceIdeal.main_arg1)
        = m ((c.tc : Thread Cert.KernelIdeal.nD Cert.KernelIdeal.τ).loc Cert.KernelIdeal.main_arg1) := (hagree c).2.1
    have e2 : Idealize.ShloMosaic.StableHlo.launchContents m' c (Proc.devRef .tc Cert.ReferenceIdeal.main_arg2)
        = m ((c.tc : Thread Cert.KernelIdeal.nD Cert.KernelIdeal.τ).loc Cert.KernelIdeal.main_arg2) := (hagree c).2.2
    rw [e0, e1, e2, ← eye_eq, ← tail_eq, ← sig_eq _ _ hX]

end Cert.Proof.Bridge

end
-- ==== Proof.lean ====
/-
  Group whitening (four groups of 64 channels, Newton–Schulz inverse square root of each group's covariance) as a
  two-pass kernel — channel sums and raw second moments accumulated over batch tiles, then the whitening of every
  block — against the reference that centres the data first.  The three programs run to completion with their
  arguments unchanged; the idealization rewrote nothing; and over the extended reals, for finite inputs, the two
  idealized programs end with the same result array: the same output formula over a whitening matrix made by the same
  chain of host operations from two spellings of one covariance matrix,
      Σ x_d x_e / n − (Σ x_d / n)(Σ x_e / n)  =  Σ (x_d − Σ x_d / n)(x_e − Σ x_e / n) / n.
-/
import proofs.«165309_j63874753626715_1_alg».proof.Defs
import proofs.«165309_j63874753626715_1_alg».proof.Proof.Gen.Kernel
import proofs.«165309_j63874753626715_1_alg».proof.Proof.Gen.Kernel.Frame
import proofs.«165309_j63874753626715_1_alg».proof.Proof.Gen.KernelIdeal
import proofs.«165309_j63874753626715_1_alg».proof.Proof.Gen.KernelIdeal.Frame
import proofs.«165309_j63874753626715_1_alg».proof.Proof.Gen.ReferenceIdeal
import proofs.«165309_j63874753626715_1_alg».proof.Proof.Gen.ReferenceIdeal.Run
import proofs.«165309_j63874753626715_1_alg».proof.Proof.Gen.Pre_finite_inputs
import proofs.«165309_j63874753626715_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a line of host operations: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, Cert.Proof.Bridge.algebraic⟩

end Cert.Proof

end
